-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S4000000 : Shape := ⟨1, ![4000000]⟩
abbrev S4096 : Shape := ⟨1, ![4096]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S100000x64 .f32) (main_arg1 : FVec F S50000x64 .f32) (main_arg2 : FVec F S4000000 .f32) (main_arg3 : IVec S4000000 32) (main_arg4 : IVec S4000000 32) (main_arg5 : IVec S4096 32) (main_arg6 : IVec S4096 32) (main_arg7 : IVec S4096 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  main_v13
-- ==== Kernel.lean ====
abbrev S100000x64 : Shape := ⟨2, ![100000, 64]⟩
abbrev S50000x64 : Shape := ⟨2, ![50000, 64]⟩
abbrev S4000000 : Shape := ⟨1, ![4000000]⟩
abbrev S4096 : Shape := ⟨1, ![4096]⟩
abbrev S150000x64 : Shape := ⟨2, ![150000, 64]⟩
abbrev S4000000x1 : Shape := ⟨2, ![4000000, 1]⟩
abbrev S_ : Shape := ⟨0, ![]⟩
abbrev S4000000x64 : Shape := ⟨2, ![4000000, 64]⟩
abbrev S8192x1 : Shape := ⟨2, ![8192, 1]⟩
abbrev S8192x64 : Shape := ⟨2, ![8192, 64]⟩
abbrev S8000x64 : Shape := ⟨2, ![8000, 64]⟩
abbrev S4096x1 : Shape := ⟨2, ![4096, 1]⟩
abbrev S4096x64 : Shape := ⟨2, ![4096, 64]⟩

abbrev nBuf : Space → Nat
  | .hbm => 90
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .f32⟩
  | .hbm, ⟨3, _⟩ => ⟨S4000000, .i32⟩
  | .hbm, ⟨4, _⟩ => ⟨S4000000, .i32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S150000x64, .f32⟩
  | .hbm, ⟨9, _⟩ => ⟨S4000000x1, .f32⟩
  | .hbm, ⟨10, _⟩ => ⟨S_, .i32⟩
  | .hbm, ⟨11, _⟩ => ⟨S4000000, .i32⟩
  | .hbm, ⟨12, _⟩ => ⟨S4000000, .i1⟩
  | .hbm, ⟨13, _⟩ => ⟨S_, .i32⟩
  | .hbm, ⟨14, _⟩ => ⟨S4000000, .i32⟩
  | .hbm, ⟨15, _⟩ => ⟨S4000000, .i32⟩
  | .hbm, ⟨16, _⟩ => ⟨S4000000, .i32⟩
  | .hbm, ⟨17, _⟩ => ⟨S4000000x1, .i32⟩
  | .hbm, ⟨18, _⟩ => ⟨S4000000x64, .f32⟩
  | .hbm, ⟨19, _⟩ => ⟨S4000000x64, .f32⟩
  | .hbm, ⟨20, _⟩ => ⟨S_, .f32⟩
  | .hbm, ⟨21, _⟩ => ⟨S150000x64, .f32⟩
  | .hbm, ⟨22, _⟩ => ⟨S4000000x1, .i32⟩
  | .hbm, ⟨23, _⟩ => ⟨S150000x64, .f32⟩
  | .hbm, ⟨24, _⟩ => ⟨S150000x64, .f32⟩
  | .hbm, ⟨25, _⟩ => ⟨S_, .i32⟩
  | .hbm, ⟨26, _⟩ => ⟨S4000000, .i32⟩
  | .hbm, ⟨27, _⟩ => ⟨S4000000, .i1⟩
  | .hbm, ⟨28, _⟩ => ⟨S_, .i32⟩
  | .hbm, ⟨29, _⟩ => ⟨S4000000, .i32⟩
  | .hbm, ⟨30, _⟩ => ⟨S4000000, .i32⟩
  | .hbm, ⟨31, _⟩ => ⟨S4000000, .i32⟩
  | .hbm, ⟨32, _⟩ => ⟨S4000000x1, .i32⟩
  | .hbm, ⟨33, _⟩ => ⟨S4000000x64, .f32⟩
  | .hbm, ⟨34, _⟩ => ⟨S4000000x64, .f32⟩
  | .hbm, ⟨35, _⟩ => ⟨S_, .f32⟩
  | .hbm, ⟨36, _⟩ => ⟨S150000x64, .f32⟩
  | .hbm, ⟨37, _⟩ => ⟨S4000000x1, .i32⟩
  | .hbm, ⟨38, _⟩ => ⟨S150000x64, .f32⟩
  | .hbm, ⟨39, _⟩ => ⟨S150000x64, .f32⟩
  | .hbm, ⟨40, _⟩ => ⟨S_, .i32⟩
  | .hbm, ⟨41, _⟩ => ⟨S4000000, .i32⟩
  | .hbm, ⟨42, _⟩ => ⟨S4000000, .i1⟩
  | .hbm, ⟨43, _⟩ => ⟨S_, .i32⟩
  | .hbm, ⟨44, _⟩ => ⟨S4000000, .i32⟩
  | .hbm, ⟨45, _⟩ => ⟨S4000000, .i32⟩
  | .hbm, ⟨46, _⟩ => ⟨S4000000, .i32⟩
  | .hbm, ⟨47, _⟩ => ⟨S4000000x1, .i32⟩
  | .hbm, ⟨48, _⟩ => ⟨S4000000x64, .f32⟩
  | .hbm, ⟨49, _⟩ => ⟨S4000000x64, .f32⟩
  | .hbm, ⟨50, _⟩ => ⟨S_, .f32⟩
  | .hbm, ⟨51, _⟩ => ⟨S150000x64, .f32⟩
  | .hbm, ⟨52, _⟩ => ⟨S4000000x1, .i32⟩
  | .hbm, ⟨53, _⟩ => ⟨S150000x64, .f32⟩
  | .hbm, ⟨54, _⟩ => ⟨S150000x64, .f32⟩
  | .hbm, ⟨55, _⟩ => ⟨S100000x64, .f32⟩
  | .hbm, ⟨56, _⟩ => ⟨S50000x64, .f32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S4096x1, .i32⟩
  | .hbm, ⟨65, _⟩ => ⟨S4096x64, .f32⟩
  | .hbm, ⟨66, _⟩ => ⟨S_, .i32⟩
  | .hbm, ⟨67, _⟩ => ⟨S4096, .i32⟩
  | .hbm, ⟨68, _⟩ => ⟨S4096, .i1⟩
  | .hbm, ⟨69, _⟩ => ⟨S_, .i32⟩
  | .hbm, ⟨70, _⟩ => ⟨S4096, .i32⟩
  | .hbm, ⟨71, _⟩ => ⟨S4096, .i32⟩
  | .hbm, ⟨72, _⟩ => ⟨S4096, .i32⟩
  | .hbm, ⟨73, _⟩ => ⟨S4096x1, .i32⟩
  | .hbm, ⟨74, _⟩ => ⟨S4096x64, .f32⟩
  | .hbm, ⟨75, _⟩ => ⟨S_, .i32⟩
  | .hbm, ⟨76, _⟩ => ⟨S4096, .i32⟩
  | .hbm, ⟨77, _⟩ => ⟨S4096, .i1⟩
  | .hbm, ⟨78, _⟩ => ⟨S_, .i32⟩
  | .hbm, ⟨79, _⟩ => ⟨S4096, .i32⟩
  | .hbm, ⟨80, _⟩ => ⟨S4096, .i32⟩
  | .hbm, ⟨81, _⟩ => ⟨S4096, .i32⟩
  | .hbm, ⟨82, _⟩ => ⟨S4096x1, .i32⟩
  | .hbm, ⟨83, _⟩ => ⟨S4096x64, .f32⟩
  | .hbm, ⟨84, _⟩ => ⟨S4096x64, .f32⟩
  | .hbm, ⟨85, _⟩ => ⟨S_, .f32⟩
  | .hbm, ⟨86, _⟩ => ⟨S4096, .f32⟩
  | .hbm, ⟨87, _⟩ => ⟨S4096x64, .f32⟩
  | .hbm, ⟨88, _⟩ => ⟨S_, .f32⟩
  | .hbm, ⟨89, _⟩ => ⟨S4096, .f32⟩
  | .local _ .vmem, ⟨0, _⟩ => ⟨S8192x1, .f32⟩
  | .local _ .vmem, ⟨1, _⟩ => ⟨S8192x1, .f32⟩
  | .local _ .vmem, ⟨2, _⟩ => ⟨S8192x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S8000x64, .f32⟩
  | .local _ .vmem, ⟨7, _⟩ => ⟨S8000x64, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | .local _ .vmem, ⟨12, _⟩ => ⟨S8192x1, .f32⟩
  | .local _ .vmem, ⟨13, _⟩ => ⟨S8192x1, .f32⟩
  | .local _ .vmem, ⟨14, _⟩ => ⟨S8192x64, .f32⟩
  | .local _ .vmem, ⟨15, _⟩ => ⟨S8192x64, .f32⟩
  | .local _ .vmem, ⟨16, _⟩ => ⟨S8192x64, .f32⟩
  | .local _ .vmem, ⟨17, _⟩ => ⟨S8192x64, .f32⟩
  | .local _ .vmem, ⟨18, _⟩ => ⟨S8000x64, .f32⟩
  | .local _ .vmem, ⟨19, _⟩ => ⟨S8000x64, .f32⟩
  | .local _ .vmem, ⟨20, _⟩ => ⟨S8000x64, .f32⟩
  | .local _ .vmem, ⟨21, _⟩ => ⟨S8000x64, .f32⟩
  | .local _ .vmem, ⟨22, _⟩ => ⟨S8000x64, .f32⟩
  | .local _ .vmem, ⟨23, _⟩ => ⟨S8000x64, .f32⟩
  | .local _ .vmem, ⟨24, _⟩ => ⟨S8192x1, .f32⟩
  | .local _ .vmem, ⟨25, _⟩ => ⟨S8192x1, .f32⟩
  | .local _ .vmem, ⟨26, _⟩ => ⟨S8192x64, .f32⟩
  | .local _ .vmem, ⟨27, _⟩ => ⟨S8192x64, .f32⟩
  | .local _ .vmem, ⟨28, _⟩ => ⟨S8192x64, .f32⟩
  | .local _ .vmem, ⟨29, _⟩ => ⟨S8192x64, .f32⟩
  | .local _ .vmem, ⟨30, _⟩ => ⟨S8000x64, .f32⟩
  | .local _ .vmem, ⟨31, _⟩ => ⟨S8000x64, .f32⟩
  | .local _ .vmem, ⟨32, _⟩ => ⟨S8000x64, .f32⟩
  | .local _ .vmem, ⟨33, _⟩ => ⟨S8000x64, .f32⟩
  | .local _ .vmem, ⟨34, _⟩ => ⟨S8000x64, .f32⟩
  | .local _ .vmem, ⟨35, _⟩ => ⟨S8000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_7 : Ref sig .tc := ⟨.hbm, 57, rfl⟩
abbrev main_v40 : Ref sig .tc := ⟨.hbm, 58, rfl⟩
abbrev main_v41 : Ref sig .tc := ⟨.hbm, 59, rfl⟩
abbrev main_c_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![489], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![19], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![489], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![19], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![489], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![19], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  concatenates_S100000x64_S50000x64_S150000x64_d0 : Shape.Concatenates [S100000x64, S50000x64] S150000x64 0
  shapeCasts_S4000000_S4000000x1 : S4000000.ShapeCasts S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  broadcasts_S8192x1_S8192x64 : S8192x1.Broadcasts S8192x64
  bcast_S_S150000x64 : S_.BroadcastsInDim S150000x64 (![] : Fin 0 → Fin S150000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x1.size a < S4000000x1.size a
  hwx0_0 : ∀ i : grid0.Coords, EltTy.bits .f32 = 32 ∨ (Rect.unit (s := S4000000x1) (fun a => cc0_transform_0 i a * S8192x1.size a) (fun a => (Pipeline.Clip.of (cc0_transform_0 i a) (S8192x1.size a) (S4000000x1.size a)).extent (S8192x1.size a)) fun a => Pipeline.Clip.inb (Pipeline.Clip.ok_of (hstart0_0 i a))).WholeWords (EltTy.packing .f32)
  hwxs0_0 : ∀ i : grid0.Coords, EltTy.bits .f32 = 32 ∨ (Rect.unit (s := S8192x1) (fun _ => 0) (fun a => (Pipeline.Clip.of (cc0_transform_0 i a) (S8192x1.size a) (S4000000x1.size a)).extent (S8192x1.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x64.size a < S4000000x64.size a
  hwx0_1 : ∀ i : grid0.Coords, EltTy.bits .f32 = 32 ∨ (Rect.unit (s := S4000000x64) (fun a => cc0_transform_1 i a * S8192x64.size a) (fun a => (Pipeline.Clip.of (cc0_transform_1 i a) (S8192x64.size a) (S4000000x64.size a)).extent (S8192x64.size a)) fun a => Pipeline.Clip.inb (Pipeline.Clip.ok_of (hstart0_1 i a))).WholeWords (EltTy.packing .f32)
  hwxs0_1 : ∀ i : grid0.Coords, EltTy.bits .f32 = 32 ∨ (Rect.unit (s := S8192x64) (fun _ => 0) (fun a => (Pipeline.Clip.of (cc0_transform_1 i a) (S8192x64.size a) (S4000000x64.size a)).extent (S8192x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x64.size a < S4000000x64.size a
  hwx0_2 : ∀ i : grid0.Coords, EltTy.bits .f32 = 32 ∨ (Rect.unit (s := S4000000x64) (fun a => cc0_transform_2 i a * S8192x64.size a) (fun a => (Pipeline.Clip.of (cc0_transform_2 i a) (S8192x64.size a) (S4000000x64.size a)).extent (S8192x64.size a)) fun a => Pipeline.Clip.inb (Pipeline.Clip.ok_of (hstart0_2 i a))).WholeWords (EltTy.packing .f32)
  hwxs0_2 : ∀ i : grid0.Coords, EltTy.bits .f32 = 32 ∨ (Rect.unit (s := S8192x64) (fun _ => 0) (fun a => (Pipeline.Clip.of (cc0_transform_2 i a) (S8192x64.size a) (S4000000x64.size a)).extent (S8192x64.size a)) fun a => (Nat.zero_add _).trans_le (Pipeline.Clip.extent_le (Pipeline.Clip.ok_of (hstart0_2 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S8000x64.size a < S150000x64.size a
  hwx1_0 : ∀ i : grid1.Coords, EltTy.bits .f32 = 32 ∨ (Rect.unit (s := S150000x64) (fun a => cc1_transform_0 i a * S8000x64.size a) (fun a => (Pipeline.Clip.of (cc1_transform_0 i a) (S8000x64.size a) (S150000x64.size a)).extent (S8000x64.size a)) fun a => Pipeline.Clip.inb (Pipeline.Clip.ok_of (hstart1_0 i a))).WholeWords (EltTy.packing .f32)
  hwxs1_0 : ∀ i : grid1.Coords, EltTy.bits .f32 = 32 ∨ (Rect.unit (s := S8000x64) (fun _ => 0) (fun a => (Pipeline.Clip.of (cc1_transform_0 i a) (S8000x64.size a) (S150000x64.size a)).extent (S8000x64.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S8000x64.size a < S150000x64.size a
  hwx1_1 : ∀ i : grid1.Coords, EltTy.bits .f32 = 32 ∨ (Rect.unit (s := S150000x64) (fun a => cc1_transform_1 i a * S8000x64.size a) (fun a => (Pipeline.Clip.of (cc1_transform_1 i a) (S8000x64.size a) (S150000x64.size a)).extent (S8000x64.size a)) fun a => Pipeline.Clip.inb (Pipeline.Clip.ok_of (hstart1_1 i a))).WholeWords (EltTy.packing .f32)
  hwxs1_1 : ∀ i : grid1.Coords, EltTy.bits .f32 = 32 ∨ (Rect.unit (s := S8000x64) (fun _ => 0) (fun a => (Pipeline.Clip.of (cc1_transform_1 i a) (S8000x64.size a) (S150000x64.size a)).extent (S8000x64.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S8000x64.size a < S150000x64.size a
  hwx1_2 : ∀ i : grid1.Coords, EltTy.bits .f32 = 32 ∨ (Rect.unit (s := S150000x64) (fun a => cc1_transform_2 i a * S8000x64.size a) (fun a => (Pipeline.Clip.of (cc1_transform_2 i a) (S8000x64.size a) (S150000x64.size a)).extent (S8000x64.size a)) fun a => Pipeline.Clip.inb (Pipeline.Clip.ok_of (hstart1_2 i a))).WholeWords (EltTy.packing .f32)
  hwxs1_2 : ∀ i : grid1.Coords, EltTy.bits .f32 = 32 ∨ (Rect.unit (s := S8000x64) (fun _ => 0) (fun a => (Pipeline.Clip.of (cc1_transform_2 i a) (S8000x64.size a) (S150000x64.size a)).extent (S8000x64.size a)) fun a => (Nat.zero_add _).trans_le (Pipeline.Clip.extent_le (Pipeline.Clip.ok_of (hstart1_2 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S8192x1.size a < S4000000x1.size a
  hwx2_0 : ∀ i : grid2.Coords, EltTy.bits .f32 = 32 ∨ (Rect.unit (s := S4000000x1) (fun a => cc2_transform_0 i a * S8192x1.size a) (fun a => (Pipeline.Clip.of (cc2_transform_0 i a) (S8192x1.size a) (S4000000x1.size a)).extent (S8192x1.size a)) fun a => Pipeline.Clip.inb (Pipeline.Clip.ok_of (hstart2_0 i a))).WholeWords (EltTy.packing .f32)
  hwxs2_0 : ∀ i : grid2.Coords, EltTy.bits .f32 = 32 ∨ (Rect.unit (s := S8192x1) (fun _ => 0) (fun a => (Pipeline.Clip.of (cc2_transform_0 i a) (S8192x1.size a) (S4000000x1.size a)).extent (S8192x1.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S8192x64.size a < S4000000x64.size a
  hwx2_1 : ∀ i : grid2.Coords, EltTy.bits .f32 = 32 ∨ (Rect.unit (s := S4000000x64) (fun a => cc2_transform_1 i a * S8192x64.size a) (fun a => (Pipeline.Clip.of (cc2_transform_1 i a) (S8192x64.size a) (S4000000x64.size a)).extent (S8192x64.size a)) fun a => Pipeline.Clip.inb (Pipeline.Clip.ok_of (hstart2_1 i a))).WholeWords (EltTy.packing .f32)
  hwxs2_1 : ∀ i : grid2.Coords, EltTy.bits .f32 = 32 ∨ (Rect.unit (s := S8192x64) (fun _ => 0) (fun a => (Pipeline.Clip.of (cc2_transform_1 i a) (S8192x64.size a) (S4000000x64.size a)).extent (S8192x64.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S8192x64.size a < S4000000x64.size a
  hwx2_2 : ∀ i : grid2.Coords, EltTy.bits .f32 = 32 ∨ (Rect.unit (s := S4000000x64) (fun a => cc2_transform_2 i a * S8192x64.size a) (fun a => (Pipeline.Clip.of (cc2_transform_2 i a) (S8192x64.size a) (S4000000x64.size a)).extent (S8192x64.size a)) fun a => Pipeline.Clip.inb (Pipeline.Clip.ok_of (hstart2_2 i a))).WholeWords (EltTy.packing .f32)
  hwxs2_2 : ∀ i : grid2.Coords, EltTy.bits .f32 = 32 ∨ (Rect.unit (s := S8192x64) (fun _ => 0) (fun a => (Pipeline.Clip.of (cc2_transform_2 i a) (S8192x64.size a) (S4000000x64.size a)).extent (S8192x64.size a)) fun a => (Nat.zero_add _).trans_le (Pipeline.Clip.extent_le (Pipeline.Clip.ok_of (hstart2_2 i a)))).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S8000x64.size a < S150000x64.size a
  hwx3_0 : ∀ i : grid3.Coords, EltTy.bits .f32 = 32 ∨ (Rect.unit (s := S150000x64) (fun a => cc3_transform_0 i a * S8000x64.size a) (fun a => (Pipeline.Clip.of (cc3_transform_0 i a) (S8000x64.size a) (S150000x64.size a)).extent (S8000x64.size a)) fun a => Pipeline.Clip.inb (Pipeline.Clip.ok_of (hstart3_0 i a))).WholeWords (EltTy.packing .f32)
  hwxs3_0 : ∀ i : grid3.Coords, EltTy.bits .f32 = 32 ∨ (Rect.unit (s := S8000x64) (fun _ => 0) (fun a => (Pipeline.Clip.of (cc3_transform_0 i a) (S8000x64.size a) (S150000x64.size a)).extent (S8000x64.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S8000x64.size a < S150000x64.size a
  hwx3_1 : ∀ i : grid3.Coords, EltTy.bits .f32 = 32 ∨ (Rect.unit (s := S150000x64) (fun a => cc3_transform_1 i a * S8000x64.size a) (fun a => (Pipeline.Clip.of (cc3_transform_1 i a) (S8000x64.size a) (S150000x64.size a)).extent (S8000x64.size a)) fun a => Pipeline.Clip.inb (Pipeline.Clip.ok_of (hstart3_1 i a))).WholeWords (EltTy.packing .f32)
  hwxs3_1 : ∀ i : grid3.Coords, EltTy.bits .f32 = 32 ∨ (Rect.unit (s := S8000x64) (fun _ => 0) (fun a => (Pipeline.Clip.of (cc3_transform_1 i a) (S8000x64.size a) (S150000x64.size a)).extent (S8000x64.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S8000x64.size a < S150000x64.size a
  hwx3_2 : ∀ i : grid3.Coords, EltTy.bits .f32 = 32 ∨ (Rect.unit (s := S150000x64) (fun a => cc3_transform_2 i a * S8000x64.size a) (fun a => (Pipeline.Clip.of (cc3_transform_2 i a) (S8000x64.size a) (S150000x64.size a)).extent (S8000x64.size a)) fun a => Pipeline.Clip.inb (Pipeline.Clip.ok_of (hstart3_2 i a))).WholeWords (EltTy.packing .f32)
  hwxs3_2 : ∀ i : grid3.Coords, EltTy.bits .f32 = 32 ∨ (Rect.unit (s := S8000x64) (fun _ => 0) (fun a => (Pipeline.Clip.of (cc3_transform_2 i a) (S8000x64.size a) (S150000x64.size a)).extent (S8000x64.size a)) fun a => (Nat.zero_add _).trans_le (Pipeline.Clip.extent_le (Pipeline.Clip.ok_of (hstart3_2 i a)))).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hstart4_0 : ∀ (i : grid4.Coords) a, cc4_transform_0 i a * S8192x1.size a < S4000000x1.size a
  hwx4_0 : ∀ i : grid4.Coords, EltTy.bits .f32 = 32 ∨ (Rect.unit (s := S4000000x1) (fun a => cc4_transform_0 i a * S8192x1.size a) (fun a => (Pipeline.Clip.of (cc4_transform_0 i a) (S8192x1.size a) (S4000000x1.size a)).extent (S8192x1.size a)) fun a => Pipeline.Clip.inb (Pipeline.Clip.ok_of (hstart4_0 i a))).WholeWords (EltTy.packing .f32)
  hwxs4_0 : ∀ i : grid4.Coords, EltTy.bits .f32 = 32 ∨ (Rect.unit (s := S8192x1) (fun _ => 0) (fun a => (Pipeline.Clip.of (cc4_transform_0 i a) (S8192x1.size a) (S4000000x1.size a)).extent (S8192x1.size a)) fun a => (Nat.zero_add _).trans_le (Pipeline.Clip.extent_le (Pipeline.Clip.ok_of (hstart4_0 i a)))).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hstart4_1 : ∀ (i : grid4.Coords) a, cc4_transform_1 i a * S8192x64.size a < S4000000x64.size a
  hwx4_1 : ∀ i : grid4.Coords, EltTy.bits .f32 = 32 ∨ (Rect.unit (s := S4000000x64) (fun a => cc4_transform_1 i a * S8192x64.size a) (fun a => (Pipeline.Clip.of (cc4_transform_1 i a) (S8192x64.size a) (S4000000x64.size a)).extent (S8192x64.size a)) fun a => Pipeline.Clip.inb (Pipeline.Clip.ok_of (hstart4_1 i a))).WholeWords (EltTy.packing .f32)
  hwxs4_1 : ∀ i : grid4.Coords, EltTy.bits .f32 = 32 ∨ (Rect.unit (s := S8192x64) (fun _ => 0) (fun a => (Pipeline.Clip.of (cc4_transform_1 i a) (S8192x64.size a) (S4000000x64.size a)).extent (S8192x64.size a)) fun a => (Nat.zero_add _).trans_le (Pipeline.Clip.extent_le (Pipeline.Clip.ok_of (hstart4_1 i a)))).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hstart4_2 : ∀ (i : grid4.Coords) a, cc4_transform_2 i a * S8192x64.size a < S4000000x64.size a
  hwx4_2 : ∀ i : grid4.Coords, EltTy.bits .f32 = 32 ∨ (Rect.unit (s := S4000000x64) (fun a => cc4_transform_2 i a * S8192x64.size a) (fun a => (Pipeline.Clip.of (cc4_transform_2 i a) (S8192x64.size a) (S4000000x64.size a)).extent (S8192x64.size a)) fun a => Pipeline.Clip.inb (Pipeline.Clip.ok_of (hstart4_2 i a))).WholeWords (EltTy.packing .f32)
  hwxs4_2 : ∀ i : grid4.Coords, EltTy.bits .f32 = 32 ∨ (Rect.unit (s := S8192x64) (fun _ => 0) (fun a => (Pipeline.Clip.of (cc4_transform_2 i a) (S8192x64.size a) (S4000000x64.size a)).extent (S8192x64.size a)) fun a => (Nat.zero_add _).trans_le (Pipeline.Clip.extent_le (Pipeline.Clip.ok_of (hstart4_2 i a)))).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hstart5_0 : ∀ (i : grid5.Coords) a, cc5_transform_0 i a * S8000x64.size a < S150000x64.size a
  hwx5_0 : ∀ i : grid5.Coords, EltTy.bits .f32 = 32 ∨ (Rect.unit (s := S150000x64) (fun a => cc5_transform_0 i a * S8000x64.size a) (fun a => (Pipeline.Clip.of (cc5_transform_0 i a) (S8000x64.size a) (S150000x64.size a)).extent (S8000x64.size a)) fun a => Pipeline.Clip.inb (Pipeline.Clip.ok_of (hstart5_0 i a))).WholeWords (EltTy.packing .f32)
  hwxs5_0 : ∀ i : grid5.Coords, EltTy.bits .f32 = 32 ∨ (Rect.unit (s := S8000x64) (fun _ => 0) (fun a => (Pipeline.Clip.of (cc5_transform_0 i a) (S8000x64.size a) (S150000x64.size a)).extent (S8000x64.size a)) fun a => (Nat.zero_add _).trans_le (Pipeline.Clip.extent_le (Pipeline.Clip.ok_of (hstart5_0 i a)))).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hstart5_1 : ∀ (i : grid5.Coords) a, cc5_transform_1 i a * S8000x64.size a < S150000x64.size a
  hwx5_1 : ∀ i : grid5.Coords, EltTy.bits .f32 = 32 ∨ (Rect.unit (s := S150000x64) (fun a => cc5_transform_1 i a * S8000x64.size a) (fun a => (Pipeline.Clip.of (cc5_transform_1 i a) (S8000x64.size a) (S150000x64.size a)).extent (S8000x64.size a)) fun a => Pipeline.Clip.inb (Pipeline.Clip.ok_of (hstart5_1 i a))).WholeWords (EltTy.packing .f32)
  hwxs5_1 : ∀ i : grid5.Coords, EltTy.bits .f32 = 32 ∨ (Rect.unit (s := S8000x64) (fun _ => 0) (fun a => (Pipeline.Clip.of (cc5_transform_1 i a) (S8000x64.size a) (S150000x64.size a)).extent (S8000x64.size a)) fun a => (Nat.zero_add _).trans_le (Pipeline.Clip.extent_le (Pipeline.Clip.ok_of (hstart5_1 i a)))).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hstart5_2 : ∀ (i : grid5.Coords) a, cc5_transform_2 i a * S8000x64.size a < S150000x64.size a
  hwx5_2 : ∀ i : grid5.Coords, EltTy.bits .f32 = 32 ∨ (Rect.unit (s := S150000x64) (fun a => cc5_transform_2 i a * S8000x64.size a) (fun a => (Pipeline.Clip.of (cc5_transform_2 i a) (S8000x64.size a) (S150000x64.size a)).extent (S8000x64.size a)) fun a => Pipeline.Clip.inb (Pipeline.Clip.ok_of (hstart5_2 i a))).WholeWords (EltTy.packing .f32)
  hwxs5_2 : ∀ i : grid5.Coords, EltTy.bits .f32 = 32 ∨ (Rect.unit (s := S8000x64) (fun _ => 0) (fun a => (Pipeline.Clip.of (cc5_transform_2 i a) (S8000x64.size a) (S150000x64.size a)).extent (S8000x64.size a)) fun a => (Nat.zero_add _).trans_le (Pipeline.Clip.extent_le (Pipeline.Clip.ok_of (hstart5_2 i a)))).WholeWords (EltTy.packing .f32)

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

abbrev win0_0 : Pipeline.Window sig grid0 :=
  Pipeline.Window.ofSpecClip (Memref.whole main_v1) S8192x1.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v8) S8192x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v9) S8192x64.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_v0) S8000x64.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v12) S8000x64.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v13) S8000x64.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpecClip (Memref.whole main_v1) S8192x1.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_v20) S8192x64.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v21) S8192x64.size cc2_transform_2 reads2_2 true false 2 stage2_2 sem2_2
    hrank2 hreads2_2 hstart2_2 nbuf2_2 (Memref.isWhole_whole _) hwx2_2 hwxs2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpecClip (Memref.whole main_v13) S8000x64.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpecClip (Memref.whole main_v24) S8000x64.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v25) S8000x64.size cc3_transform_2 reads3_2 true false 2 stage3_2 sem3_2
    hrank3 hreads3_2 hstart3_2 nbuf3_2 (Memref.isWhole_whole _) hwx3_2 hwxs3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpecClip (Memref.whole main_v1) S8192x1.size cc4_transform_0 reads4_0 false false 2 stage4_0 sem4_0
    hrank4 hreads4_0 hstart4_0 nbuf4_0 (Memref.isWhole_whole _) hwx4_0 hwxs4_0 hstage4_0

abbrev win4_1 : Pipeline.Window sig grid4 :=
  Pipeline.Window.ofSpecClip (Memref.whole main_v32) S8192x64.size cc4_transform_1 reads4_1 false false 2 stage4_1 sem4_1
    hrank4 hreads4_1 hstart4_1 nbuf4_1 (Memref.isWhole_whole _) hwx4_1 hwxs4_1 hstage4_1

abbrev win4_2 : Pipeline.Window sig grid4 :=
  Pipeline.Window.ofSpecClip (Memref.whole main_v33) S8192x64.size cc4_transform_2 reads4_2 true false 2 stage4_2 sem4_2
    hrank4 hreads4_2 hstart4_2 nbuf4_2 (Memref.isWhole_whole _) hwx4_2 hwxs4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpecClip (Memref.whole main_v25) S8000x64.size cc5_transform_0 reads5_0 false false 2 stage5_0 sem5_0
    hrank5 hreads5_0 hstart5_0 nbuf5_0 (Memref.isWhole_whole _) hwx5_0 hwxs5_0 hstage5_0

abbrev win5_1 : Pipeline.Window sig grid5 :=
  Pipeline.Window.ofSpecClip (Memref.whole main_v36) S8000x64.size cc5_transform_1 reads5_1 false false 2 stage5_1 sem5_1
    hrank5 hreads5_1 hstart5_1 nbuf5_1 (Memref.isWhole_whole _) hwx5_1 hwxs5_1 hstage5_1

abbrev win5_2 : Pipeline.Window sig grid5 :=
  Pipeline.Window.ofSpecClip (Memref.whole main_v37) S8000x64.size cc5_transform_2 reads5_2 true false 2 stage5_2 sem5_2
    hrank5 hreads5_2 hstart5_2 nbuf5_2 (Memref.isWhole_whole _) hwx5_2 hwxs5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S4000000 : Shape := ⟨1, ![4000000]⟩
abbrev S4096 : Shape := ⟨1, ![4096]⟩
abbrev S150000x64 : Shape := ⟨2, ![150000, 64]⟩
abbrev S4000000x1 : Shape := ⟨2, ![4000000, 1]⟩
abbrev S_ : Shape := ⟨0, ![]⟩
abbrev S4000000x64 : Shape := ⟨2, ![4000000, 64]⟩
abbrev S4096x1 : Shape := ⟨2, ![4096, 1]⟩
abbrev S4096x64 : Shape := ⟨2, ![4096, 64]⟩

abbrev nBuf : Space → Nat
  | .hbm => 98
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .f32⟩
  | .hbm, ⟨3, _⟩ => ⟨S4000000, .i32⟩
  | .hbm, ⟨4, _⟩ => ⟨S4000000, .i32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S150000x64, .f32⟩
  | .hbm, ⟨9, _⟩ => ⟨S4000000x1, .f32⟩
  | .hbm, ⟨10, _⟩ => ⟨S_, .i32⟩
  | .hbm, ⟨11, _⟩ => ⟨S4000000, .i32⟩
  | .hbm, ⟨12, _⟩ => ⟨S4000000, .i1⟩
  | .hbm, ⟨13, _⟩ => ⟨S_, .i32⟩
  | .hbm, ⟨14, _⟩ => ⟨S4000000, .i32⟩
  | .hbm, ⟨15, _⟩ => ⟨S4000000, .i32⟩
  | .hbm, ⟨16, _⟩ => ⟨S4000000, .i32⟩
  | .hbm, ⟨17, _⟩ => ⟨S4000000x1, .i32⟩
  | .hbm, ⟨18, _⟩ => ⟨S4000000x64, .f32⟩
  | .hbm, ⟨19, _⟩ => ⟨S4000000x64, .f32⟩
  | .hbm, ⟨20, _⟩ => ⟨S4000000x64, .f32⟩
  | .hbm, ⟨21, _⟩ => ⟨S_, .f32⟩
  | .hbm, ⟨22, _⟩ => ⟨S150000x64, .f32⟩
  | .hbm, ⟨23, _⟩ => ⟨S4000000x1, .i32⟩
  | .hbm, ⟨24, _⟩ => ⟨S150000x64, .f32⟩
  | .hbm, ⟨25, _⟩ => ⟨S150000x64, .f32⟩
  | .hbm, ⟨26, _⟩ => ⟨S4000000x1, .f32⟩
  | .hbm, ⟨27, _⟩ => ⟨S_, .i32⟩
  | .hbm, ⟨28, _⟩ => ⟨S4000000, .i32⟩
  | .hbm, ⟨29, _⟩ => ⟨S4000000, .i1⟩
  | .hbm, ⟨30, _⟩ => ⟨S_, .i32⟩
  | .hbm, ⟨31, _⟩ => ⟨S4000000, .i32⟩
  | .hbm, ⟨32, _⟩ => ⟨S4000000, .i32⟩
  | .hbm, ⟨33, _⟩ => ⟨S4000000, .i32⟩
  | .hbm, ⟨34, _⟩ => ⟨S4000000x1, .i32⟩
  | .hbm, ⟨35, _⟩ => ⟨S4000000x64, .f32⟩
  | .hbm, ⟨36, _⟩ => ⟨S4000000x64, .f32⟩
  | .hbm, ⟨37, _⟩ => ⟨S4000000x64, .f32⟩
  | .hbm, ⟨38, _⟩ => ⟨S_, .f32⟩
  | .hbm, ⟨39, _⟩ => ⟨S150000x64, .f32⟩
  | .hbm, ⟨40, _⟩ => ⟨S4000000x1, .i32⟩
  | .hbm, ⟨41, _⟩ => ⟨S150000x64, .f32⟩
  | .hbm, ⟨42, _⟩ => ⟨S150000x64, .f32⟩
  | .hbm, ⟨43, _⟩ => ⟨S4000000x1, .f32⟩
  | .hbm, ⟨44, _⟩ => ⟨S_, .i32⟩
  | .hbm, ⟨45, _⟩ => ⟨S4000000, .i32⟩
  | .hbm, ⟨46, _⟩ => ⟨S4000000, .i1⟩
  | .hbm, ⟨47, _⟩ => ⟨S_, .i32⟩
  | .hbm, ⟨48, _⟩ => ⟨S4000000, .i32⟩
  | .hbm, ⟨49, _⟩ => ⟨S4000000, .i32⟩
  | .hbm, ⟨50, _⟩ => ⟨S4000000, .i32⟩
  | .hbm, ⟨51, _⟩ => ⟨S4000000x1, .i32⟩
  | .hbm, ⟨52, _⟩ => ⟨S4000000x64, .f32⟩
  | .hbm, ⟨53, _⟩ => ⟨S4000000x64, .f32⟩
  | .hbm, ⟨54, _⟩ => ⟨S4000000x64, .f32⟩
  | .hbm, ⟨55, _⟩ => ⟨S_, .f32⟩
  | .hbm, ⟨56, _⟩ => ⟨S150000x64, .f32⟩
  | .hbm, ⟨57, _⟩ => ⟨S4000000x1, .i32⟩
  | .hbm, ⟨58, _⟩ => ⟨S150000x64, .f32⟩
  | .hbm, ⟨59, _⟩ => ⟨S150000x64, .f32⟩
  | .hbm, ⟨60, _⟩ => ⟨S_, .f32⟩
  | .hbm, ⟨61, _⟩ => ⟨S150000x64, .f32⟩
  | .hbm, ⟨62, _⟩ => ⟨S150000x64, .f32⟩
  | .hbm, ⟨63, _⟩ => ⟨S100000x64, .f32⟩
  | .hbm, ⟨64, _⟩ => ⟨S50000x64, .f32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .i32⟩
  | .hbm, ⟨72, _⟩ => ⟨S4096x1, .i32⟩
  | .hbm, ⟨73, _⟩ => ⟨S4096x64, .f32⟩
  | .hbm, ⟨74, _⟩ => ⟨S_, .i32⟩
  | .hbm, ⟨75, _⟩ => ⟨S4096, .i32⟩
  | .hbm, ⟨76, _⟩ => ⟨S4096, .i1⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S4096, .i32⟩
  | .hbm, ⟨81, _⟩ => ⟨S4096x1, .i32⟩
  | .hbm, ⟨82, _⟩ => ⟨S4096x64, .f32⟩
  | .hbm, ⟨83, _⟩ => ⟨S_, .i32⟩
  | .hbm, ⟨84, _⟩ => ⟨S4096, .i32⟩
  | .hbm, ⟨85, _⟩ => ⟨S4096, .i1⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S4096, .i32⟩
  | .hbm, ⟨90, _⟩ => ⟨S4096x1, .i32⟩
  | .hbm, ⟨91, _⟩ => ⟨S4096x64, .f32⟩
  | .hbm, ⟨92, _⟩ => ⟨S4096x64, .f32⟩
  | .hbm, ⟨93, _⟩ => ⟨S_, .f32⟩
  | .hbm, ⟨94, _⟩ => ⟨S4096, .f32⟩
  | .hbm, ⟨95, _⟩ => ⟨S4096x64, .f32⟩
  | .hbm, ⟨96, _⟩ => ⟨S_, .f32⟩
  | .hbm, ⟨97, _⟩ => ⟨S4096, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

class Facts : Prop extends Facts₀ where

variable [Facts]
-- ==== Proof.LibKeepdims.lean ====
/-
  Reading the keepdims layout moves at an index, over arbitrary extents.

  A row statistic kept as a column is built from three moves: a sum along the lanes of an `[a, b]` array into a
  vector of `a` entries, that vector viewed as an `[a, 1]` column, and the column spread back over `b` lanes.  Read
  at row `p`, the first is the sum of the row's `b` entries, the second reads the vector at `p` whatever the unit
  coordinate, and the third reads the column at `(p, 0)` whatever the lane.  The fourth move is the other
  orientation: a vector of `c` entries viewed as a `[1, c]` one-row matrix reads, along its row, as the vector.
  Each is stated at coordinates built by `ix1` / `ix2`, for any element type where no arithmetic is involved.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Lib.Keepdims

open Idealize.ShloMosaic Idealize.ShloMosaic.ValueIdx

variable {α : Type}

/-- A vector of `a` entries viewed as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `b` lanes reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The sum along the lanes of an `[a, b]` tile, read at row `p`, is the sum of that row's `b` entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- A vector of `c` entries viewed as a `[1, c]` one-row matrix reads, at `(0, q)`, the vector at `q`. -/
theorem shapeCast_a_1a_apply {c : ℕ} (b : (⟨1, ![c]⟩ : Shape).Idx → α)
    (h : (⟨1, ![c]⟩ : Shape).ShapeCasts ⟨2, ![1, c]⟩) (q : Fin c) :
    shapeCast (⟨2, ![1, c]⟩ : Shape) b h (ix2 0 q) = b (ix1 q) := by
  show shapeCast (⟨1 + 1, Matrix.vecCons 1 ![c]⟩ : Shape) b h (ix2 0 q) = b (ix1 q)
  rw [shapeCast_addUnit_apply]
  exact congrArg b (funext fun a => by match a with | ⟨0, _⟩ => rfl)

end Cert.Lib.Keepdims

end
-- ==== Proof.Spec.lean ====
/-
  The two whole-array functions the kernels of this program compute, stated once for any float instance.

  `msgArr vals g` is the edge message: entry `(e, l)` is the weight of edge `e` times entry `l` of the row gathered for
  that edge.  `accArr s acc x` is one accumulation step: entry by entry, `(acc + x) · s`.
-/
import Idealize.ShloMosaic.PureOps.Vector
import Idealize.ShloMosaic.Lib.ValueIdx

noncomputable section

namespace Cert.Spec

open Idealize.ShloMosaic Idealize.ShloMosaic.ValueIdx

variable {F : FTy → Type} [FloatOps F]

/-- The edge messages as one array over all edges: `vals[e] · g[e, l]`. -/
def msgArr (vals : (⟨2, ![4000000, 1]⟩ : Shape).Idx → F .f32) (g : (⟨2, ![4000000, 64]⟩ : Shape).Idx → F .f32) :
    (⟨2, ![4000000, 64]⟩ : Shape).Idx → F .f32 :=
  fun i => FloatOps.mulf (φ := .f32) (vals (ix2 (⟨(i 0).val, (i 0).isLt⟩ : Fin 4000000) (0 : Fin 1))) (g i)

/-- One accumulation step over all nodes: `(acc[n, l] + x[n, l]) · s`. -/
def accArr (s : F .f32) (acc x : (⟨2, ![150000, 64]⟩ : Shape).Idx → F .f32) : (⟨2, ![150000, 64]⟩ : Shape).Idx → F .f32 :=
  fun i => FloatOps.mulf (φ := .f32) (FloatOps.addf (φ := .f32) (acc i) (x i)) s

end Cert.Spec

end
-- ==== Proof.BitsSide.Msg0.lean ====
import proofs.«142893_j63376537420313_1_alg».proof.Proof.Gen.Kernel.Launch
import proofs.«142893_j63376537420313_1_alg».proof.Proof.Gen.Kernel.Skeleton
import proofs.«142893_j63376537420313_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Tactic
import proofs.«142893_j63376537420313_1_alg».proof.Proof.LibKeepdims
import proofs.«142893_j63376537420313_1_alg».proof.Proof.Spec
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.ValueIdx

theorem hz2_0 : (![0, 0] : Fin 2 → Nat) = fun _ => 0 := funext fun a => by fin_cases a <;> rfl

/-! ## The edge-message kernel (region 0): one point's arithmetic -/

/-- What one point stores, at row `p` and lane `l` of the tile: the weight of edge `p` times entry `l` of the row
    gathered for that edge. -/
theorem msg0_pay_apply (X0 : Vec F S8192x1 .f32) (X1 : Vec F S8192x64 .f32) (p : Fin 8192) (l : Fin 64) :
    k0_pay1 X0 X1 (ix2 p l) = FloatOps.mulf (φ := .f32) (X0 (ix2 p (0 : Fin 1))) (X1 (ix2 p l)) := by
  unfold k0_pay1
  show FloatOps.mulf (φ := .f32) (broadcastTo S8192x64 (shapeCast S8192x1 X0 _) _ (ix2 p l)) (shapeCast S8192x64 X1 _ (ix2 p l)) = _
  rw [shapeCast_self, shapeCast_self, Cert.Lib.Keepdims.broadcastTo_a1_ab_apply]

/-- The kernel body on whole staging buffers: it loads the column of edge weights and the tile of gathered rows
    and stores their row-wise product into the result's buffer, whatever that held. -/
theorem sound_msg0 (c : Dev nD) (E : Set ℕ) (i : grid0.Coords)
    (arg1 : Memref sig .tc .vmem S8192x1 .f32) (harg1 : arg1.IsWhole)
    (arg2 : Memref sig .tc .vmem S8192x64 .f32) (harg2 : arg2.IsWhole)
    (arg3 : Memref sig .tc .vmem S8192x64 .f32) (harg3 : arg3.IsWhole)
    (x0 : Vec F S8192x1 .f32) (x1 : Vec F S8192x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k0_pay1 x0 x1)) -∗ K ⟨⟩))
      ⊢ wp frame (wpE (defs₀ (F := F)) Variants.none c none) E (cc0__msg_kernel i arg1 harg1 arg2 harg2 arg3 harg3) K := by
  simp only [cc0__msg_kernel_eq_skeleton]; unfold cc0__msg_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz2_0 inb_S8192x64_S8192x64_0_0 y⟩),
    View.canon_unit_zero hz2_0, View.readAt_eq_ld, View.readAt_eq_ld, View.ld_unit_zero hz2_0, View.ld_unit_zero hz2_0]

section Region
variable (V : (c : Dev nD) → (b : Ref sig .tc) → Buf (Elt F) ((c : Thread nD τ).loc b))

/-! ## The windows' blocks and the proof data -/

/-- The block of edge weights at point `t`: its part inside the array. -/
def wblk0 (c : Dev nD) (t : Fin cfg0.N) : (win0_0.xblock (grid0.coords t)).Idx → Elt F .f32 :=
  (win0_0.blk t).view.read (Elt F) (V c main_v1)
/-- The block of gathered rows at point `t`: its part inside the array. -/
def gblk0 (c : Dev nD) (t : Fin cfg0.N) : (win0_1.xblock (grid0.coords t)).Idx → Elt F .f32 :=
  (win0_1.blk t).view.read (Elt F) (V c main_v8)

/-- The two input buffers after a fetch, with the rows past the array's end (the last point's) at the zero word. -/
def wbuf0 (c : Dev nD) (t : Fin cfg0.N) : S8192x1.Idx → Elt F .f32 :=
  win0_0.fill (grid0.coords t) (fun _ => Scalar.ofBits .f32 0#32) (wblk0 V c t)
def gbuf0 (c : Dev nD) (t : Fin cfg0.N) : S8192x64.Idx → Elt F .f32 :=
  win0_1.fill (grid0.coords t) (fun _ => Scalar.ofBits .f32 0#32) (gblk0 V c t)

/-- The proof data of the pipeline: the arrays as the region finds them; after the body the inputs' buffers at
    their blocks and the result's at the product tile; the class invariant; nothing owed. -/
def dat0 (c : Dev nD) : Dat τ (Elt F) Unit ℕ (Pipeline.UD sig nD τ) ℕ cfg0 c where
  A w := V c (Pipeline.arrRef spec0 w)
  after w t := match w with
    | ⟨0, _⟩ => wbuf0 V c t
    | ⟨1, _⟩ => gbuf0 V c t
    | ⟨2, _⟩ => k0_pay1 (wbuf0 V c t) (gbuf0 V c t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = wbuf0 V c t := by dsimp only [dat0]
theorem after0_1 (c : Dev nD) (t : Fin cfg0.N) : (dat0 V c).after 1 t = gbuf0 V c t := by dsimp only [dat0]
theorem after0_2 (c : Dev nD) (t : Fin cfg0.N) : (dat0 V c).after 2 t = k0_pay1 (wbuf0 V c t) (gbuf0 V c t) := by dsimp only [dat0]

/-- An input buffer when the body runs: just fetched, its block on the rows inside the array. -/
theorem before0_0 (c : Dev nD) (t : Fin cfg0.N) (d) :
    (dat0 V c).before 0 t d = win0_0.fill (grid0.coords t) d (wblk0 V c t) := by
  unfold Dat.before; rw [if_pos (fetch0_0 t)]; unfold Dat.fetched Dat.blockOf wblk0; rw [A_eq0]
theorem before0_1 (c : Dev nD) (t : Fin cfg0.N) (d) :
    (dat0 V c).before 1 t d = win0_1.fill (grid0.coords t) d (gblk0 V c t) := by
  unfold Dat.before; rw [if_pos (fetch0_1 t)]; unfold Dat.fetched Dat.blockOf gblk0; rw [A_eq0]

end Region

/-! ## The schedule's arithmetic, decided over the grid -/

/-- At every point the three windows move the same rows, and every lane of their rows. -/
theorem xsize0 : ∀ t : Fin cfg0.N,
    win0_0.xsize (grid0.coords t) 0 = win0_2.xsize (grid0.coords t) 0 ∧ win0_0.xsize (grid0.coords t) 1 = 1
    ∧ win0_1.xsize (grid0.coords t) 0 = win0_2.xsize (grid0.coords t) 0 ∧ win0_1.xsize (grid0.coords t) 1 = 64
    ∧ win0_2.xsize (grid0.coords t) 1 = 64
    ∧ t.val * 8192 + win0_2.xsize (grid0.coords t) 0 = min (t.val * 8192 + 8192) 4000000 :=
  (by decide +kernel : ∀ t : Fin grid0.N, _)

/-- Block `t` of each window starts at row `8192 t`, lane 0. -/
theorem index0 : ∀ t : Fin cfg0.N,
    win0_0.index t 0 = t.val ∧ win0_0.index t 1 = 0 ∧ win0_1.index t 0 = t.val ∧ win0_1.index t 1 = 0
    ∧ win0_2.index t 0 = t.val ∧ win0_2.index t 1 = 0 :=
  (by decide +kernel : ∀ t : Fin grid0.N, _)

/-- Contents that differ only off the part a fetch fills agree on it. -/
theorem fill_congr_moved0 {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- On the rows the write-back moves, the product tile does not depend on what the input buffers hold past the
    array's end. -/
theorem msg0_cut_pay (t : Fin cfg0.N) (d0 d0' : S8192x1.Idx → Elt F .f32) (d1 d1' : S8192x64.Idx → Elt F .f32)
    (b0 : (win0_0.xblock (grid0.coords t)).Idx → Elt F .f32) (b1 : (win0_1.xblock (grid0.coords t)).Idx → Elt F .f32) :
    win0_2.cut (grid0.coords t) (k0_pay1 (win0_0.fill (grid0.coords t) d0 b0) (win0_1.fill (grid0.coords t) d1 b1))
      = win0_2.cut (grid0.coords t) (k0_pay1 (win0_0.fill (grid0.coords t) d0' b0) (win0_1.fill (grid0.coords t) d1' b1)) := by
  funext j
  obtain ⟨h00, h01, h10, h11, h21, -⟩ := xsize0 t
  have hj0 : (j 0).val < win0_2.xsize (grid0.coords t) 0 := (j 0).isLt
  have hj1 : (j 1).val < win0_2.xsize (grid0.coords t) 1 := (j 1).isLt
  have hr : (j 0).val < 8192 := lt_of_lt_of_le hj0 (win0_2.xsize_le _ 0)
  have hl : (j 1).val < 64 := lt_of_lt_of_le hj1 (win0_2.xsize_le _ 1)
  have e : win0_2.xinj (grid0.coords t) j = ix2 (⟨(j 0).val, hr⟩ : Fin 8192) (⟨(j 1).val, hl⟩ : Fin 64) :=
    funext fun a => Fin.ext (by match a with | ⟨0, _⟩ => rfl | ⟨1, _⟩ => rfl)
  show k0_pay1 _ _ (win0_2.xinj (grid0.coords t) j) = k0_pay1 _ _ (win0_2.xinj (grid0.coords t) j)
  rw [e, msg0_pay_apply, msg0_pay_apply]
  have m0 : win0_0.moved (grid0.coords t) (ix2 (⟨(j 0).val, hr⟩ : Fin 8192) (0 : Fin 1)) = true :=
    (win0_0.moved_iff _ _).mpr fun a => by
      match a with
      | ⟨0, _⟩ => show (j 0).val < win0_0.xsize (grid0.coords t) 0; rw [h00]; exact hj0
      | ⟨1, _⟩ => show 0 < win0_0.xsize (grid0.coords t) 1; rw [h01]; exact Nat.one_pos
  have m1 : win0_1.moved (grid0.coords t) (ix2 (⟨(j 0).val, hr⟩ : Fin 8192) (⟨(j 1).val, hl⟩ : Fin 64)) = true :=
    (win0_1.moved_iff _ _).mpr fun a => by
      match a with
      | ⟨0, _⟩ => show (j 0).val < win0_1.xsize (grid0.coords t) 0; rw [h10]; exact hj0
      | ⟨1, _⟩ => show (j 1).val < win0_1.xsize (grid0.coords t) 1; rw [h11]; exact hl
  rw [fill_congr_moved0 win0_0 _ d0 d0' b0 _ m0, fill_congr_moved0 win0_1 _ d1 d1' b1 _ m1]

section Region2
variable (V : (c : Dev nD) → (b : Ref sig .tc) → Buf (Elt F) ((c : Thread nD τ).loc b))

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: each buffer as the body left it on the rows its transfers move. -/
def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ (∃ d, owns (c : Thread nD τ) (st0_1 t) fullShare (win0_1.fill (grid0.coords t) d (win0_1.cut (grid0.coords t) ((dat0 V c).after 1 t))))
    ∗ (∃ d, owns (c : Thread nD τ) (st0_2 t) fullShare (win0_2.fill (grid0.coords t) d (win0_2.cut (grid0.coords t) ((dat0 V c).after 2 t)))))

/-- The body at any point: the two input buffers hold their blocks on the rows inside the array and anything past
    them; the product tile on the moved rows is the same whatever that is. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  rw [before0_0 V c t d0, before0_1 V c t d1]
  iapply (sound_msg0 c Set.univ (grid0.coords t) _ _ _ _ _ _
    (win0_0.fill (grid0.coords t) d0 (wblk0 V c t)) (win0_1.fill (grid0.coords t) d1 (gblk0 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    unfold wbuf0; rw [win0_0.cut_fill]; iexact H0
  isplitl [H1]
  · iexists d1
    unfold gbuf0; rw [win0_1.cut_fill]; iexact H1
  · iexists _
    unfold wbuf0 gbuf0
    rw [← msg0_cut_pay t d0 _ d1 _ (wblk0 V c t) (gblk0 V c t), win0_2.fill_cut]; iexact H2

/-- The library's body obligation, at every point. -/
theorem body_obligation0 (c : Dev nD) : BodyObligationLoose (dat0 (F := F) V c) (defs₀ (F := F)) Variants.none () Set.univ := fun t => by
  rw [bigSep_W0, bigSep_W0]
  exact sound_body0 V c t

end Region2

section Value
variable (V : (c : Dev nD) → (b : Ref sig .tc) → Buf (Elt F) ((c : Thread nD τ).loc b))

/-! ## The result array after the run -/

/-- Row `y` of the block of weights at point `t` is row `8192 t + y` of the array of weights; -/
theorem wblk0_apply (c : Dev nD) (t : Fin cfg0.N) (y : (win0_0.xblock (grid0.coords t)).Idx) (k : S4000000x1.Idx)
    (hk0 : (k 0).val = t.val * 8192 + (y 0).val) (hk1 : (k 1).val = (y 1).val) :
    wblk0 V c t y = (V c main_v1 : S4000000x1.Idx → Elt F .f32) k := by
  obtain ⟨i00, i01, -⟩ := index0 t
  unfold wblk0
  rw [View.read_apply]
  show (V c main_v1 : S4000000x1.Idx → Elt F .f32) _ = (V c main_v1 : S4000000x1.Idx → Elt F .f32) _
  congr 1
  funext a
  apply Fin.ext
  match a with
  | ⟨0, _⟩ => show win0_0.index t 0 * 8192 + 1 * (y 0).val = (k 0).val; rw [i00, hk0]; omega
  | ⟨1, _⟩ => show win0_0.index t 1 * 1 + 1 * (y 1).val = (k 1).val; rw [i01, hk1]; omega

/-- the same of the block of gathered rows; -/
theorem gblk0_apply (c : Dev nD) (t : Fin cfg0.N) (y : (win0_1.xblock (grid0.coords t)).Idx) (k : S4000000x64.Idx)
    (hk0 : (k 0).val = t.val * 8192 + (y 0).val) (hk1 : (k 1).val = (y 1).val) :
    gblk0 V c t y = (V c main_v8 : S4000000x64.Idx → Elt F .f32) k := by
  obtain ⟨-, -, i10, i11, -⟩ := index0 t
  unfold gblk0
  rw [View.read_apply]
  show (V c main_v8 : S4000000x64.Idx → Elt F .f32) _ = (V c main_v8 : S4000000x64.Idx → Elt F .f32) _
  congr 1
  funext a
  apply Fin.ext
  match a with
  | ⟨0, _⟩ => show win0_1.index t 0 * 8192 + 1 * (y 0).val = (k 0).val; rw [i10, hk0]; omega
  | ⟨1, _⟩ => show win0_1.index t 1 * 64 + 1 * (y 1).val = (k 1).val; rw [i11, hk1]; omega

/-- and of a block of any contents of the result array. -/
theorem oblk0_apply (G : S4000000x64.Idx → Elt F .f32) (t : Fin cfg0.N) (y : (win0_2.xblock (grid0.coords t)).Idx) (k : S4000000x64.Idx)
    (hk0 : (k 0).val = t.val * 8192 + (y 0).val) (hk1 : (k 1).val = (y 1).val) :
    (win0_2.blk t).view.read (Elt F) G y = G k := by
  obtain ⟨-, -, -, -, i20, i21⟩ := index0 t
  rw [View.read_apply]
  show G _ = G _
  congr 1
  funext a
  apply Fin.ext
  match a with
  | ⟨0, _⟩ => show win0_2.index t 0 * 8192 + 1 * (y 0).val = (k 0).val; rw [i20, hk0]; omega
  | ⟨1, _⟩ => show win0_2.index t 1 * 64 + 1 * (y 1).val = (k 1).val; rw [i21, hk1]; omega

/-- The edge messages of the arrays the region finds: what its result array is shown to hold. -/
abbrev msgOut0 (c : Dev nD) : S4000000x64.Idx → Elt F .f32 :=
  Cert.Spec.msgArr (F := F) (V c main_v1 : S4000000x1.Idx → Elt F .f32) (V c main_v8 : S4000000x64.Idx → Elt F .f32)

/-- What point `t` writes back is block `t` of the edge messages. -/
theorem flushed0 (c : Dev nD) (t : Fin cfg0.N) :
    (dat0 V c).flushed 2 t = ((cfg0.win 2).blk t).view.read (Elt F) (msgOut0 V c) := by
  show win0_2.cut (grid0.coords t) ((dat0 V c).after 2 t) = (win0_2.blk t).view.read (Elt F) (msgOut0 V c)
  rw [after0_2]
  funext j
  obtain ⟨h00, h01, h10, h11, h21, hx⟩ := xsize0 t
  have hj0 : (j 0).val < win0_2.xsize (grid0.coords t) 0 := (j 0).isLt
  have hj1 : (j 1).val < win0_2.xsize (grid0.coords t) 1 := (j 1).isLt
  have hr : (j 0).val < 8192 := lt_of_lt_of_le hj0 (win0_2.xsize_le _ 0)
  have hl : (j 1).val < 64 := lt_of_lt_of_le hj1 (win0_2.xsize_le _ 1)
  have hK : t.val * 8192 + (j 0).val < 4000000 := by
    have := Nat.min_le_right (t.val * 8192 + 8192) 4000000; omega
  have e : win0_2.xinj (grid0.coords t) j = ix2 (⟨(j 0).val, hr⟩ : Fin 8192) (⟨(j 1).val, hl⟩ : Fin 64) :=
    funext fun a => Fin.ext (by match a with | ⟨0, _⟩ => rfl | ⟨1, _⟩ => rfl)
  have m0 : win0_0.moved (grid0.coords t) (ix2 (⟨(j 0).val, hr⟩ : Fin 8192) (0 : Fin 1)) = true :=
    (win0_0.moved_iff _ _).mpr fun a => by
      match a with
      | ⟨0, _⟩ => show (j 0).val < win0_0.xsize (grid0.coords t) 0; rw [h00]; exact hj0
      | ⟨1, _⟩ => show 0 < win0_0.xsize (grid0.coords t) 1; rw [h01]; exact Nat.one_pos
  have m1 : win0_1.moved (grid0.coords t) (ix2 (⟨(j 0).val, hr⟩ : Fin 8192) (⟨(j 1).val, hl⟩ : Fin 64)) = true :=
    (win0_1.moved_iff _ _).mpr fun a => by
      match a with
      | ⟨0, _⟩ => show (j 0).val < win0_1.xsize (grid0.coords t) 0; rw [h10]; exact hj0
      | ⟨1, _⟩ => show (j 1).val < win0_1.xsize (grid0.coords t) 1; rw [h11]; exact hl
  show k0_pay1 _ _ (win0_2.xinj (grid0.coords t) j) = _
  rw [e, msg0_pay_apply]
  unfold wbuf0 gbuf0 Pipeline.Window.fill
  rw [dif_pos m0, dif_pos m1,
    wblk0_apply V c t _ (ix2 (⟨t.val * 8192 + (j 0).val, hK⟩ : Fin 4000000) (0 : Fin 1)) ?_ ?_,
    gblk0_apply V c t _ (ix2 (⟨t.val * 8192 + (j 0).val, hK⟩ : Fin 4000000) (⟨(j 1).val, hl⟩ : Fin 64)) ?_ ?_,
    oblk0_apply (msgOut0 V c) t j (ix2 (⟨t.val * 8192 + (j 0).val, hK⟩ : Fin 4000000) (⟨(j 1).val, hl⟩ : Fin 64)) ?_ ?_]
  all_goals rfl

/-- Every entry of the result array lies in the block of the point its row belongs to. -/
theorem cover0 (i : S4000000x64.Idx) :
    ∃ t : Fin cfg0.N, (cfg0.win 2).flush t = true ∧ i ∈ ((cfg0.win 2).blk t).view.set := by
  have hi0 : (i 0).val < 4000000 := (i 0).isLt
  have hi1 : (i 1).val < 64 := (i 1).isLt
  obtain ⟨q, r, hr, hqr⟩ : ∃ q r, r < 8192 ∧ (i 0).val = q * 8192 + r :=
    ⟨(i 0).val / 8192, (i 0).val % 8192, Nat.mod_lt _ (by decide), by rw [Nat.mul_comm]; exact (Nat.div_add_mod _ _).symm⟩
  have hN : cfg0.N = 489 := N_0
  have hT : q < cfg0.N := by rw [hN]; omega
  refine ⟨⟨q, hT⟩, flush0_2 _, ?_⟩
  obtain ⟨-, -, -, -, h21, hx⟩ := xsize0 ⟨q, hT⟩
  obtain ⟨-, -, -, -, i20, i21⟩ := index0 ⟨q, hT⟩
  have i20' : win0_2.index ⟨q, hT⟩ 0 = q := i20
  show i ∈ ((View.whole main_v9).slice (win0_2.rect ⟨q, hT⟩)).set
  rw [View.set_slice_whole, Rect.mem_set_unit]
  intro a
  match a with
  | ⟨0, _⟩ =>
    show win0_2.index ⟨q, hT⟩ 0 * 8192 ≤ (i 0).val
      ∧ (i 0).val < win0_2.index ⟨q, hT⟩ 0 * 8192 + win0_2.xsize (grid0.coords ⟨q, hT⟩) 0
    rw [i20']
    have hx' : q * 8192 + win0_2.xsize (grid0.coords ⟨q, hT⟩) 0 = min (q * 8192 + 8192) 4000000 := hx
    have hle := Nat.le_min.mpr (⟨by omega, by omega⟩ : (i 0).val + 1 ≤ q * 8192 + 8192 ∧ (i 0).val + 1 ≤ 4000000)
    rw [← hx'] at hle
    exact ⟨by rw [hqr]; exact Nat.le_add_right _ _, hle⟩
  | ⟨1, _⟩ =>
    show win0_2.index ⟨q, hT⟩ 1 * 64 ≤ (i 1).val
      ∧ (i 1).val < win0_2.index ⟨q, hT⟩ 1 * 64 + win0_2.xsize (grid0.coords ⟨q, hT⟩) 1
    rw [i21, h21]; omega

/-- So the result array ends holding the edge messages. -/
theorem final0 (c : Dev nD) : (dat0 V c).arrAt 2 cfg0.N = msgOut0 V c :=
  (dat0 V c).arrAt_eq_of_cover 2 (msgOut0 V c) (fun t _ => flushed0 V c t) cover0

end Value

end Cert.Kernel.Hand

end
-- ==== Proof.BitsSide.Msg2.lean ====
import proofs.«142893_j63376537420313_1_alg».proof.Proof.Gen.Kernel.Launch
import proofs.«142893_j63376537420313_1_alg».proof.Proof.Gen.Kernel.Skeleton
import proofs.«142893_j63376537420313_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Tactic
import proofs.«142893_j63376537420313_1_alg».proof.Proof.LibKeepdims
import proofs.«142893_j63376537420313_1_alg».proof.Proof.Spec
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.ValueIdx

theorem hz2_2 : (![0, 0] : Fin 2 → Nat) = fun _ => 0 := funext fun a => by fin_cases a <;> rfl

/-! ## The edge-message kernel (region 2): one point's arithmetic -/

/-- What one point stores, at row `p` and lane `l` of the tile: the weight of edge `p` times entry `l` of the row
    gathered for that edge. -/
theorem msg2_pay_apply (X0 : Vec F S8192x1 .f32) (X1 : Vec F S8192x64 .f32) (p : Fin 8192) (l : Fin 64) :
    k2_pay1 X0 X1 (ix2 p l) = FloatOps.mulf (φ := .f32) (X0 (ix2 p (0 : Fin 1))) (X1 (ix2 p l)) := by
  unfold k2_pay1
  show FloatOps.mulf (φ := .f32) (broadcastTo S8192x64 (shapeCast S8192x1 X0 _) _ (ix2 p l)) (shapeCast S8192x64 X1 _ (ix2 p l)) = _
  rw [shapeCast_self, shapeCast_self, Cert.Lib.Keepdims.broadcastTo_a1_ab_apply]

/-- The kernel body on whole staging buffers: it loads the column of edge weights and the tile of gathered rows
    and stores their row-wise product into the result's buffer, whatever that held. -/
theorem sound_msg2 (c : Dev nD) (E : Set ℕ) (i : grid2.Coords)
    (arg1 : Memref sig .tc .vmem S8192x1 .f32) (harg1 : arg1.IsWhole)
    (arg2 : Memref sig .tc .vmem S8192x64 .f32) (harg2 : arg2.IsWhole)
    (arg3 : Memref sig .tc .vmem S8192x64 .f32) (harg3 : arg3.IsWhole)
    (x0 : Vec F S8192x1 .f32) (x1 : Vec F S8192x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k2_pay1 x0 x1)) -∗ K ⟨⟩))
      ⊢ wp frame (wpE (defs₀ (F := F)) Variants.none c none) E (cc2__msg_kernel i arg1 harg1 arg2 harg2 arg3 harg3) K := by
  simp only [cc2__msg_kernel_eq_skeleton]; unfold cc2__msg_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz2_2 inb_S8192x64_S8192x64_0_0 y⟩),
    View.canon_unit_zero hz2_2, View.readAt_eq_ld, View.readAt_eq_ld, View.ld_unit_zero hz2_2, View.ld_unit_zero hz2_2]

section Region
variable (V : (c : Dev nD) → (b : Ref sig .tc) → Buf (Elt F) ((c : Thread nD τ).loc b))

/-! ## The windows' blocks and the proof data -/

/-- The block of edge weights at point `t`: its part inside the array. -/
def wblk2 (c : Dev nD) (t : Fin cfg2.N) : (win2_0.xblock (grid2.coords t)).Idx → Elt F .f32 :=
  (win2_0.blk t).view.read (Elt F) (V c main_v1)
/-- The block of gathered rows at point `t`: its part inside the array. -/
def gblk2 (c : Dev nD) (t : Fin cfg2.N) : (win2_1.xblock (grid2.coords t)).Idx → Elt F .f32 :=
  (win2_1.blk t).view.read (Elt F) (V c main_v20)

/-- The two input buffers after a fetch, with the rows past the array's end (the last point's) at the zero word. -/
def wbuf2 (c : Dev nD) (t : Fin cfg2.N) : S8192x1.Idx → Elt F .f32 :=
  win2_0.fill (grid2.coords t) (fun _ => Scalar.ofBits .f32 0#32) (wblk2 V c t)
def gbuf2 (c : Dev nD) (t : Fin cfg2.N) : S8192x64.Idx → Elt F .f32 :=
  win2_1.fill (grid2.coords t) (fun _ => Scalar.ofBits .f32 0#32) (gblk2 V c t)

/-- The proof data of the pipeline: the arrays as the region finds them; after the body the inputs' buffers at
    their blocks and the result's at the product tile; the class invariant; nothing owed. -/
def dat2 (c : Dev nD) : Dat τ (Elt F) Unit ℕ (Pipeline.UD sig nD τ) ℕ cfg2 c where
  A w := V c (Pipeline.arrRef spec2 w)
  after w t := match w with
    | ⟨0, _⟩ => wbuf2 V c t
    | ⟨1, _⟩ => gbuf2 V c t
    | ⟨2, _⟩ => k2_pay1 (wbuf2 V c t) (gbuf2 V c t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = wbuf2 V c t := by dsimp only [dat2]
theorem after2_1 (c : Dev nD) (t : Fin cfg2.N) : (dat2 V c).after 1 t = gbuf2 V c t := by dsimp only [dat2]
theorem after2_2 (c : Dev nD) (t : Fin cfg2.N) : (dat2 V c).after 2 t = k2_pay1 (wbuf2 V c t) (gbuf2 V c t) := by dsimp only [dat2]

/-- An input buffer when the body runs: just fetched, its block on the rows inside the array. -/
theorem before2_0 (c : Dev nD) (t : Fin cfg2.N) (d) :
    (dat2 V c).before 0 t d = win2_0.fill (grid2.coords t) d (wblk2 V c t) := by
  unfold Dat.before; rw [if_pos (fetch2_0 t)]; unfold Dat.fetched Dat.blockOf wblk2; rw [A_eq2]
theorem before2_1 (c : Dev nD) (t : Fin cfg2.N) (d) :
    (dat2 V c).before 1 t d = win2_1.fill (grid2.coords t) d (gblk2 V c t) := by
  unfold Dat.before; rw [if_pos (fetch2_1 t)]; unfold Dat.fetched Dat.blockOf gblk2; rw [A_eq2]

end Region

/-! ## The schedule's arithmetic, decided over the grid -/

/-- At every point the three windows move the same rows, and every lane of their rows. -/
theorem xsize2 : ∀ t : Fin cfg2.N,
    win2_0.xsize (grid2.coords t) 0 = win2_2.xsize (grid2.coords t) 0 ∧ win2_0.xsize (grid2.coords t) 1 = 1
    ∧ win2_1.xsize (grid2.coords t) 0 = win2_2.xsize (grid2.coords t) 0 ∧ win2_1.xsize (grid2.coords t) 1 = 64
    ∧ win2_2.xsize (grid2.coords t) 1 = 64
    ∧ t.val * 8192 + win2_2.xsize (grid2.coords t) 0 = min (t.val * 8192 + 8192) 4000000 :=
  (by decide +kernel : ∀ t : Fin grid2.N, _)

/-- Block `t` of each window starts at row `8192 t`, lane 0. -/
theorem index2 : ∀ t : Fin cfg2.N,
    win2_0.index t 0 = t.val ∧ win2_0.index t 1 = 0 ∧ win2_1.index t 0 = t.val ∧ win2_1.index t 1 = 0
    ∧ win2_2.index t 0 = t.val ∧ win2_2.index t 1 = 0 :=
  (by decide +kernel : ∀ t : Fin grid2.N, _)

/-- Contents that differ only off the part a fetch fills agree on it. -/
theorem fill_congr_moved2 {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- On the rows the write-back moves, the product tile does not depend on what the input buffers hold past the
    array's end. -/
theorem msg2_cut_pay (t : Fin cfg2.N) (d0 d0' : S8192x1.Idx → Elt F .f32) (d1 d1' : S8192x64.Idx → Elt F .f32)
    (b0 : (win2_0.xblock (grid2.coords t)).Idx → Elt F .f32) (b1 : (win2_1.xblock (grid2.coords t)).Idx → Elt F .f32) :
    win2_2.cut (grid2.coords t) (k2_pay1 (win2_0.fill (grid2.coords t) d0 b0) (win2_1.fill (grid2.coords t) d1 b1))
      = win2_2.cut (grid2.coords t) (k2_pay1 (win2_0.fill (grid2.coords t) d0' b0) (win2_1.fill (grid2.coords t) d1' b1)) := by
  funext j
  obtain ⟨h00, h01, h10, h11, h21, -⟩ := xsize2 t
  have hj0 : (j 0).val < win2_2.xsize (grid2.coords t) 0 := (j 0).isLt
  have hj1 : (j 1).val < win2_2.xsize (grid2.coords t) 1 := (j 1).isLt
  have hr : (j 0).val < 8192 := lt_of_lt_of_le hj0 (win2_2.xsize_le _ 0)
  have hl : (j 1).val < 64 := lt_of_lt_of_le hj1 (win2_2.xsize_le _ 1)
  have e : win2_2.xinj (grid2.coords t) j = ix2 (⟨(j 0).val, hr⟩ : Fin 8192) (⟨(j 1).val, hl⟩ : Fin 64) :=
    funext fun a => Fin.ext (by match a with | ⟨0, _⟩ => rfl | ⟨1, _⟩ => rfl)
  show k2_pay1 _ _ (win2_2.xinj (grid2.coords t) j) = k2_pay1 _ _ (win2_2.xinj (grid2.coords t) j)
  rw [e, msg2_pay_apply, msg2_pay_apply]
  have m0 : win2_0.moved (grid2.coords t) (ix2 (⟨(j 0).val, hr⟩ : Fin 8192) (0 : Fin 1)) = true :=
    (win2_0.moved_iff _ _).mpr fun a => by
      match a with
      | ⟨0, _⟩ => show (j 0).val < win2_0.xsize (grid2.coords t) 0; rw [h00]; exact hj0
      | ⟨1, _⟩ => show 0 < win2_0.xsize (grid2.coords t) 1; rw [h01]; exact Nat.one_pos
  have m1 : win2_1.moved (grid2.coords t) (ix2 (⟨(j 0).val, hr⟩ : Fin 8192) (⟨(j 1).val, hl⟩ : Fin 64)) = true :=
    (win2_1.moved_iff _ _).mpr fun a => by
      match a with
      | ⟨0, _⟩ => show (j 0).val < win2_1.xsize (grid2.coords t) 0; rw [h10]; exact hj0
      | ⟨1, _⟩ => show (j 1).val < win2_1.xsize (grid2.coords t) 1; rw [h11]; exact hl
  rw [fill_congr_moved2 win2_0 _ d0 d0' b0 _ m0, fill_congr_moved2 win2_1 _ d1 d1' b1 _ m1]

section Region2
variable (V : (c : Dev nD) → (b : Ref sig .tc) → Buf (Elt F) ((c : Thread nD τ).loc b))

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: each buffer as the body left it on the rows its transfers move. -/
def bodyPost2 (c : Dev nD) (t : Fin cfg2.N) : sProp 𝕄 :=
  iprop((dat2 V c).Φ t.succ ∗ (dat2 V c).owesAt () t.succ
    ∗ (∃ d, owns (c : Thread nD τ) (st2_0 t) fullShare (win2_0.fill (grid2.coords t) d (win2_0.cut (grid2.coords t) ((dat2 V c).after 0 t))))
    ∗ (∃ d, owns (c : Thread nD τ) (st2_1 t) fullShare (win2_1.fill (grid2.coords t) d (win2_1.cut (grid2.coords t) ((dat2 V c).after 1 t))))
    ∗ (∃ d, owns (c : Thread nD τ) (st2_2 t) fullShare (win2_2.fill (grid2.coords t) d (win2_2.cut (grid2.coords t) ((dat2 V c).after 2 t)))))

/-- The body at any point: the two input buffers hold their blocks on the rows inside the array and anything past
    them; the product tile on the moved rows is the same whatever that is. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  rw [before2_0 V c t d0, before2_1 V c t d1]
  iapply (sound_msg2 c Set.univ (grid2.coords t) _ _ _ _ _ _
    (win2_0.fill (grid2.coords t) d0 (wblk2 V c t)) (win2_1.fill (grid2.coords t) d1 (gblk2 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    unfold wbuf2; rw [win2_0.cut_fill]; iexact H0
  isplitl [H1]
  · iexists d1
    unfold gbuf2; rw [win2_1.cut_fill]; iexact H1
  · iexists _
    unfold wbuf2 gbuf2
    rw [← msg2_cut_pay t d0 _ d1 _ (wblk2 V c t) (gblk2 V c t), win2_2.fill_cut]; iexact H2

/-- The library's body obligation, at every point. -/
theorem body_obligation2 (c : Dev nD) : BodyObligationLoose (dat2 (F := F) V c) (defs₀ (F := F)) Variants.none () Set.univ := fun t => by
  rw [bigSep_W2, bigSep_W2]
  exact sound_body2 V c t

end Region2

section Value
variable (V : (c : Dev nD) → (b : Ref sig .tc) → Buf (Elt F) ((c : Thread nD τ).loc b))

/-! ## The result array after the run -/

/-- Row `y` of the block of weights at point `t` is row `8192 t + y` of the array of weights; -/
theorem wblk2_apply (c : Dev nD) (t : Fin cfg2.N) (y : (win2_0.xblock (grid2.coords t)).Idx) (k : S4000000x1.Idx)
    (hk0 : (k 0).val = t.val * 8192 + (y 0).val) (hk1 : (k 1).val = (y 1).val) :
    wblk2 V c t y = (V c main_v1 : S4000000x1.Idx → Elt F .f32) k := by
  obtain ⟨i00, i01, -⟩ := index2 t
  unfold wblk2
  rw [View.read_apply]
  show (V c main_v1 : S4000000x1.Idx → Elt F .f32) _ = (V c main_v1 : S4000000x1.Idx → Elt F .f32) _
  congr 1
  funext a
  apply Fin.ext
  match a with
  | ⟨0, _⟩ => show win2_0.index t 0 * 8192 + 1 * (y 0).val = (k 0).val; rw [i00, hk0]; omega
  | ⟨1, _⟩ => show win2_0.index t 1 * 1 + 1 * (y 1).val = (k 1).val; rw [i01, hk1]; omega

/-- the same of the block of gathered rows; -/
theorem gblk2_apply (c : Dev nD) (t : Fin cfg2.N) (y : (win2_1.xblock (grid2.coords t)).Idx) (k : S4000000x64.Idx)
    (hk0 : (k 0).val = t.val * 8192 + (y 0).val) (hk1 : (k 1).val = (y 1).val) :
    gblk2 V c t y = (V c main_v20 : S4000000x64.Idx → Elt F .f32) k := by
  obtain ⟨-, -, i10, i11, -⟩ := index2 t
  unfold gblk2
  rw [View.read_apply]
  show (V c main_v20 : S4000000x64.Idx → Elt F .f32) _ = (V c main_v20 : S4000000x64.Idx → Elt F .f32) _
  congr 1
  funext a
  apply Fin.ext
  match a with
  | ⟨0, _⟩ => show win2_1.index t 0 * 8192 + 1 * (y 0).val = (k 0).val; rw [i10, hk0]; omega
  | ⟨1, _⟩ => show win2_1.index t 1 * 64 + 1 * (y 1).val = (k 1).val; rw [i11, hk1]; omega

/-- and of a block of any contents of the result array. -/
theorem oblk2_apply (G : S4000000x64.Idx → Elt F .f32) (t : Fin cfg2.N) (y : (win2_2.xblock (grid2.coords t)).Idx) (k : S4000000x64.Idx)
    (hk0 : (k 0).val = t.val * 8192 + (y 0).val) (hk1 : (k 1).val = (y 1).val) :
    (win2_2.blk t).view.read (Elt F) G y = G k := by
  obtain ⟨-, -, -, -, i20, i21⟩ := index2 t
  rw [View.read_apply]
  show G _ = G _
  congr 1
  funext a
  apply Fin.ext
  match a with
  | ⟨0, _⟩ => show win2_2.index t 0 * 8192 + 1 * (y 0).val = (k 0).val; rw [i20, hk0]; omega
  | ⟨1, _⟩ => show win2_2.index t 1 * 64 + 1 * (y 1).val = (k 1).val; rw [i21, hk1]; omega

/-- The edge messages of the arrays the region finds: what its result array is shown to hold. -/
abbrev msgOut2 (c : Dev nD) : S4000000x64.Idx → Elt F .f32 :=
  Cert.Spec.msgArr (F := F) (V c main_v1 : S4000000x1.Idx → Elt F .f32) (V c main_v20 : S4000000x64.Idx → Elt F .f32)

/-- What point `t` writes back is block `t` of the edge messages. -/
theorem flushed2 (c : Dev nD) (t : Fin cfg2.N) :
    (dat2 V c).flushed 2 t = ((cfg2.win 2).blk t).view.read (Elt F) (msgOut2 V c) := by
  show win2_2.cut (grid2.coords t) ((dat2 V c).after 2 t) = (win2_2.blk t).view.read (Elt F) (msgOut2 V c)
  rw [after2_2]
  funext j
  obtain ⟨h00, h01, h10, h11, h21, hx⟩ := xsize2 t
  have hj0 : (j 0).val < win2_2.xsize (grid2.coords t) 0 := (j 0).isLt
  have hj1 : (j 1).val < win2_2.xsize (grid2.coords t) 1 := (j 1).isLt
  have hr : (j 0).val < 8192 := lt_of_lt_of_le hj0 (win2_2.xsize_le _ 0)
  have hl : (j 1).val < 64 := lt_of_lt_of_le hj1 (win2_2.xsize_le _ 1)
  have hK : t.val * 8192 + (j 0).val < 4000000 := by
    have := Nat.min_le_right (t.val * 8192 + 8192) 4000000; omega
  have e : win2_2.xinj (grid2.coords t) j = ix2 (⟨(j 0).val, hr⟩ : Fin 8192) (⟨(j 1).val, hl⟩ : Fin 64) :=
    funext fun a => Fin.ext (by match a with | ⟨0, _⟩ => rfl | ⟨1, _⟩ => rfl)
  have m0 : win2_0.moved (grid2.coords t) (ix2 (⟨(j 0).val, hr⟩ : Fin 8192) (0 : Fin 1)) = true :=
    (win2_0.moved_iff _ _).mpr fun a => by
      match a with
      | ⟨0, _⟩ => show (j 0).val < win2_0.xsize (grid2.coords t) 0; rw [h00]; exact hj0
      | ⟨1, _⟩ => show 0 < win2_0.xsize (grid2.coords t) 1; rw [h01]; exact Nat.one_pos
  have m1 : win2_1.moved (grid2.coords t) (ix2 (⟨(j 0).val, hr⟩ : Fin 8192) (⟨(j 1).val, hl⟩ : Fin 64)) = true :=
    (win2_1.moved_iff _ _).mpr fun a => by
      match a with
      | ⟨0, _⟩ => show (j 0).val < win2_1.xsize (grid2.coords t) 0; rw [h10]; exact hj0
      | ⟨1, _⟩ => show (j 1).val < win2_1.xsize (grid2.coords t) 1; rw [h11]; exact hl
  show k2_pay1 _ _ (win2_2.xinj (grid2.coords t) j) = _
  rw [e, msg2_pay_apply]
  unfold wbuf2 gbuf2 Pipeline.Window.fill
  rw [dif_pos m0, dif_pos m1,
    wblk2_apply V c t _ (ix2 (⟨t.val * 8192 + (j 0).val, hK⟩ : Fin 4000000) (0 : Fin 1)) ?_ ?_,
    gblk2_apply V c t _ (ix2 (⟨t.val * 8192 + (j 0).val, hK⟩ : Fin 4000000) (⟨(j 1).val, hl⟩ : Fin 64)) ?_ ?_,
    oblk2_apply (msgOut2 V c) t j (ix2 (⟨t.val * 8192 + (j 0).val, hK⟩ : Fin 4000000) (⟨(j 1).val, hl⟩ : Fin 64)) ?_ ?_]
  all_goals rfl

/-- Every entry of the result array lies in the block of the point its row belongs to. -/
theorem cover2 (i : S4000000x64.Idx) :
    ∃ t : Fin cfg2.N, (cfg2.win 2).flush t = true ∧ i ∈ ((cfg2.win 2).blk t).view.set := by
  have hi0 : (i 0).val < 4000000 := (i 0).isLt
  have hi1 : (i 1).val < 64 := (i 1).isLt
  obtain ⟨q, r, hr, hqr⟩ : ∃ q r, r < 8192 ∧ (i 0).val = q * 8192 + r :=
    ⟨(i 0).val / 8192, (i 0).val % 8192, Nat.mod_lt _ (by decide), by rw [Nat.mul_comm]; exact (Nat.div_add_mod _ _).symm⟩
  have hN : cfg2.N = 489 := N_2
  have hT : q < cfg2.N := by rw [hN]; omega
  refine ⟨⟨q, hT⟩, flush2_2 _, ?_⟩
  obtain ⟨-, -, -, -, h21, hx⟩ := xsize2 ⟨q, hT⟩
  obtain ⟨-, -, -, -, i20, i21⟩ := index2 ⟨q, hT⟩
  have i20' : win2_2.index ⟨q, hT⟩ 0 = q := i20
  show i ∈ ((View.whole main_v21).slice (win2_2.rect ⟨q, hT⟩)).set
  rw [View.set_slice_whole, Rect.mem_set_unit]
  intro a
  match a with
  | ⟨0, _⟩ =>
    show win2_2.index ⟨q, hT⟩ 0 * 8192 ≤ (i 0).val
      ∧ (i 0).val < win2_2.index ⟨q, hT⟩ 0 * 8192 + win2_2.xsize (grid2.coords ⟨q, hT⟩) 0
    rw [i20']
    have hx' : q * 8192 + win2_2.xsize (grid2.coords ⟨q, hT⟩) 0 = min (q * 8192 + 8192) 4000000 := hx
    have hle := Nat.le_min.mpr (⟨by omega, by omega⟩ : (i 0).val + 1 ≤ q * 8192 + 8192 ∧ (i 0).val + 1 ≤ 4000000)
    rw [← hx'] at hle
    exact ⟨by rw [hqr]; exact Nat.le_add_right _ _, hle⟩
  | ⟨1, _⟩ =>
    show win2_2.index ⟨q, hT⟩ 1 * 64 ≤ (i 1).val
      ∧ (i 1).val < win2_2.index ⟨q, hT⟩ 1 * 64 + win2_2.xsize (grid2.coords ⟨q, hT⟩) 1
    rw [i21, h21]; omega

/-- So the result array ends holding the edge messages. -/
theorem final2 (c : Dev nD) : (dat2 V c).arrAt 2 cfg2.N = msgOut2 V c :=
  (dat2 V c).arrAt_eq_of_cover 2 (msgOut2 V c) (fun t _ => flushed2 V c t) cover2

end Value

end Cert.Kernel.Hand

end
-- ==== Proof.BitsSide.Msg4.lean ====
import proofs.«142893_j63376537420313_1_alg».proof.Proof.Gen.Kernel.Launch
import proofs.«142893_j63376537420313_1_alg».proof.Proof.Gen.Kernel.Skeleton
import proofs.«142893_j63376537420313_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Tactic
import proofs.«142893_j63376537420313_1_alg».proof.Proof.LibKeepdims
import proofs.«142893_j63376537420313_1_alg».proof.Proof.Spec
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.ValueIdx

theorem hz2_4 : (![0, 0] : Fin 2 → Nat) = fun _ => 0 := funext fun a => by fin_cases a <;> rfl

/-! ## The edge-message kernel (region 4): one point's arithmetic -/

/-- What one point stores, at row `p` and lane `l` of the tile: the weight of edge `p` times entry `l` of the row
    gathered for that edge. -/
theorem msg4_pay_apply (X0 : Vec F S8192x1 .f32) (X1 : Vec F S8192x64 .f32) (p : Fin 8192) (l : Fin 64) :
    k4_pay1 X0 X1 (ix2 p l) = FloatOps.mulf (φ := .f32) (X0 (ix2 p (0 : Fin 1))) (X1 (ix2 p l)) := by
  unfold k4_pay1
  show FloatOps.mulf (φ := .f32) (broadcastTo S8192x64 (shapeCast S8192x1 X0 _) _ (ix2 p l)) (shapeCast S8192x64 X1 _ (ix2 p l)) = _
  rw [shapeCast_self, shapeCast_self, Cert.Lib.Keepdims.broadcastTo_a1_ab_apply]

/-- The kernel body on whole staging buffers: it loads the column of edge weights and the tile of gathered rows
    and stores their row-wise product into the result's buffer, whatever that held. -/
theorem sound_msg4 (c : Dev nD) (E : Set ℕ) (i : grid4.Coords)
    (arg1 : Memref sig .tc .vmem S8192x1 .f32) (harg1 : arg1.IsWhole)
    (arg2 : Memref sig .tc .vmem S8192x64 .f32) (harg2 : arg2.IsWhole)
    (arg3 : Memref sig .tc .vmem S8192x64 .f32) (harg3 : arg3.IsWhole)
    (x0 : Vec F S8192x1 .f32) (x1 : Vec F S8192x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k4_pay1 x0 x1)) -∗ K ⟨⟩))
      ⊢ wp frame (wpE (defs₀ (F := F)) Variants.none c none) E (cc4__msg_kernel i arg1 harg1 arg2 harg2 arg3 harg3) K := by
  simp only [cc4__msg_kernel_eq_skeleton]; unfold cc4__msg_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz2_4 inb_S8192x64_S8192x64_0_0 y⟩),
    View.canon_unit_zero hz2_4, View.readAt_eq_ld, View.readAt_eq_ld, View.ld_unit_zero hz2_4, View.ld_unit_zero hz2_4]

section Region
variable (V : (c : Dev nD) → (b : Ref sig .tc) → Buf (Elt F) ((c : Thread nD τ).loc b))

/-! ## The windows' blocks and the proof data -/

/-- The block of edge weights at point `t`: its part inside the array. -/
def wblk4 (c : Dev nD) (t : Fin cfg4.N) : (win4_0.xblock (grid4.coords t)).Idx → Elt F .f32 :=
  (win4_0.blk t).view.read (Elt F) (V c main_v1)
/-- The block of gathered rows at point `t`: its part inside the array. -/
def gblk4 (c : Dev nD) (t : Fin cfg4.N) : (win4_1.xblock (grid4.coords t)).Idx → Elt F .f32 :=
  (win4_1.blk t).view.read (Elt F) (V c main_v32)

/-- The two input buffers after a fetch, with the rows past the array's end (the last point's) at the zero word. -/
def wbuf4 (c : Dev nD) (t : Fin cfg4.N) : S8192x1.Idx → Elt F .f32 :=
  win4_0.fill (grid4.coords t) (fun _ => Scalar.ofBits .f32 0#32) (wblk4 V c t)
def gbuf4 (c : Dev nD) (t : Fin cfg4.N) : S8192x64.Idx → Elt F .f32 :=
  win4_1.fill (grid4.coords t) (fun _ => Scalar.ofBits .f32 0#32) (gblk4 V c t)

/-- The proof data of the pipeline: the arrays as the region finds them; after the body the inputs' buffers at
    their blocks and the result's at the product tile; the class invariant; nothing owed. -/
def dat4 (c : Dev nD) : Dat τ (Elt F) Unit ℕ (Pipeline.UD sig nD τ) ℕ cfg4 c where
  A w := V c (Pipeline.arrRef spec4 w)
  after w t := match w with
    | ⟨0, _⟩ => wbuf4 V c t
    | ⟨1, _⟩ => gbuf4 V c t
    | ⟨2, _⟩ => k4_pay1 (wbuf4 V c t) (gbuf4 V c t)
  Φ _ := Pipeline.ΦA spec4 c
  q _ := fullShare
  owed _ := 0

theorem A_eq4 (c : Dev nD) (w : Fin cfg4.W) : (dat4 V c).A w = V c (Pipeline.arrRef spec4 w) := by dsimp only [dat4]
theorem after4_0 (c : Dev nD) (t : Fin cfg4.N) : (dat4 V c).after 0 t = wbuf4 V c t := by dsimp only [dat4]
theorem after4_1 (c : Dev nD) (t : Fin cfg4.N) : (dat4 V c).after 1 t = gbuf4 V c t := by dsimp only [dat4]
theorem after4_2 (c : Dev nD) (t : Fin cfg4.N) : (dat4 V c).after 2 t = k4_pay1 (wbuf4 V c t) (gbuf4 V c t) := by dsimp only [dat4]

/-- An input buffer when the body runs: just fetched, its block on the rows inside the array. -/
theorem before4_0 (c : Dev nD) (t : Fin cfg4.N) (d) :
    (dat4 V c).before 0 t d = win4_0.fill (grid4.coords t) d (wblk4 V c t) := by
  unfold Dat.before; rw [if_pos (fetch4_0 t)]; unfold Dat.fetched Dat.blockOf wblk4; rw [A_eq4]
theorem before4_1 (c : Dev nD) (t : Fin cfg4.N) (d) :
    (dat4 V c).before 1 t d = win4_1.fill (grid4.coords t) d (gblk4 V c t) := by
  unfold Dat.before; rw [if_pos (fetch4_1 t)]; unfold Dat.fetched Dat.blockOf gblk4; rw [A_eq4]

end Region

/-! ## The schedule's arithmetic, decided over the grid -/

/-- At every point the three windows move the same rows, and every lane of their rows. -/
theorem xsize4 : ∀ t : Fin cfg4.N,
    win4_0.xsize (grid4.coords t) 0 = win4_2.xsize (grid4.coords t) 0 ∧ win4_0.xsize (grid4.coords t) 1 = 1
    ∧ win4_1.xsize (grid4.coords t) 0 = win4_2.xsize (grid4.coords t) 0 ∧ win4_1.xsize (grid4.coords t) 1 = 64
    ∧ win4_2.xsize (grid4.coords t) 1 = 64
    ∧ t.val * 8192 + win4_2.xsize (grid4.coords t) 0 = min (t.val * 8192 + 8192) 4000000 :=
  (by decide +kernel : ∀ t : Fin grid4.N, _)

/-- Block `t` of each window starts at row `8192 t`, lane 0. -/
theorem index4 : ∀ t : Fin cfg4.N,
    win4_0.index t 0 = t.val ∧ win4_0.index t 1 = 0 ∧ win4_1.index t 0 = t.val ∧ win4_1.index t 1 = 0
    ∧ win4_2.index t 0 = t.val ∧ win4_2.index t 1 = 0 :=
  (by decide +kernel : ∀ t : Fin grid4.N, _)

/-- Contents that differ only off the part a fetch fills agree on it. -/
theorem fill_congr_moved4 {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- On the rows the write-back moves, the product tile does not depend on what the input buffers hold past the
    array's end. -/
theorem msg4_cut_pay (t : Fin cfg4.N) (d0 d0' : S8192x1.Idx → Elt F .f32) (d1 d1' : S8192x64.Idx → Elt F .f32)
    (b0 : (win4_0.xblock (grid4.coords t)).Idx → Elt F .f32) (b1 : (win4_1.xblock (grid4.coords t)).Idx → Elt F .f32) :
    win4_2.cut (grid4.coords t) (k4_pay1 (win4_0.fill (grid4.coords t) d0 b0) (win4_1.fill (grid4.coords t) d1 b1))
      = win4_2.cut (grid4.coords t) (k4_pay1 (win4_0.fill (grid4.coords t) d0' b0) (win4_1.fill (grid4.coords t) d1' b1)) := by
  funext j
  obtain ⟨h00, h01, h10, h11, h21, -⟩ := xsize4 t
  have hj0 : (j 0).val < win4_2.xsize (grid4.coords t) 0 := (j 0).isLt
  have hj1 : (j 1).val < win4_2.xsize (grid4.coords t) 1 := (j 1).isLt
  have hr : (j 0).val < 8192 := lt_of_lt_of_le hj0 (win4_2.xsize_le _ 0)
  have hl : (j 1).val < 64 := lt_of_lt_of_le hj1 (win4_2.xsize_le _ 1)
  have e : win4_2.xinj (grid4.coords t) j = ix2 (⟨(j 0).val, hr⟩ : Fin 8192) (⟨(j 1).val, hl⟩ : Fin 64) :=
    funext fun a => Fin.ext (by match a with | ⟨0, _⟩ => rfl | ⟨1, _⟩ => rfl)
  show k4_pay1 _ _ (win4_2.xinj (grid4.coords t) j) = k4_pay1 _ _ (win4_2.xinj (grid4.coords t) j)
  rw [e, msg4_pay_apply, msg4_pay_apply]
  have m0 : win4_0.moved (grid4.coords t) (ix2 (⟨(j 0).val, hr⟩ : Fin 8192) (0 : Fin 1)) = true :=
    (win4_0.moved_iff _ _).mpr fun a => by
      match a with
      | ⟨0, _⟩ => show (j 0).val < win4_0.xsize (grid4.coords t) 0; rw [h00]; exact hj0
      | ⟨1, _⟩ => show 0 < win4_0.xsize (grid4.coords t) 1; rw [h01]; exact Nat.one_pos
  have m1 : win4_1.moved (grid4.coords t) (ix2 (⟨(j 0).val, hr⟩ : Fin 8192) (⟨(j 1).val, hl⟩ : Fin 64)) = true :=
    (win4_1.moved_iff _ _).mpr fun a => by
      match a with
      | ⟨0, _⟩ => show (j 0).val < win4_1.xsize (grid4.coords t) 0; rw [h10]; exact hj0
      | ⟨1, _⟩ => show (j 1).val < win4_1.xsize (grid4.coords t) 1; rw [h11]; exact hl
  rw [fill_congr_moved4 win4_0 _ d0 d0' b0 _ m0, fill_congr_moved4 win4_1 _ d1 d1' b1 _ m1]

section Region2
variable (V : (c : Dev nD) → (b : Ref sig .tc) → Buf (Elt F) ((c : Thread nD τ).loc b))

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns: each buffer as the body left it on the rows its transfers move. -/
def bodyPost4 (c : Dev nD) (t : Fin cfg4.N) : sProp 𝕄 :=
  iprop((dat4 V c).Φ t.succ ∗ (dat4 V c).owesAt () t.succ
    ∗ (∃ d, owns (c : Thread nD τ) (st4_0 t) fullShare (win4_0.fill (grid4.coords t) d (win4_0.cut (grid4.coords t) ((dat4 V c).after 0 t))))
    ∗ (∃ d, owns (c : Thread nD τ) (st4_1 t) fullShare (win4_1.fill (grid4.coords t) d (win4_1.cut (grid4.coords t) ((dat4 V c).after 1 t))))
    ∗ (∃ d, owns (c : Thread nD τ) (st4_2 t) fullShare (win4_2.fill (grid4.coords t) d (win4_2.cut (grid4.coords t) ((dat4 V c).after 2 t)))))

/-- The body at any point: the two input buffers hold their blocks on the rows inside the array and anything past
    them; the product tile on the moved rows is the same whatever that is. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  rw [before4_0 V c t d0, before4_1 V c t d1]
  iapply (sound_msg4 c Set.univ (grid4.coords t) _ _ _ _ _ _
    (win4_0.fill (grid4.coords t) d0 (wblk4 V c t)) (win4_1.fill (grid4.coords t) d1 (gblk4 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    unfold wbuf4; rw [win4_0.cut_fill]; iexact H0
  isplitl [H1]
  · iexists d1
    unfold gbuf4; rw [win4_1.cut_fill]; iexact H1
  · iexists _
    unfold wbuf4 gbuf4
    rw [← msg4_cut_pay t d0 _ d1 _ (wblk4 V c t) (gblk4 V c t), win4_2.fill_cut]; iexact H2

/-- The library's body obligation, at every point. -/
theorem body_obligation4 (c : Dev nD) : BodyObligationLoose (dat4 (F := F) V c) (defs₀ (F := F)) Variants.none () Set.univ := fun t => by
  rw [bigSep_W4, bigSep_W4]
  exact sound_body4 V c t

end Region2

section Value
variable (V : (c : Dev nD) → (b : Ref sig .tc) → Buf (Elt F) ((c : Thread nD τ).loc b))

/-! ## The result array after the run -/

/-- Row `y` of the block of weights at point `t` is row `8192 t + y` of the array of weights; -/
theorem wblk4_apply (c : Dev nD) (t : Fin cfg4.N) (y : (win4_0.xblock (grid4.coords t)).Idx) (k : S4000000x1.Idx)
    (hk0 : (k 0).val = t.val * 8192 + (y 0).val) (hk1 : (k 1).val = (y 1).val) :
    wblk4 V c t y = (V c main_v1 : S4000000x1.Idx → Elt F .f32) k := by
  obtain ⟨i00, i01, -⟩ := index4 t
  unfold wblk4
  rw [View.read_apply]
  show (V c main_v1 : S4000000x1.Idx → Elt F .f32) _ = (V c main_v1 : S4000000x1.Idx → Elt F .f32) _
  congr 1
  funext a
  apply Fin.ext
  match a with
  | ⟨0, _⟩ => show win4_0.index t 0 * 8192 + 1 * (y 0).val = (k 0).val; rw [i00, hk0]; omega
  | ⟨1, _⟩ => show win4_0.index t 1 * 1 + 1 * (y 1).val = (k 1).val; rw [i01, hk1]; omega

/-- the same of the block of gathered rows; -/
theorem gblk4_apply (c : Dev nD) (t : Fin cfg4.N) (y : (win4_1.xblock (grid4.coords t)).Idx) (k : S4000000x64.Idx)
    (hk0 : (k 0).val = t.val * 8192 + (y 0).val) (hk1 : (k 1).val = (y 1).val) :
    gblk4 V c t y = (V c main_v32 : S4000000x64.Idx → Elt F .f32) k := by
  obtain ⟨-, -, i10, i11, -⟩ := index4 t
  unfold gblk4
  rw [View.read_apply]
  show (V c main_v32 : S4000000x64.Idx → Elt F .f32) _ = (V c main_v32 : S4000000x64.Idx → Elt F .f32) _
  congr 1
  funext a
  apply Fin.ext
  match a with
  | ⟨0, _⟩ => show win4_1.index t 0 * 8192 + 1 * (y 0).val = (k 0).val; rw [i10, hk0]; omega
  | ⟨1, _⟩ => show win4_1.index t 1 * 64 + 1 * (y 1).val = (k 1).val; rw [i11, hk1]; omega

/-- and of a block of any contents of the result array. -/
theorem oblk4_apply (G : S4000000x64.Idx → Elt F .f32) (t : Fin cfg4.N) (y : (win4_2.xblock (grid4.coords t)).Idx) (k : S4000000x64.Idx)
    (hk0 : (k 0).val = t.val * 8192 + (y 0).val) (hk1 : (k 1).val = (y 1).val) :
    (win4_2.blk t).view.read (Elt F) G y = G k := by
  obtain ⟨-, -, -, -, i20, i21⟩ := index4 t
  rw [View.read_apply]
  show G _ = G _
  congr 1
  funext a
  apply Fin.ext
  match a with
  | ⟨0, _⟩ => show win4_2.index t 0 * 8192 + 1 * (y 0).val = (k 0).val; rw [i20, hk0]; omega
  | ⟨1, _⟩ => show win4_2.index t 1 * 64 + 1 * (y 1).val = (k 1).val; rw [i21, hk1]; omega

/-- The edge messages of the arrays the region finds: what its result array is shown to hold. -/
abbrev msgOut4 (c : Dev nD) : S4000000x64.Idx → Elt F .f32 :=
  Cert.Spec.msgArr (F := F) (V c main_v1 : S4000000x1.Idx → Elt F .f32) (V c main_v32 : S4000000x64.Idx → Elt F .f32)

/-- What point `t` writes back is block `t` of the edge messages. -/
theorem flushed4 (c : Dev nD) (t : Fin cfg4.N) :
    (dat4 V c).flushed 2 t = ((cfg4.win 2).blk t).view.read (Elt F) (msgOut4 V c) := by
  show win4_2.cut (grid4.coords t) ((dat4 V c).after 2 t) = (win4_2.blk t).view.read (Elt F) (msgOut4 V c)
  rw [after4_2]
  funext j
  obtain ⟨h00, h01, h10, h11, h21, hx⟩ := xsize4 t
  have hj0 : (j 0).val < win4_2.xsize (grid4.coords t) 0 := (j 0).isLt
  have hj1 : (j 1).val < win4_2.xsize (grid4.coords t) 1 := (j 1).isLt
  have hr : (j 0).val < 8192 := lt_of_lt_of_le hj0 (win4_2.xsize_le _ 0)
  have hl : (j 1).val < 64 := lt_of_lt_of_le hj1 (win4_2.xsize_le _ 1)
  have hK : t.val * 8192 + (j 0).val < 4000000 := by
    have := Nat.min_le_right (t.val * 8192 + 8192) 4000000; omega
  have e : win4_2.xinj (grid4.coords t) j = ix2 (⟨(j 0).val, hr⟩ : Fin 8192) (⟨(j 1).val, hl⟩ : Fin 64) :=
    funext fun a => Fin.ext (by match a with | ⟨0, _⟩ => rfl | ⟨1, _⟩ => rfl)
  have m0 : win4_0.moved (grid4.coords t) (ix2 (⟨(j 0).val, hr⟩ : Fin 8192) (0 : Fin 1)) = true :=
    (win4_0.moved_iff _ _).mpr fun a => by
      match a with
      | ⟨0, _⟩ => show (j 0).val < win4_0.xsize (grid4.coords t) 0; rw [h00]; exact hj0
      | ⟨1, _⟩ => show 0 < win4_0.xsize (grid4.coords t) 1; rw [h01]; exact Nat.one_pos
  have m1 : win4_1.moved (grid4.coords t) (ix2 (⟨(j 0).val, hr⟩ : Fin 8192) (⟨(j 1).val, hl⟩ : Fin 64)) = true :=
    (win4_1.moved_iff _ _).mpr fun a => by
      match a with
      | ⟨0, _⟩ => show (j 0).val < win4_1.xsize (grid4.coords t) 0; rw [h10]; exact hj0
      | ⟨1, _⟩ => show (j 1).val < win4_1.xsize (grid4.coords t) 1; rw [h11]; exact hl
  show k4_pay1 _ _ (win4_2.xinj (grid4.coords t) j) = _
  rw [e, msg4_pay_apply]
  unfold wbuf4 gbuf4 Pipeline.Window.fill
  rw [dif_pos m0, dif_pos m1,
    wblk4_apply V c t _ (ix2 (⟨t.val * 8192 + (j 0).val, hK⟩ : Fin 4000000) (0 : Fin 1)) ?_ ?_,
    gblk4_apply V c t _ (ix2 (⟨t.val * 8192 + (j 0).val, hK⟩ : Fin 4000000) (⟨(j 1).val, hl⟩ : Fin 64)) ?_ ?_,
    oblk4_apply (msgOut4 V c) t j (ix2 (⟨t.val * 8192 + (j 0).val, hK⟩ : Fin 4000000) (⟨(j 1).val, hl⟩ : Fin 64)) ?_ ?_]
  all_goals rfl

/-- Every entry of the result array lies in the block of the point its row belongs to. -/
theorem cover4 (i : S4000000x64.Idx) :
    ∃ t : Fin cfg4.N, (cfg4.win 2).flush t = true ∧ i ∈ ((cfg4.win 2).blk t).view.set := by
  have hi0 : (i 0).val < 4000000 := (i 0).isLt
  have hi1 : (i 1).val < 64 := (i 1).isLt
  obtain ⟨q, r, hr, hqr⟩ : ∃ q r, r < 8192 ∧ (i 0).val = q * 8192 + r :=
    ⟨(i 0).val / 8192, (i 0).val % 8192, Nat.mod_lt _ (by decide), by rw [Nat.mul_comm]; exact (Nat.div_add_mod _ _).symm⟩
  have hN : cfg4.N = 489 := N_4
  have hT : q < cfg4.N := by rw [hN]; omega
  refine ⟨⟨q, hT⟩, flush4_2 _, ?_⟩
  obtain ⟨-, -, -, -, h21, hx⟩ := xsize4 ⟨q, hT⟩
  obtain ⟨-, -, -, -, i20, i21⟩ := index4 ⟨q, hT⟩
  have i20' : win4_2.index ⟨q, hT⟩ 0 = q := i20
  show i ∈ ((View.whole main_v33).slice (win4_2.rect ⟨q, hT⟩)).set
  rw [View.set_slice_whole, Rect.mem_set_unit]
  intro a
  match a with
  | ⟨0, _⟩ =>
    show win4_2.index ⟨q, hT⟩ 0 * 8192 ≤ (i 0).val
      ∧ (i 0).val < win4_2.index ⟨q, hT⟩ 0 * 8192 + win4_2.xsize (grid4.coords ⟨q, hT⟩) 0
    rw [i20']
    have hx' : q * 8192 + win4_2.xsize (grid4.coords ⟨q, hT⟩) 0 = min (q * 8192 + 8192) 4000000 := hx
    have hle := Nat.le_min.mpr (⟨by omega, by omega⟩ : (i 0).val + 1 ≤ q * 8192 + 8192 ∧ (i 0).val + 1 ≤ 4000000)
    rw [← hx'] at hle
    exact ⟨by rw [hqr]; exact Nat.le_add_right _ _, hle⟩
  | ⟨1, _⟩ =>
    show win4_2.index ⟨q, hT⟩ 1 * 64 ≤ (i 1).val
      ∧ (i 1).val < win4_2.index ⟨q, hT⟩ 1 * 64 + win4_2.xsize (grid4.coords ⟨q, hT⟩) 1
    rw [i21, h21]; omega

/-- So the result array ends holding the edge messages. -/
theorem final4 (c : Dev nD) : (dat4 V c).arrAt 2 cfg4.N = msgOut4 V c :=
  (dat4 V c).arrAt_eq_of_cover 2 (msgOut4 V c) (fun t _ => flushed4 V c t) cover4

end Value

end Cert.Kernel.Hand

end
-- ==== Proof.BitsSide.Acc1.lean ====
import proofs.«142893_j63376537420313_1_alg».proof.Proof.Gen.Kernel.Launch
import proofs.«142893_j63376537420313_1_alg».proof.Proof.Gen.Kernel.Skeleton
import proofs.«142893_j63376537420313_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Tactic
import proofs.«142893_j63376537420313_1_alg».proof.Proof.Spec
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.ValueIdx

theorem hz2_1 : (![0, 0] : Fin 2 → Nat) = fun _ => 0 := funext fun a => by fin_cases a <;> rfl

/-! ## The accumulation kernel (region 1): one point's arithmetic -/

/-- What one point stores, entry by entry: the running total plus the new layer, times the kernel's scale. -/
theorem acc1_pay_apply (X0 X1 : Vec F S8000x64 .f32) (j : S8000x64.Idx) :
    k1_pay1 X0 X1 j = FloatOps.mulf (φ := .f32) (FloatOps.addf (φ := .f32) (X0 j) (X1 j)) (Scalar.ofBits .f32 0x3F800000#32) := by
  unfold k1_pay1
  show FloatOps.mulf (φ := .f32) (FloatOps.addf (φ := .f32) (shapeCast S8000x64 X0 _ j) (shapeCast S8000x64 X1 _ j)) _ = _
  rw [shapeCast_self, shapeCast_self]
  rfl

/-- The kernel body on whole staging buffers: it loads the tile of the running total and the tile of the new layer
    and stores their scaled sum into the result's buffer, whatever that held. -/
theorem sound_acc1 (c : Dev nD) (E : Set ℕ) (i : grid1.Coords)
    (arg1 : Memref sig .tc .vmem S8000x64 .f32) (harg1 : arg1.IsWhole)
    (arg2 : Memref sig .tc .vmem S8000x64 .f32) (harg2 : arg2.IsWhole)
    (arg3 : Memref sig .tc .vmem S8000x64 .f32) (harg3 : arg3.IsWhole)
    (x0 x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k1_pay1 x0 x1)) -∗ K ⟨⟩))
      ⊢ wp frame (wpE (defs₀ (F := F)) Variants.none c none) E (cc1__accum_kernel i arg1 harg1 arg2 harg2 arg3 harg3) K := by
  simp only [cc1__accum_kernel_eq_skeleton]; unfold cc1__accum_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz2_1 inb_S8000x64_S8000x64_0_0 y⟩),
    View.canon_unit_zero hz2_1, View.readAt_eq_ld, View.readAt_eq_ld, View.ld_unit_zero hz2_1, View.ld_unit_zero hz2_1]

/-! ## The schedule's arithmetic, decided over the grid -/

/-- At every point the three windows move the same rows, and every lane of their rows. -/
theorem xsize1 : ∀ t : Fin cfg1.N,
    win1_0.xsize (grid1.coords t) 0 = win1_2.xsize (grid1.coords t) 0 ∧ win1_0.xsize (grid1.coords t) 1 = win1_2.xsize (grid1.coords t) 1
    ∧ win1_1.xsize (grid1.coords t) 0 = win1_2.xsize (grid1.coords t) 0 ∧ win1_1.xsize (grid1.coords t) 1 = win1_2.xsize (grid1.coords t) 1
    ∧ win1_2.xsize (grid1.coords t) 1 = 64
    ∧ t.val * 8000 + win1_2.xsize (grid1.coords t) 0 = min (t.val * 8000 + 8000) 150000 :=
  (by decide +kernel : ∀ t : Fin grid1.N, _)

/-- Block `t` of each window starts at row `8000 t`, lane 0. -/
theorem index1 : ∀ t : Fin cfg1.N,
    win1_0.index t 0 = t.val ∧ win1_0.index t 1 = 0 ∧ win1_1.index t 0 = t.val ∧ win1_1.index t 1 = 0
    ∧ win1_2.index t 0 = t.val ∧ win1_2.index t 1 = 0 :=
  (by decide +kernel : ∀ t : Fin grid1.N, _)

/-- Contents that differ only off the part a fetch fills agree on it. -/
theorem fill_congr_moved1 {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- The entries the result's write-back moves are entries the two fetches fill. -/
theorem moved1 (t : Fin cfg1.N) (j : (win1_2.xblock (grid1.coords t)).Idx) :
    win1_0.moved (grid1.coords t) (win1_2.xinj (grid1.coords t) j) = true
    ∧ win1_1.moved (grid1.coords t) (win1_2.xinj (grid1.coords t) j) = true := by
  obtain ⟨h00, h01, h10, h11, -, -⟩ := xsize1 t
  have hj0 : (j 0).val < win1_2.xsize (grid1.coords t) 0 := (j 0).isLt
  have hj1 : (j 1).val < win1_2.xsize (grid1.coords t) 1 := (j 1).isLt
  refine ⟨(win1_0.moved_iff _ _).mpr fun a => ?_, (win1_1.moved_iff _ _).mpr fun a => ?_⟩
  · match a with
    | ⟨0, _⟩ => show (j 0).val < win1_0.xsize (grid1.coords t) 0; rw [h00]; exact hj0
    | ⟨1, _⟩ => show (j 1).val < win1_0.xsize (grid1.coords t) 1; rw [h01]; exact hj1
  · match a with
    | ⟨0, _⟩ => show (j 0).val < win1_1.xsize (grid1.coords t) 0; rw [h10]; exact hj0
    | ⟨1, _⟩ => show (j 1).val < win1_1.xsize (grid1.coords t) 1; rw [h11]; exact hj1

/-- On the rows the write-back moves, the stored tile does not depend on what the input buffers hold past the
    array's end. -/
theorem acc1_cut_pay (t : Fin cfg1.N) (d0 d0' d1 d1' : S8000x64.Idx → Elt F .f32)
    (b0 : (win1_0.xblock (grid1.coords t)).Idx → Elt F .f32) (b1 : (win1_1.xblock (grid1.coords t)).Idx → Elt F .f32) :
    win1_2.cut (grid1.coords t) (k1_pay1 (win1_0.fill (grid1.coords t) d0 b0) (win1_1.fill (grid1.coords t) d1 b1))
      = win1_2.cut (grid1.coords t) (k1_pay1 (win1_0.fill (grid1.coords t) d0' b0) (win1_1.fill (grid1.coords t) d1' b1)) := by
  funext j
  obtain ⟨m0, m1⟩ := moved1 t j
  show k1_pay1 _ _ (win1_2.xinj (grid1.coords t) j) = k1_pay1 _ _ (win1_2.xinj (grid1.coords t) j)
  rw [acc1_pay_apply, acc1_pay_apply,
    fill_congr_moved1 win1_0 _ d0 d0' b0 _ m0, fill_congr_moved1 win1_1 _ d1 d1' b1 _ m1]

section Region
variable (V : (c : Dev nD) → (b : Ref sig .tc) → Buf (Elt F) ((c : Thread nD τ).loc b))

/-! ## The windows' blocks and the proof data -/

/-- The block of the running total at point `t`: its part inside the array. -/
def ablk1 (c : Dev nD) (t : Fin cfg1.N) : (win1_0.xblock (grid1.coords t)).Idx → Elt F .f32 :=
  (win1_0.blk t).view.read (Elt F) (V c main_v0)
/-- The block of the new layer at point `t`: its part inside the array. -/
def xblk1 (c : Dev nD) (t : Fin cfg1.N) : (win1_1.xblock (grid1.coords t)).Idx → Elt F .f32 :=
  (win1_1.blk t).view.read (Elt F) (V c main_v12)

/-- The two input buffers after a fetch, with the rows past the array's end (the last point's) at the zero word. -/
def abuf1 (c : Dev nD) (t : Fin cfg1.N) : S8000x64.Idx → Elt F .f32 :=
  win1_0.fill (grid1.coords t) (fun _ => Scalar.ofBits .f32 0#32) (ablk1 V c t)
def xbuf1 (c : Dev nD) (t : Fin cfg1.N) : S8000x64.Idx → Elt F .f32 :=
  win1_1.fill (grid1.coords t) (fun _ => Scalar.ofBits .f32 0#32) (xblk1 V c t)

/-- The proof data of the pipeline: the arrays as the region finds them; after the body the inputs' buffers at
    their blocks and the result's at the scaled sum; the class invariant; nothing owed. -/
def dat1 (c : Dev nD) : Dat τ (Elt F) Unit ℕ (Pipeline.UD sig nD τ) ℕ cfg1 c where
  A w := V c (Pipeline.arrRef spec1 w)
  after w t := match w with
    | ⟨0, _⟩ => abuf1 V c t
    | ⟨1, _⟩ => xbuf1 V c t
    | ⟨2, _⟩ => k1_pay1 (abuf1 V c t) (xbuf1 V c t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = abuf1 V c t := by dsimp only [dat1]
theorem after1_1 (c : Dev nD) (t : Fin cfg1.N) : (dat1 V c).after 1 t = xbuf1 V c t := by dsimp only [dat1]
theorem after1_2 (c : Dev nD) (t : Fin cfg1.N) : (dat1 V c).after 2 t = k1_pay1 (abuf1 V c t) (xbuf1 V c t) := by dsimp only [dat1]

/-- An input buffer when the body runs: just fetched, its block on the rows inside the array. -/
theorem before1_0 (c : Dev nD) (t : Fin cfg1.N) (d) :
    (dat1 V c).before 0 t d = win1_0.fill (grid1.coords t) d (ablk1 V c t) := by
  unfold Dat.before; rw [if_pos (fetch1_0 t)]; unfold Dat.fetched Dat.blockOf ablk1; rw [A_eq1]
theorem before1_1 (c : Dev nD) (t : Fin cfg1.N) (d) :
    (dat1 V c).before 1 t d = win1_1.fill (grid1.coords t) d (xblk1 V c t) := by
  unfold Dat.before; rw [if_pos (fetch1_1 t)]; unfold Dat.fetched Dat.blockOf xblk1; rw [A_eq1]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: each buffer as the body left it on the rows its transfers move. -/
def bodyPost1 (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t)))))

/-- The body at any point: the two input buffers hold their blocks on the rows inside the array and anything past
    them; the stored tile on the moved rows is the same whatever that is. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  rw [before1_0 V c t d0, before1_1 V c t d1]
  iapply (sound_acc1 c Set.univ (grid1.coords t) _ _ _ _ _ _
    (win1_0.fill (grid1.coords t) d0 (ablk1 V c t)) (win1_1.fill (grid1.coords t) d1 (xblk1 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    unfold abuf1; rw [win1_0.cut_fill]; iexact H0
  isplitl [H1]
  · iexists d1
    unfold xbuf1; rw [win1_1.cut_fill]; iexact H1
  · iexists _
    unfold abuf1 xbuf1
    rw [← acc1_cut_pay t d0 _ d1 _ (ablk1 V c t) (xblk1 V c t), win1_2.fill_cut]; iexact H2

/-- The library's body obligation, at every point. -/
theorem body_obligation1 (c : Dev nD) : BodyObligationLoose (dat1 (F := F) V c) (defs₀ (F := F)) Variants.none () Set.univ := fun t => by
  rw [bigSep_W1, bigSep_W1]
  exact sound_body1 V c t

/-! ## The result array after the run -/

/-- Entry `y` of a window's block at point `t` is the entry of its array `8000 t` rows further down. -/
theorem ablk1_apply (c : Dev nD) (t : Fin cfg1.N) (y : (win1_0.xblock (grid1.coords t)).Idx) (k : S150000x64.Idx)
    (hk0 : (k 0).val = t.val * 8000 + (y 0).val) (hk1 : (k 1).val = (y 1).val) :
    ablk1 V c t y = (V c main_v0 : S150000x64.Idx → Elt F .f32) k := by
  obtain ⟨i00, i01, -⟩ := index1 t
  unfold ablk1
  rw [View.read_apply]
  show (V c main_v0 : S150000x64.Idx → Elt F .f32) _ = (V c main_v0 : S150000x64.Idx → Elt F .f32) _
  congr 1
  funext a
  apply Fin.ext
  match a with
  | ⟨0, _⟩ => show win1_0.index t 0 * 8000 + 1 * (y 0).val = (k 0).val; rw [i00, hk0]; omega
  | ⟨1, _⟩ => show win1_0.index t 1 * 64 + 1 * (y 1).val = (k 1).val; rw [i01, hk1]; omega

theorem xblk1_apply (c : Dev nD) (t : Fin cfg1.N) (y : (win1_1.xblock (grid1.coords t)).Idx) (k : S150000x64.Idx)
    (hk0 : (k 0).val = t.val * 8000 + (y 0).val) (hk1 : (k 1).val = (y 1).val) :
    xblk1 V c t y = (V c main_v12 : S150000x64.Idx → Elt F .f32) k := by
  obtain ⟨-, -, i10, i11, -⟩ := index1 t
  unfold xblk1
  rw [View.read_apply]
  show (V c main_v12 : S150000x64.Idx → Elt F .f32) _ = (V c main_v12 : S150000x64.Idx → Elt F .f32) _
  congr 1
  funext a
  apply Fin.ext
  match a with
  | ⟨0, _⟩ => show win1_1.index t 0 * 8000 + 1 * (y 0).val = (k 0).val; rw [i10, hk0]; omega
  | ⟨1, _⟩ => show win1_1.index t 1 * 64 + 1 * (y 1).val = (k 1).val; rw [i11, hk1]; omega

theorem oblk1_apply (G : S150000x64.Idx → Elt F .f32) (t : Fin cfg1.N) (y : (win1_2.xblock (grid1.coords t)).Idx) (k : S150000x64.Idx)
    (hk0 : (k 0).val = t.val * 8000 + (y 0).val) (hk1 : (k 1).val = (y 1).val) :
    (win1_2.blk t).view.read (Elt F) G y = G k := by
  obtain ⟨-, -, -, -, i20, i21⟩ := index1 t
  rw [View.read_apply]
  show G _ = G _
  congr 1
  funext a
  apply Fin.ext
  match a with
  | ⟨0, _⟩ => show win1_2.index t 0 * 8000 + 1 * (y 0).val = (k 0).val; rw [i20, hk0]; omega
  | ⟨1, _⟩ => show win1_2.index t 1 * 64 + 1 * (y 1).val = (k 1).val; rw [i21, hk1]; omega

/-- The accumulation step of the arrays the region finds: what its result array is shown to hold. -/
abbrev accOut1 (c : Dev nD) : S150000x64.Idx → Elt F .f32 :=
  Cert.Spec.accArr (F := F) (Scalar.ofBits .f32 0x3F800000#32) (V c main_v0 : S150000x64.Idx → Elt F .f32) (V c main_v12 : S150000x64.Idx → Elt F .f32)

/-- What point `t` writes back is block `t` of the accumulation step. -/
theorem flushed1 (c : Dev nD) (t : Fin cfg1.N) :
    (dat1 V c).flushed 2 t = ((cfg1.win 2).blk t).view.read (Elt F) (accOut1 V c) := by
  show win1_2.cut (grid1.coords t) ((dat1 V c).after 2 t) = (win1_2.blk t).view.read (Elt F) (accOut1 V c)
  rw [after1_2]
  funext j
  obtain ⟨-, -, -, -, h21, hx⟩ := xsize1 t
  obtain ⟨m0, m1⟩ := moved1 t j
  have hj0 : (j 0).val < win1_2.xsize (grid1.coords t) 0 := (j 0).isLt
  have hj1 : (j 1).val < win1_2.xsize (grid1.coords t) 1 := (j 1).isLt
  have hl : (j 1).val < 64 := lt_of_lt_of_le hj1 (win1_2.xsize_le _ 1)
  have hK : t.val * 8000 + (j 0).val < 150000 := by
    have := Nat.min_le_right (t.val * 8000 + 8000) 150000; omega
  show k1_pay1 _ _ (win1_2.xinj (grid1.coords t) j) = _
  rw [acc1_pay_apply]
  unfold abuf1 xbuf1 Pipeline.Window.fill
  rw [dif_pos m0, dif_pos m1,
    ablk1_apply V c t _ (ix2 (⟨t.val * 8000 + (j 0).val, hK⟩ : Fin 150000) (⟨(j 1).val, hl⟩ : Fin 64)) ?_ ?_,
    xblk1_apply V c t _ (ix2 (⟨t.val * 8000 + (j 0).val, hK⟩ : Fin 150000) (⟨(j 1).val, hl⟩ : Fin 64)) ?_ ?_,
    oblk1_apply (accOut1 V c) t j (ix2 (⟨t.val * 8000 + (j 0).val, hK⟩ : Fin 150000) (⟨(j 1).val, hl⟩ : Fin 64)) ?_ ?_]
  all_goals rfl

/-- Every entry of the result array lies in the block of the point its row belongs to. -/
theorem cover1 (i : S150000x64.Idx) :
    ∃ t : Fin cfg1.N, (cfg1.win 2).flush t = true ∧ i ∈ ((cfg1.win 2).blk t).view.set := by
  have hi0 : (i 0).val < 150000 := (i 0).isLt
  have hi1 : (i 1).val < 64 := (i 1).isLt
  obtain ⟨q, r, hr, hqr⟩ : ∃ q r, r < 8000 ∧ (i 0).val = q * 8000 + r :=
    ⟨(i 0).val / 8000, (i 0).val % 8000, Nat.mod_lt _ (by decide), by rw [Nat.mul_comm]; exact (Nat.div_add_mod _ _).symm⟩
  have hN : cfg1.N = 19 := N_1
  have hT : q < cfg1.N := by rw [hN]; omega
  refine ⟨⟨q, hT⟩, flush1_2 _, ?_⟩
  obtain ⟨-, -, -, -, h21, hx⟩ := xsize1 ⟨q, hT⟩
  obtain ⟨-, -, -, -, i20, i21⟩ := index1 ⟨q, hT⟩
  have i20' : win1_2.index ⟨q, hT⟩ 0 = q := i20
  show i ∈ ((View.whole main_v13).slice (win1_2.rect ⟨q, hT⟩)).set
  rw [View.set_slice_whole, Rect.mem_set_unit]
  intro a
  match a with
  | ⟨0, _⟩ =>
    show win1_2.index ⟨q, hT⟩ 0 * 8000 ≤ (i 0).val
      ∧ (i 0).val < win1_2.index ⟨q, hT⟩ 0 * 8000 + win1_2.xsize (grid1.coords ⟨q, hT⟩) 0
    rw [i20']
    have hx' : q * 8000 + win1_2.xsize (grid1.coords ⟨q, hT⟩) 0 = min (q * 8000 + 8000) 150000 := hx
    have hle := Nat.le_min.mpr (⟨by omega, by omega⟩ : (i 0).val + 1 ≤ q * 8000 + 8000 ∧ (i 0).val + 1 ≤ 150000)
    rw [← hx'] at hle
    exact ⟨by rw [hqr]; exact Nat.le_add_right _ _, hle⟩
  | ⟨1, _⟩ =>
    show win1_2.index ⟨q, hT⟩ 1 * 64 ≤ (i 1).val
      ∧ (i 1).val < win1_2.index ⟨q, hT⟩ 1 * 64 + win1_2.xsize (grid1.coords ⟨q, hT⟩) 1
    rw [i21, h21]; omega

/-- So the result array ends holding the accumulation step. -/
theorem final1 (c : Dev nD) : (dat1 V c).arrAt 2 cfg1.N = accOut1 V c :=
  (dat1 V c).arrAt_eq_of_cover 2 (accOut1 V c) (fun t _ => flushed1 V c t) cover1

end Region

end Cert.Kernel.Hand

end
-- ==== Proof.BitsSide.Acc3.lean ====
import proofs.«142893_j63376537420313_1_alg».proof.Proof.Gen.Kernel.Launch
import proofs.«142893_j63376537420313_1_alg».proof.Proof.Gen.Kernel.Skeleton
import proofs.«142893_j63376537420313_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Tactic
import proofs.«142893_j63376537420313_1_alg».proof.Proof.Spec
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.ValueIdx

theorem hz2_3 : (![0, 0] : Fin 2 → Nat) = fun _ => 0 := funext fun a => by fin_cases a <;> rfl

/-! ## The accumulation kernel (region 3): one point's arithmetic -/

/-- What one point stores, entry by entry: the running total plus the new layer, times the kernel's scale. -/
theorem acc3_pay_apply (X0 X1 : Vec F S8000x64 .f32) (j : S8000x64.Idx) :
    k3_pay1 X0 X1 j = FloatOps.mulf (φ := .f32) (FloatOps.addf (φ := .f32) (X0 j) (X1 j)) (Scalar.ofBits .f32 0x3F800000#32) := by
  unfold k3_pay1
  show FloatOps.mulf (φ := .f32) (FloatOps.addf (φ := .f32) (shapeCast S8000x64 X0 _ j) (shapeCast S8000x64 X1 _ j)) _ = _
  rw [shapeCast_self, shapeCast_self]
  rfl

/-- The kernel body on whole staging buffers: it loads the tile of the running total and the tile of the new layer
    and stores their scaled sum into the result's buffer, whatever that held. -/
theorem sound_acc3 (c : Dev nD) (E : Set ℕ) (i : grid3.Coords)
    (arg1 : Memref sig .tc .vmem S8000x64 .f32) (harg1 : arg1.IsWhole)
    (arg2 : Memref sig .tc .vmem S8000x64 .f32) (harg2 : arg2.IsWhole)
    (arg3 : Memref sig .tc .vmem S8000x64 .f32) (harg3 : arg3.IsWhole)
    (x0 x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k3_pay1 x0 x1)) -∗ K ⟨⟩))
      ⊢ wp frame (wpE (defs₀ (F := F)) Variants.none c none) E (cc3__accum_kernel i arg1 harg1 arg2 harg2 arg3 harg3) K := by
  simp only [cc3__accum_kernel_eq_skeleton]; unfold cc3__accum_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz2_3 inb_S8000x64_S8000x64_0_0 y⟩),
    View.canon_unit_zero hz2_3, View.readAt_eq_ld, View.readAt_eq_ld, View.ld_unit_zero hz2_3, View.ld_unit_zero hz2_3]

/-! ## The schedule's arithmetic, decided over the grid -/

/-- At every point the three windows move the same rows, and every lane of their rows. -/
theorem xsize3 : ∀ t : Fin cfg3.N,
    win3_0.xsize (grid3.coords t) 0 = win3_2.xsize (grid3.coords t) 0 ∧ win3_0.xsize (grid3.coords t) 1 = win3_2.xsize (grid3.coords t) 1
    ∧ win3_1.xsize (grid3.coords t) 0 = win3_2.xsize (grid3.coords t) 0 ∧ win3_1.xsize (grid3.coords t) 1 = win3_2.xsize (grid3.coords t) 1
    ∧ win3_2.xsize (grid3.coords t) 1 = 64
    ∧ t.val * 8000 + win3_2.xsize (grid3.coords t) 0 = min (t.val * 8000 + 8000) 150000 :=
  (by decide +kernel : ∀ t : Fin grid3.N, _)

/-- Block `t` of each window starts at row `8000 t`, lane 0. -/
theorem index3 : ∀ t : Fin cfg3.N,
    win3_0.index t 0 = t.val ∧ win3_0.index t 1 = 0 ∧ win3_1.index t 0 = t.val ∧ win3_1.index t 1 = 0
    ∧ win3_2.index t 0 = t.val ∧ win3_2.index t 1 = 0 :=
  (by decide +kernel : ∀ t : Fin grid3.N, _)

/-- Contents that differ only off the part a fetch fills agree on it. -/
theorem fill_congr_moved3 {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- The entries the result's write-back moves are entries the two fetches fill. -/
theorem moved3 (t : Fin cfg3.N) (j : (win3_2.xblock (grid3.coords t)).Idx) :
    win3_0.moved (grid3.coords t) (win3_2.xinj (grid3.coords t) j) = true
    ∧ win3_1.moved (grid3.coords t) (win3_2.xinj (grid3.coords t) j) = true := by
  obtain ⟨h00, h01, h10, h11, -, -⟩ := xsize3 t
  have hj0 : (j 0).val < win3_2.xsize (grid3.coords t) 0 := (j 0).isLt
  have hj1 : (j 1).val < win3_2.xsize (grid3.coords t) 1 := (j 1).isLt
  refine ⟨(win3_0.moved_iff _ _).mpr fun a => ?_, (win3_1.moved_iff _ _).mpr fun a => ?_⟩
  · match a with
    | ⟨0, _⟩ => show (j 0).val < win3_0.xsize (grid3.coords t) 0; rw [h00]; exact hj0
    | ⟨1, _⟩ => show (j 1).val < win3_0.xsize (grid3.coords t) 1; rw [h01]; exact hj1
  · match a with
    | ⟨0, _⟩ => show (j 0).val < win3_1.xsize (grid3.coords t) 0; rw [h10]; exact hj0
    | ⟨1, _⟩ => show (j 1).val < win3_1.xsize (grid3.coords t) 1; rw [h11]; exact hj1

/-- On the rows the write-back moves, the stored tile does not depend on what the input buffers hold past the
    array's end. -/
theorem acc3_cut_pay (t : Fin cfg3.N) (d0 d0' d1 d1' : S8000x64.Idx → Elt F .f32)
    (b0 : (win3_0.xblock (grid3.coords t)).Idx → Elt F .f32) (b1 : (win3_1.xblock (grid3.coords t)).Idx → Elt F .f32) :
    win3_2.cut (grid3.coords t) (k3_pay1 (win3_0.fill (grid3.coords t) d0 b0) (win3_1.fill (grid3.coords t) d1 b1))
      = win3_2.cut (grid3.coords t) (k3_pay1 (win3_0.fill (grid3.coords t) d0' b0) (win3_1.fill (grid3.coords t) d1' b1)) := by
  funext j
  obtain ⟨m0, m1⟩ := moved3 t j
  show k3_pay1 _ _ (win3_2.xinj (grid3.coords t) j) = k3_pay1 _ _ (win3_2.xinj (grid3.coords t) j)
  rw [acc3_pay_apply, acc3_pay_apply,
    fill_congr_moved3 win3_0 _ d0 d0' b0 _ m0, fill_congr_moved3 win3_1 _ d1 d1' b1 _ m1]

section Region
variable (V : (c : Dev nD) → (b : Ref sig .tc) → Buf (Elt F) ((c : Thread nD τ).loc b))

/-! ## The windows' blocks and the proof data -/

/-- The block of the running total at point `t`: its part inside the array. -/
def ablk3 (c : Dev nD) (t : Fin cfg3.N) : (win3_0.xblock (grid3.coords t)).Idx → Elt F .f32 :=
  (win3_0.blk t).view.read (Elt F) (V c main_v13)
/-- The block of the new layer at point `t`: its part inside the array. -/
def xblk3 (c : Dev nD) (t : Fin cfg3.N) : (win3_1.xblock (grid3.coords t)).Idx → Elt F .f32 :=
  (win3_1.blk t).view.read (Elt F) (V c main_v24)

/-- The two input buffers after a fetch, with the rows past the array's end (the last point's) at the zero word. -/
def abuf3 (c : Dev nD) (t : Fin cfg3.N) : S8000x64.Idx → Elt F .f32 :=
  win3_0.fill (grid3.coords t) (fun _ => Scalar.ofBits .f32 0#32) (ablk3 V c t)
def xbuf3 (c : Dev nD) (t : Fin cfg3.N) : S8000x64.Idx → Elt F .f32 :=
  win3_1.fill (grid3.coords t) (fun _ => Scalar.ofBits .f32 0#32) (xblk3 V c t)

/-- The proof data of the pipeline: the arrays as the region finds them; after the body the inputs' buffers at
    their blocks and the result's at the scaled sum; the class invariant; nothing owed. -/
def dat3 (c : Dev nD) : Dat τ (Elt F) Unit ℕ (Pipeline.UD sig nD τ) ℕ cfg3 c where
  A w := V c (Pipeline.arrRef spec3 w)
  after w t := match w with
    | ⟨0, _⟩ => abuf3 V c t
    | ⟨1, _⟩ => xbuf3 V c t
    | ⟨2, _⟩ => k3_pay1 (abuf3 V c t) (xbuf3 V c t)
  Φ _ := Pipeline.ΦA spec3 c
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = abuf3 V c t := by dsimp only [dat3]
theorem after3_1 (c : Dev nD) (t : Fin cfg3.N) : (dat3 V c).after 1 t = xbuf3 V c t := by dsimp only [dat3]
theorem after3_2 (c : Dev nD) (t : Fin cfg3.N) : (dat3 V c).after 2 t = k3_pay1 (abuf3 V c t) (xbuf3 V c t) := by dsimp only [dat3]

/-- An input buffer when the body runs: just fetched, its block on the rows inside the array. -/
theorem before3_0 (c : Dev nD) (t : Fin cfg3.N) (d) :
    (dat3 V c).before 0 t d = win3_0.fill (grid3.coords t) d (ablk3 V c t) := by
  unfold Dat.before; rw [if_pos (fetch3_0 t)]; unfold Dat.fetched Dat.blockOf ablk3; rw [A_eq3]
theorem before3_1 (c : Dev nD) (t : Fin cfg3.N) (d) :
    (dat3 V c).before 1 t d = win3_1.fill (grid3.coords t) d (xblk3 V c t) := by
  unfold Dat.before; rw [if_pos (fetch3_1 t)]; unfold Dat.fetched Dat.blockOf xblk3; rw [A_eq3]

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns: each buffer as the body left it on the rows its transfers move. -/
def bodyPost3 (c : Dev nD) (t : Fin cfg3.N) : sProp 𝕄 :=
  iprop((dat3 V c).Φ t.succ ∗ (dat3 V c).owesAt () t.succ
    ∗ (∃ d, owns (c : Thread nD τ) (st3_0 t) fullShare (win3_0.fill (grid3.coords t) d (win3_0.cut (grid3.coords t) ((dat3 V c).after 0 t))))
    ∗ (∃ d, owns (c : Thread nD τ) (st3_1 t) fullShare (win3_1.fill (grid3.coords t) d (win3_1.cut (grid3.coords t) ((dat3 V c).after 1 t))))
    ∗ (∃ d, owns (c : Thread nD τ) (st3_2 t) fullShare (win3_2.fill (grid3.coords t) d (win3_2.cut (grid3.coords t) ((dat3 V c).after 2 t)))))

/-- The body at any point: the two input buffers hold their blocks on the rows inside the array and anything past
    them; the stored tile on the moved rows is the same whatever that is. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  rw [before3_0 V c t d0, before3_1 V c t d1]
  iapply (sound_acc3 c Set.univ (grid3.coords t) _ _ _ _ _ _
    (win3_0.fill (grid3.coords t) d0 (ablk3 V c t)) (win3_1.fill (grid3.coords t) d1 (xblk3 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    unfold abuf3; rw [win3_0.cut_fill]; iexact H0
  isplitl [H1]
  · iexists d1
    unfold xbuf3; rw [win3_1.cut_fill]; iexact H1
  · iexists _
    unfold abuf3 xbuf3
    rw [← acc3_cut_pay t d0 _ d1 _ (ablk3 V c t) (xblk3 V c t), win3_2.fill_cut]; iexact H2

/-- The library's body obligation, at every point. -/
theorem body_obligation3 (c : Dev nD) : BodyObligationLoose (dat3 (F := F) V c) (defs₀ (F := F)) Variants.none () Set.univ := fun t => by
  rw [bigSep_W3, bigSep_W3]
  exact sound_body3 V c t

/-! ## The result array after the run -/

/-- Entry `y` of a window's block at point `t` is the entry of its array `8000 t` rows further down. -/
theorem ablk3_apply (c : Dev nD) (t : Fin cfg3.N) (y : (win3_0.xblock (grid3.coords t)).Idx) (k : S150000x64.Idx)
    (hk0 : (k 0).val = t.val * 8000 + (y 0).val) (hk1 : (k 1).val = (y 1).val) :
    ablk3 V c t y = (V c main_v13 : S150000x64.Idx → Elt F .f32) k := by
  obtain ⟨i00, i01, -⟩ := index3 t
  unfold ablk3
  rw [View.read_apply]
  show (V c main_v13 : S150000x64.Idx → Elt F .f32) _ = (V c main_v13 : S150000x64.Idx → Elt F .f32) _
  congr 1
  funext a
  apply Fin.ext
  match a with
  | ⟨0, _⟩ => show win3_0.index t 0 * 8000 + 1 * (y 0).val = (k 0).val; rw [i00, hk0]; omega
  | ⟨1, _⟩ => show win3_0.index t 1 * 64 + 1 * (y 1).val = (k 1).val; rw [i01, hk1]; omega

theorem xblk3_apply (c : Dev nD) (t : Fin cfg3.N) (y : (win3_1.xblock (grid3.coords t)).Idx) (k : S150000x64.Idx)
    (hk0 : (k 0).val = t.val * 8000 + (y 0).val) (hk1 : (k 1).val = (y 1).val) :
    xblk3 V c t y = (V c main_v24 : S150000x64.Idx → Elt F .f32) k := by
  obtain ⟨-, -, i10, i11, -⟩ := index3 t
  unfold xblk3
  rw [View.read_apply]
  show (V c main_v24 : S150000x64.Idx → Elt F .f32) _ = (V c main_v24 : S150000x64.Idx → Elt F .f32) _
  congr 1
  funext a
  apply Fin.ext
  match a with
  | ⟨0, _⟩ => show win3_1.index t 0 * 8000 + 1 * (y 0).val = (k 0).val; rw [i10, hk0]; omega
  | ⟨1, _⟩ => show win3_1.index t 1 * 64 + 1 * (y 1).val = (k 1).val; rw [i11, hk1]; omega

theorem oblk3_apply (G : S150000x64.Idx → Elt F .f32) (t : Fin cfg3.N) (y : (win3_2.xblock (grid3.coords t)).Idx) (k : S150000x64.Idx)
    (hk0 : (k 0).val = t.val * 8000 + (y 0).val) (hk1 : (k 1).val = (y 1).val) :
    (win3_2.blk t).view.read (Elt F) G y = G k := by
  obtain ⟨-, -, -, -, i20, i21⟩ := index3 t
  rw [View.read_apply]
  show G _ = G _
  congr 1
  funext a
  apply Fin.ext
  match a with
  | ⟨0, _⟩ => show win3_2.index t 0 * 8000 + 1 * (y 0).val = (k 0).val; rw [i20, hk0]; omega
  | ⟨1, _⟩ => show win3_2.index t 1 * 64 + 1 * (y 1).val = (k 1).val; rw [i21, hk1]; omega

/-- The accumulation step of the arrays the region finds: what its result array is shown to hold. -/
abbrev accOut3 (c : Dev nD) : S150000x64.Idx → Elt F .f32 :=
  Cert.Spec.accArr (F := F) (Scalar.ofBits .f32 0x3F800000#32) (V c main_v13 : S150000x64.Idx → Elt F .f32) (V c main_v24 : S150000x64.Idx → Elt F .f32)

/-- What point `t` writes back is block `t` of the accumulation step. -/
theorem flushed3 (c : Dev nD) (t : Fin cfg3.N) :
    (dat3 V c).flushed 2 t = ((cfg3.win 2).blk t).view.read (Elt F) (accOut3 V c) := by
  show win3_2.cut (grid3.coords t) ((dat3 V c).after 2 t) = (win3_2.blk t).view.read (Elt F) (accOut3 V c)
  rw [after3_2]
  funext j
  obtain ⟨-, -, -, -, h21, hx⟩ := xsize3 t
  obtain ⟨m0, m1⟩ := moved3 t j
  have hj0 : (j 0).val < win3_2.xsize (grid3.coords t) 0 := (j 0).isLt
  have hj1 : (j 1).val < win3_2.xsize (grid3.coords t) 1 := (j 1).isLt
  have hl : (j 1).val < 64 := lt_of_lt_of_le hj1 (win3_2.xsize_le _ 1)
  have hK : t.val * 8000 + (j 0).val < 150000 := by
    have := Nat.min_le_right (t.val * 8000 + 8000) 150000; omega
  show k3_pay1 _ _ (win3_2.xinj (grid3.coords t) j) = _
  rw [acc3_pay_apply]
  unfold abuf3 xbuf3 Pipeline.Window.fill
  rw [dif_pos m0, dif_pos m1,
    ablk3_apply V c t _ (ix2 (⟨t.val * 8000 + (j 0).val, hK⟩ : Fin 150000) (⟨(j 1).val, hl⟩ : Fin 64)) ?_ ?_,
    xblk3_apply V c t _ (ix2 (⟨t.val * 8000 + (j 0).val, hK⟩ : Fin 150000) (⟨(j 1).val, hl⟩ : Fin 64)) ?_ ?_,
    oblk3_apply (accOut3 V c) t j (ix2 (⟨t.val * 8000 + (j 0).val, hK⟩ : Fin 150000) (⟨(j 1).val, hl⟩ : Fin 64)) ?_ ?_]
  all_goals rfl

/-- Every entry of the result array lies in the block of the point its row belongs to. -/
theorem cover3 (i : S150000x64.Idx) :
    ∃ t : Fin cfg3.N, (cfg3.win 2).flush t = true ∧ i ∈ ((cfg3.win 2).blk t).view.set := by
  have hi0 : (i 0).val < 150000 := (i 0).isLt
  have hi1 : (i 1).val < 64 := (i 1).isLt
  obtain ⟨q, r, hr, hqr⟩ : ∃ q r, r < 8000 ∧ (i 0).val = q * 8000 + r :=
    ⟨(i 0).val / 8000, (i 0).val % 8000, Nat.mod_lt _ (by decide), by rw [Nat.mul_comm]; exact (Nat.div_add_mod _ _).symm⟩
  have hN : cfg3.N = 19 := N_3
  have hT : q < cfg3.N := by rw [hN]; omega
  refine ⟨⟨q, hT⟩, flush3_2 _, ?_⟩
  obtain ⟨-, -, -, -, h21, hx⟩ := xsize3 ⟨q, hT⟩
  obtain ⟨-, -, -, -, i20, i21⟩ := index3 ⟨q, hT⟩
  have i20' : win3_2.index ⟨q, hT⟩ 0 = q := i20
  show i ∈ ((View.whole main_v25).slice (win3_2.rect ⟨q, hT⟩)).set
  rw [View.set_slice_whole, Rect.mem_set_unit]
  intro a
  match a with
  | ⟨0, _⟩ =>
    show win3_2.index ⟨q, hT⟩ 0 * 8000 ≤ (i 0).val
      ∧ (i 0).val < win3_2.index ⟨q, hT⟩ 0 * 8000 + win3_2.xsize (grid3.coords ⟨q, hT⟩) 0
    rw [i20']
    have hx' : q * 8000 + win3_2.xsize (grid3.coords ⟨q, hT⟩) 0 = min (q * 8000 + 8000) 150000 := hx
    have hle := Nat.le_min.mpr (⟨by omega, by omega⟩ : (i 0).val + 1 ≤ q * 8000 + 8000 ∧ (i 0).val + 1 ≤ 150000)
    rw [← hx'] at hle
    exact ⟨by rw [hqr]; exact Nat.le_add_right _ _, hle⟩
  | ⟨1, _⟩ =>
    show win3_2.index ⟨q, hT⟩ 1 * 64 ≤ (i 1).val
      ∧ (i 1).val < win3_2.index ⟨q, hT⟩ 1 * 64 + win3_2.xsize (grid3.coords ⟨q, hT⟩) 1
    rw [i21, h21]; omega

/-- So the result array ends holding the accumulation step. -/
theorem final3 (c : Dev nD) : (dat3 V c).arrAt 2 cfg3.N = accOut3 V c :=
  (dat3 V c).arrAt_eq_of_cover 2 (accOut3 V c) (fun t _ => flushed3 V c t) cover3

end Region

end Cert.Kernel.Hand

end
-- ==== Proof.BitsSide.Acc5.lean ====
import proofs.«142893_j63376537420313_1_alg».proof.Proof.Gen.Kernel.Launch
import proofs.«142893_j63376537420313_1_alg».proof.Proof.Gen.Kernel.Skeleton
import proofs.«142893_j63376537420313_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Tactic
import proofs.«142893_j63376537420313_1_alg».proof.Proof.Spec
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.ValueIdx

theorem hz2_5 : (![0, 0] : Fin 2 → Nat) = fun _ => 0 := funext fun a => by fin_cases a <;> rfl

/-! ## The accumulation kernel (region 5): one point's arithmetic -/

/-- What one point stores, entry by entry: the running total plus the new layer, times the kernel's scale. -/
theorem acc5_pay_apply (X0 X1 : Vec F S8000x64 .f32) (j : S8000x64.Idx) :
    k5_pay1 X0 X1 j = FloatOps.mulf (φ := .f32) (FloatOps.addf (φ := .f32) (X0 j) (X1 j)) (Scalar.ofBits .f32 0x3E800000#32) := by
  unfold k5_pay1
  show FloatOps.mulf (φ := .f32) (FloatOps.addf (φ := .f32) (shapeCast S8000x64 X0 _ j) (shapeCast S8000x64 X1 _ j)) _ = _
  rw [shapeCast_self, shapeCast_self]
  rfl

/-- The kernel body on whole staging buffers: it loads the tile of the running total and the tile of the new layer
    and stores their scaled sum into the result's buffer, whatever that held. -/
theorem sound_acc5 (c : Dev nD) (E : Set ℕ) (i : grid5.Coords)
    (arg1 : Memref sig .tc .vmem S8000x64 .f32) (harg1 : arg1.IsWhole)
    (arg2 : Memref sig .tc .vmem S8000x64 .f32) (harg2 : arg2.IsWhole)
    (arg3 : Memref sig .tc .vmem S8000x64 .f32) (harg3 : arg3.IsWhole)
    (x0 x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k5_pay1 x0 x1)) -∗ K ⟨⟩))
      ⊢ wp frame (wpE (defs₀ (F := F)) Variants.none c none) E (cc5__accum_kernel i arg1 harg1 arg2 harg2 arg3 harg3) K := by
  simp only [cc5__accum_kernel_eq_skeleton]; unfold cc5__accum_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz2_5 inb_S8000x64_S8000x64_0_0 y⟩),
    View.canon_unit_zero hz2_5, View.readAt_eq_ld, View.readAt_eq_ld, View.ld_unit_zero hz2_5, View.ld_unit_zero hz2_5]

/-! ## The schedule's arithmetic, decided over the grid -/

/-- At every point the three windows move the same rows, and every lane of their rows. -/
theorem xsize5 : ∀ t : Fin cfg5.N,
    win5_0.xsize (grid5.coords t) 0 = win5_2.xsize (grid5.coords t) 0 ∧ win5_0.xsize (grid5.coords t) 1 = win5_2.xsize (grid5.coords t) 1
    ∧ win5_1.xsize (grid5.coords t) 0 = win5_2.xsize (grid5.coords t) 0 ∧ win5_1.xsize (grid5.coords t) 1 = win5_2.xsize (grid5.coords t) 1
    ∧ win5_2.xsize (grid5.coords t) 1 = 64
    ∧ t.val * 8000 + win5_2.xsize (grid5.coords t) 0 = min (t.val * 8000 + 8000) 150000 :=
  (by decide +kernel : ∀ t : Fin grid5.N, _)

/-- Block `t` of each window starts at row `8000 t`, lane 0. -/
theorem index5 : ∀ t : Fin cfg5.N,
    win5_0.index t 0 = t.val ∧ win5_0.index t 1 = 0 ∧ win5_1.index t 0 = t.val ∧ win5_1.index t 1 = 0
    ∧ win5_2.index t 0 = t.val ∧ win5_2.index t 1 = 0 :=
  (by decide +kernel : ∀ t : Fin grid5.N, _)

/-- Contents that differ only off the part a fetch fills agree on it. -/
theorem fill_congr_moved5 {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- The entries the result's write-back moves are entries the two fetches fill. -/
theorem moved5 (t : Fin cfg5.N) (j : (win5_2.xblock (grid5.coords t)).Idx) :
    win5_0.moved (grid5.coords t) (win5_2.xinj (grid5.coords t) j) = true
    ∧ win5_1.moved (grid5.coords t) (win5_2.xinj (grid5.coords t) j) = true := by
  obtain ⟨h00, h01, h10, h11, -, -⟩ := xsize5 t
  have hj0 : (j 0).val < win5_2.xsize (grid5.coords t) 0 := (j 0).isLt
  have hj1 : (j 1).val < win5_2.xsize (grid5.coords t) 1 := (j 1).isLt
  refine ⟨(win5_0.moved_iff _ _).mpr fun a => ?_, (win5_1.moved_iff _ _).mpr fun a => ?_⟩
  · match a with
    | ⟨0, _⟩ => show (j 0).val < win5_0.xsize (grid5.coords t) 0; rw [h00]; exact hj0
    | ⟨1, _⟩ => show (j 1).val < win5_0.xsize (grid5.coords t) 1; rw [h01]; exact hj1
  · match a with
    | ⟨0, _⟩ => show (j 0).val < win5_1.xsize (grid5.coords t) 0; rw [h10]; exact hj0
    | ⟨1, _⟩ => show (j 1).val < win5_1.xsize (grid5.coords t) 1; rw [h11]; exact hj1

/-- On the rows the write-back moves, the stored tile does not depend on what the input buffers hold past the
    array's end. -/
theorem acc5_cut_pay (t : Fin cfg5.N) (d0 d0' d1 d1' : S8000x64.Idx → Elt F .f32)
    (b0 : (win5_0.xblock (grid5.coords t)).Idx → Elt F .f32) (b1 : (win5_1.xblock (grid5.coords t)).Idx → Elt F .f32) :
    win5_2.cut (grid5.coords t) (k5_pay1 (win5_0.fill (grid5.coords t) d0 b0) (win5_1.fill (grid5.coords t) d1 b1))
      = win5_2.cut (grid5.coords t) (k5_pay1 (win5_0.fill (grid5.coords t) d0' b0) (win5_1.fill (grid5.coords t) d1' b1)) := by
  funext j
  obtain ⟨m0, m1⟩ := moved5 t j
  show k5_pay1 _ _ (win5_2.xinj (grid5.coords t) j) = k5_pay1 _ _ (win5_2.xinj (grid5.coords t) j)
  rw [acc5_pay_apply, acc5_pay_apply,
    fill_congr_moved5 win5_0 _ d0 d0' b0 _ m0, fill_congr_moved5 win5_1 _ d1 d1' b1 _ m1]

section Region
variable (V : (c : Dev nD) → (b : Ref sig .tc) → Buf (Elt F) ((c : Thread nD τ).loc b))

/-! ## The windows' blocks and the proof data -/

/-- The block of the running total at point `t`: its part inside the array. -/
def ablk5 (c : Dev nD) (t : Fin cfg5.N) : (win5_0.xblock (grid5.coords t)).Idx → Elt F .f32 :=
  (win5_0.blk t).view.read (Elt F) (V c main_v25)
/-- The block of the new layer at point `t`: its part inside the array. -/
def xblk5 (c : Dev nD) (t : Fin cfg5.N) : (win5_1.xblock (grid5.coords t)).Idx → Elt F .f32 :=
  (win5_1.blk t).view.read (Elt F) (V c main_v36)

/-- The two input buffers after a fetch, with the rows past the array's end (the last point's) at the zero word. -/
def abuf5 (c : Dev nD) (t : Fin cfg5.N) : S8000x64.Idx → Elt F .f32 :=
  win5_0.fill (grid5.coords t) (fun _ => Scalar.ofBits .f32 0#32) (ablk5 V c t)
def xbuf5 (c : Dev nD) (t : Fin cfg5.N) : S8000x64.Idx → Elt F .f32 :=
  win5_1.fill (grid5.coords t) (fun _ => Scalar.ofBits .f32 0#32) (xblk5 V c t)

/-- The proof data of the pipeline: the arrays as the region finds them; after the body the inputs' buffers at
    their blocks and the result's at the scaled sum; the class invariant; nothing owed. -/
def dat5 (c : Dev nD) : Dat τ (Elt F) Unit ℕ (Pipeline.UD sig nD τ) ℕ cfg5 c where
  A w := V c (Pipeline.arrRef spec5 w)
  after w t := match w with
    | ⟨0, _⟩ => abuf5 V c t
    | ⟨1, _⟩ => xbuf5 V c t
    | ⟨2, _⟩ => k5_pay1 (abuf5 V c t) (xbuf5 V c t)
  Φ _ := Pipeline.ΦA spec5 c
  q _ := fullShare
  owed _ := 0

theorem A_eq5 (c : Dev nD) (w : Fin cfg5.W) : (dat5 V c).A w = V c (Pipeline.arrRef spec5 w) := by dsimp only [dat5]
theorem after5_0 (c : Dev nD) (t : Fin cfg5.N) : (dat5 V c).after 0 t = abuf5 V c t := by dsimp only [dat5]
theorem after5_1 (c : Dev nD) (t : Fin cfg5.N) : (dat5 V c).after 1 t = xbuf5 V c t := by dsimp only [dat5]
theorem after5_2 (c : Dev nD) (t : Fin cfg5.N) : (dat5 V c).after 2 t = k5_pay1 (abuf5 V c t) (xbuf5 V c t) := by dsimp only [dat5]

/-- An input buffer when the body runs: just fetched, its block on the rows inside the array. -/
theorem before5_0 (c : Dev nD) (t : Fin cfg5.N) (d) :
    (dat5 V c).before 0 t d = win5_0.fill (grid5.coords t) d (ablk5 V c t) := by
  unfold Dat.before; rw [if_pos (fetch5_0 t)]; unfold Dat.fetched Dat.blockOf ablk5; rw [A_eq5]
theorem before5_1 (c : Dev nD) (t : Fin cfg5.N) (d) :
    (dat5 V c).before 1 t d = win5_1.fill (grid5.coords t) d (xblk5 V c t) := by
  unfold Dat.before; rw [if_pos (fetch5_1 t)]; unfold Dat.fetched Dat.blockOf xblk5; rw [A_eq5]

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns: each buffer as the body left it on the rows its transfers move. -/
def bodyPost5 (c : Dev nD) (t : Fin cfg5.N) : sProp 𝕄 :=
  iprop((dat5 V c).Φ t.succ ∗ (dat5 V c).owesAt () t.succ
    ∗ (∃ d, owns (c : Thread nD τ) (st5_0 t) fullShare (win5_0.fill (grid5.coords t) d (win5_0.cut (grid5.coords t) ((dat5 V c).after 0 t))))
    ∗ (∃ d, owns (c : Thread nD τ) (st5_1 t) fullShare (win5_1.fill (grid5.coords t) d (win5_1.cut (grid5.coords t) ((dat5 V c).after 1 t))))
    ∗ (∃ d, owns (c : Thread nD τ) (st5_2 t) fullShare (win5_2.fill (grid5.coords t) d (win5_2.cut (grid5.coords t) ((dat5 V c).after 2 t)))))

/-- The body at any point: the two input buffers hold their blocks on the rows inside the array and anything past
    them; the stored tile on the moved rows is the same whatever that is. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  rw [before5_0 V c t d0, before5_1 V c t d1]
  iapply (sound_acc5 c Set.univ (grid5.coords t) _ _ _ _ _ _
    (win5_0.fill (grid5.coords t) d0 (ablk5 V c t)) (win5_1.fill (grid5.coords t) d1 (xblk5 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    unfold abuf5; rw [win5_0.cut_fill]; iexact H0
  isplitl [H1]
  · iexists d1
    unfold xbuf5; rw [win5_1.cut_fill]; iexact H1
  · iexists _
    unfold abuf5 xbuf5
    rw [← acc5_cut_pay t d0 _ d1 _ (ablk5 V c t) (xblk5 V c t), win5_2.fill_cut]; iexact H2

/-- The library's body obligation, at every point. -/
theorem body_obligation5 (c : Dev nD) : BodyObligationLoose (dat5 (F := F) V c) (defs₀ (F := F)) Variants.none () Set.univ := fun t => by
  rw [bigSep_W5, bigSep_W5]
  exact sound_body5 V c t

/-! ## The result array after the run -/

/-- Entry `y` of a window's block at point `t` is the entry of its array `8000 t` rows further down. -/
theorem ablk5_apply (c : Dev nD) (t : Fin cfg5.N) (y : (win5_0.xblock (grid5.coords t)).Idx) (k : S150000x64.Idx)
    (hk0 : (k 0).val = t.val * 8000 + (y 0).val) (hk1 : (k 1).val = (y 1).val) :
    ablk5 V c t y = (V c main_v25 : S150000x64.Idx → Elt F .f32) k := by
  obtain ⟨i00, i01, -⟩ := index5 t
  unfold ablk5
  rw [View.read_apply]
  show (V c main_v25 : S150000x64.Idx → Elt F .f32) _ = (V c main_v25 : S150000x64.Idx → Elt F .f32) _
  congr 1
  funext a
  apply Fin.ext
  match a with
  | ⟨0, _⟩ => show win5_0.index t 0 * 8000 + 1 * (y 0).val = (k 0).val; rw [i00, hk0]; omega
  | ⟨1, _⟩ => show win5_0.index t 1 * 64 + 1 * (y 1).val = (k 1).val; rw [i01, hk1]; omega

theorem xblk5_apply (c : Dev nD) (t : Fin cfg5.N) (y : (win5_1.xblock (grid5.coords t)).Idx) (k : S150000x64.Idx)
    (hk0 : (k 0).val = t.val * 8000 + (y 0).val) (hk1 : (k 1).val = (y 1).val) :
    xblk5 V c t y = (V c main_v36 : S150000x64.Idx → Elt F .f32) k := by
  obtain ⟨-, -, i10, i11, -⟩ := index5 t
  unfold xblk5
  rw [View.read_apply]
  show (V c main_v36 : S150000x64.Idx → Elt F .f32) _ = (V c main_v36 : S150000x64.Idx → Elt F .f32) _
  congr 1
  funext a
  apply Fin.ext
  match a with
  | ⟨0, _⟩ => show win5_1.index t 0 * 8000 + 1 * (y 0).val = (k 0).val; rw [i10, hk0]; omega
  | ⟨1, _⟩ => show win5_1.index t 1 * 64 + 1 * (y 1).val = (k 1).val; rw [i11, hk1]; omega

theorem oblk5_apply (G : S150000x64.Idx → Elt F .f32) (t : Fin cfg5.N) (y : (win5_2.xblock (grid5.coords t)).Idx) (k : S150000x64.Idx)
    (hk0 : (k 0).val = t.val * 8000 + (y 0).val) (hk1 : (k 1).val = (y 1).val) :
    (win5_2.blk t).view.read (Elt F) G y = G k := by
  obtain ⟨-, -, -, -, i20, i21⟩ := index5 t
  rw [View.read_apply]
  show G _ = G _
  congr 1
  funext a
  apply Fin.ext
  match a with
  | ⟨0, _⟩ => show win5_2.index t 0 * 8000 + 1 * (y 0).val = (k 0).val; rw [i20, hk0]; omega
  | ⟨1, _⟩ => show win5_2.index t 1 * 64 + 1 * (y 1).val = (k 1).val; rw [i21, hk1]; omega

/-- The accumulation step of the arrays the region finds: what its result array is shown to hold. -/
abbrev accOut5 (c : Dev nD) : S150000x64.Idx → Elt F .f32 :=
  Cert.Spec.accArr (F := F) (Scalar.ofBits .f32 0x3E800000#32) (V c main_v25 : S150000x64.Idx → Elt F .f32) (V c main_v36 : S150000x64.Idx → Elt F .f32)

/-- What point `t` writes back is block `t` of the accumulation step. -/
theorem flushed5 (c : Dev nD) (t : Fin cfg5.N) :
    (dat5 V c).flushed 2 t = ((cfg5.win 2).blk t).view.read (Elt F) (accOut5 V c) := by
  show win5_2.cut (grid5.coords t) ((dat5 V c).after 2 t) = (win5_2.blk t).view.read (Elt F) (accOut5 V c)
  rw [after5_2]
  funext j
  obtain ⟨-, -, -, -, h21, hx⟩ := xsize5 t
  obtain ⟨m0, m1⟩ := moved5 t j
  have hj0 : (j 0).val < win5_2.xsize (grid5.coords t) 0 := (j 0).isLt
  have hj1 : (j 1).val < win5_2.xsize (grid5.coords t) 1 := (j 1).isLt
  have hl : (j 1).val < 64 := lt_of_lt_of_le hj1 (win5_2.xsize_le _ 1)
  have hK : t.val * 8000 + (j 0).val < 150000 := by
    have := Nat.min_le_right (t.val * 8000 + 8000) 150000; omega
  show k5_pay1 _ _ (win5_2.xinj (grid5.coords t) j) = _
  rw [acc5_pay_apply]
  unfold abuf5 xbuf5 Pipeline.Window.fill
  rw [dif_pos m0, dif_pos m1,
    ablk5_apply V c t _ (ix2 (⟨t.val * 8000 + (j 0).val, hK⟩ : Fin 150000) (⟨(j 1).val, hl⟩ : Fin 64)) ?_ ?_,
    xblk5_apply V c t _ (ix2 (⟨t.val * 8000 + (j 0).val, hK⟩ : Fin 150000) (⟨(j 1).val, hl⟩ : Fin 64)) ?_ ?_,
    oblk5_apply (accOut5 V c) t j (ix2 (⟨t.val * 8000 + (j 0).val, hK⟩ : Fin 150000) (⟨(j 1).val, hl⟩ : Fin 64)) ?_ ?_]
  all_goals rfl

/-- Every entry of the result array lies in the block of the point its row belongs to. -/
theorem cover5 (i : S150000x64.Idx) :
    ∃ t : Fin cfg5.N, (cfg5.win 2).flush t = true ∧ i ∈ ((cfg5.win 2).blk t).view.set := by
  have hi0 : (i 0).val < 150000 := (i 0).isLt
  have hi1 : (i 1).val < 64 := (i 1).isLt
  obtain ⟨q, r, hr, hqr⟩ : ∃ q r, r < 8000 ∧ (i 0).val = q * 8000 + r :=
    ⟨(i 0).val / 8000, (i 0).val % 8000, Nat.mod_lt _ (by decide), by rw [Nat.mul_comm]; exact (Nat.div_add_mod _ _).symm⟩
  have hN : cfg5.N = 19 := N_5
  have hT : q < cfg5.N := by rw [hN]; omega
  refine ⟨⟨q, hT⟩, flush5_2 _, ?_⟩
  obtain ⟨-, -, -, -, h21, hx⟩ := xsize5 ⟨q, hT⟩
  obtain ⟨-, -, -, -, i20, i21⟩ := index5 ⟨q, hT⟩
  have i20' : win5_2.index ⟨q, hT⟩ 0 = q := i20
  show i ∈ ((View.whole main_v37).slice (win5_2.rect ⟨q, hT⟩)).set
  rw [View.set_slice_whole, Rect.mem_set_unit]
  intro a
  match a with
  | ⟨0, _⟩ =>
    show win5_2.index ⟨q, hT⟩ 0 * 8000 ≤ (i 0).val
      ∧ (i 0).val < win5_2.index ⟨q, hT⟩ 0 * 8000 + win5_2.xsize (grid5.coords ⟨q, hT⟩) 0
    rw [i20']
    have hx' : q * 8000 + win5_2.xsize (grid5.coords ⟨q, hT⟩) 0 = min (q * 8000 + 8000) 150000 := hx
    have hle := Nat.le_min.mpr (⟨by omega, by omega⟩ : (i 0).val + 1 ≤ q * 8000 + 8000 ∧ (i 0).val + 1 ≤ 150000)
    rw [← hx'] at hle
    exact ⟨by rw [hqr]; exact Nat.le_add_right _ _, hle⟩
  | ⟨1, _⟩ =>
    show win5_2.index ⟨q, hT⟩ 1 * 64 ≤ (i 1).val
      ∧ (i 1).val < win5_2.index ⟨q, hT⟩ 1 * 64 + win5_2.xsize (grid5.coords ⟨q, hT⟩) 1
    rw [i21, h21]; omega

/-- So the result array ends holding the accumulation step. -/
theorem final5 (c : Dev nD) : (dat5 V c).arrAt 2 cfg5.N = accOut5 V c :=
  (dat5 V c).arrAt_eq_of_cover 2 (accOut5 V c) (fun t _ => flushed5 V c t) cover5

end Region

end Cert.Kernel.Hand

end
-- ==== Proof.BitsSide.Run.lean ====
/-
  The whole run of @main: six kernel regions among seven stretches of host operations.

  The contents of every unscoped buffer are followed from the launch memory through each stretch (its operations
  applied) and each region (its three arrays replaced by what the write-backs leave), so that after the last stretch
  every such buffer is known as a term of the launch memory.  Each region enters the pipeline rule with its proof
  data at the contents found at its entry; the generator register and the core's empty debt ride along.
-/
import proofs.«142893_j63376537420313_1_alg».proof.Proof.BitsSide.Msg0
import proofs.«142893_j63376537420313_1_alg».proof.Proof.BitsSide.Msg2
import proofs.«142893_j63376537420313_1_alg».proof.Proof.BitsSide.Msg4
import proofs.«142893_j63376537420313_1_alg».proof.Proof.BitsSide.Acc1
import proofs.«142893_j63376537420313_1_alg».proof.Proof.BitsSide.Acc3
import proofs.«142893_j63376537420313_1_alg».proof.Proof.BitsSide.Acc5
import proofs.«142893_j63376537420313_1_alg».proof.Proof.Gen.Kernel.Regions
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## What rides beside the buffers -/

abbrev 𝒱₀ : Variants := Variants.none
/-- No core owes another anything: no level is assigned. -/
abbrev L : GSem nD τ sig → Finset Unit := fun _ => ∅
abbrev lv : GSem nD τ sig → Unit → ℕ := fun _ _ => 0
/-- The core's generator register at some state, and its debt: none. -/
abbrev R (c : Dev nD) : sProp 𝕄 := iprop((∃ r, prngReg c r) ∗ ∃ W, owes (c : Thread nD τ) (0 : CellTallies nD τ sig Unit) W)

/-- A core that owes nothing owes, in particular, within any bound; -/
theorem owes_in (c : Dev nD) {cfg : Cfg sig Λ₀} (dat : Dat τ (Elt F) Unit ℕ (Pipeline.UD sig nD τ) ℕ cfg c)
    (t : Fin (cfg.N + 1)) (h : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [h]
  iintro ⟨%W, HO⟩; iexists W; isplitr
  · ipureintro; unfold Pipeline.Dat.bound; rw [hr]; exact fun _ _ => Or.inl trivial
  iexact HO
/-- and the bound forgotten, it owes nothing. -/
theorem owes_out (c : Dev nD) {cfg : Cfg sig Λ₀} (dat : Dat τ (Elt F) Unit ℕ (Pipeline.UD sig nD τ) ℕ cfg c)
    (t : Fin (cfg.N + 1)) (h : dat.owed t = 0) :
    dat.owesAt () t ⊢ (iprop(∃ W, owes (c : Thread nD τ) (0 : CellTallies nD τ sig Unit) W) : sProp 𝕄) := by
  unfold Pipeline.Dat.owesAt Pipeline.owesWithin
  rw [h]
  iintro ⟨%W, -, HO⟩; iexists W; iexact HO

variable (m : (ℓ : Loc nD τ sig) → Buf (Elt F) ℓ)

/-! ## The buffers' contents at each boundary -/

/-- Core `c`'s buffers at launch. -/
abbrev W0 (c : Dev nD) : Valuation τ sig (Elt F) := fun b => m (c, b)
/-- After the first stretch of host operations. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b

/-- After region 0: its arrays at what the write-backs leave, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W2_rest (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host operations that follow region 0. -/
abbrev W3 (c : Dev nD) : Valuation τ sig (Elt F) := StableHlo.after hostOps1 (W2 m c)
abbrev V3 : (c : Dev nD) → (b : Ref sig .tc) → Buf (Elt F) ((c : Thread nD τ).loc b) := fun c b => W3 m c b

/-- After region 1: its arrays at what the write-backs leave, every other buffer as entered. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W4_rest (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the host operations that follow region 1. -/
abbrev W5 (c : Dev nD) : Valuation τ sig (Elt F) := StableHlo.after hostOps2 (W4 m c)
abbrev V5 : (c : Dev nD) → (b : Ref sig .tc) → Buf (Elt F) ((c : Thread nD τ).loc b) := fun c b => W5 m c b

/-- After region 2: its arrays at what the write-backs leave, every other buffer as entered. -/
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem W6_rest (c : Dev nD) : ∀ b, b ∉ Finset.univ.image (Pipeline.arrRef spec2) → V6 m c b = V5 m c b :=
  fun b hb => W6_of_ne m c b fun w e => hb (Finset.mem_image.mpr ⟨w, Finset.mem_univ _, e⟩)
/-- After the host operations that follow region 2. -/
abbrev W7 (c : Dev nD) : Valuation τ sig (Elt F) := StableHlo.after hostOps3 (W6 m c)
abbrev V7 : (c : Dev nD) → (b : Ref sig .tc) → Buf (Elt F) ((c : Thread nD τ).loc b) := fun c b => W7 m c b

/-- After region 3: its arrays at what the write-backs leave, every other buffer as entered. -/
def W8 (c : Dev nD) : Valuation τ sig (Elt F) :=
  Pipeline.withArrays spec3 c (W7 m c) fun w => (dat3 (V7 m) c).arrAt w cfg3.N
abbrev V8 : (c : Dev nD) → (b : Ref sig .tc) → Buf (Elt F) ((c : Thread nD τ).loc b) := fun c b => W8 m c b
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem W8_rest (c : Dev nD) : ∀ b, b ∉ Finset.univ.image (Pipeline.arrRef spec3) → V8 m c b = V7 m c b :=
  fun b hb => W8_of_ne m c b fun w e => hb (Finset.mem_image.mpr ⟨w, Finset.mem_univ _, e⟩)
/-- After the host operations that follow region 3. -/
abbrev W9 (c : Dev nD) : Valuation τ sig (Elt F) := StableHlo.after hostOps4 (W8 m c)
abbrev V9 : (c : Dev nD) → (b : Ref sig .tc) → Buf (Elt F) ((c : Thread nD τ).loc b) := fun c b => W9 m c b

/-- After region 4: its arrays at what the write-backs leave, every other buffer as entered. -/
def W10 (c : Dev nD) : Valuation τ sig (Elt F) :=
  Pipeline.withArrays spec4 c (W9 m c) fun w => (dat4 (V9 m) c).arrAt w cfg4.N
abbrev V10 : (c : Dev nD) → (b : Ref sig .tc) → Buf (Elt F) ((c : Thread nD τ).loc b) := fun c b => W10 m c b
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
theorem W10_rest (c : Dev nD) : ∀ b, b ∉ Finset.univ.image (Pipeline.arrRef spec4) → V10 m c b = V9 m c b :=
  fun b hb => W10_of_ne m c b fun w e => hb (Finset.mem_image.mpr ⟨w, Finset.mem_univ _, e⟩)
/-- After the host operations that follow region 4. -/
abbrev W11 (c : Dev nD) : Valuation τ sig (Elt F) := StableHlo.after hostOps5 (W10 m c)
abbrev V11 : (c : Dev nD) → (b : Ref sig .tc) → Buf (Elt F) ((c : Thread nD τ).loc b) := fun c b => W11 m c b

/-- After region 5: its arrays at what the write-backs leave, every other buffer as entered. -/
def W12 (c : Dev nD) : Valuation τ sig (Elt F) :=
  Pipeline.withArrays spec5 c (W11 m c) fun w => (dat5 (V11 m) c).arrAt w cfg5.N
abbrev V12 : (c : Dev nD) → (b : Ref sig .tc) → Buf (Elt F) ((c : Thread nD τ).loc b) := fun c b => W12 m c b
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
theorem W12_rest (c : Dev nD) : ∀ b, b ∉ Finset.univ.image (Pipeline.arrRef spec5) → V12 m c b = V11 m c b :=
  fun b hb => W12_of_ne m c b fun w e => hb (Finset.mem_image.mpr ⟨w, Finset.mem_univ _, e⟩)
/-- After the host operations that follow region 5. -/
abbrev W13 (c : Dev nD) : Valuation τ sig (Elt F) := StableHlo.after hostOps6 (W12 m c)
abbrev V13 : (c : Dev nD) → (b : Ref sig .tc) → Buf (Elt F) ((c : Thread nD τ).loc b) := fun c b => W13 m c b

/-! ## The proof data of the six pipelines, each at its region's entry contents -/

def pdats : (p : Fin 6) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c

/-! ## The regions as segments -/

set_option backward.isDefEq.respectTransparency.types false in
/-- Region 0 over the thread state: entered holding every unscoped buffer at `W1`, left holding them at `W2`.
    Its arrays are split out of the unscoped buffers and put back at what the write-backs leave; the generator
    register goes into the class invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (V1 m) c
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · iapply (owes_in c (pdats m 0 c) 0 rfl rfl); iexact Howes
    isplitl [Hreg]; · iexact Hreg
    iexact Hrest
  hin c := by
    rw [show (pdats m 0 c).Φ 0 = Pipeline.ΦA spec0 c from rfl]; unfold Pipeline.ΦA
    iintro ⟨Hreg, -, Hsc⟩
    isplitl [Hsc]; · iexact Hsc
    iexact Hreg
  hout c := by
    rw [Pipeline.ownSems0_none, show (pdats m 0 c).Φ (Fin.last _) = Pipeline.ΦA spec0 c from rfl]; unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (fun w => (W2_arr m c w).symm) (W2_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    iapply (owes_out c (pdats m 0 c) (Fin.last _) rfl); iexact Howes

set_option backward.isDefEq.respectTransparency.types false in
/-- Region 1 over the thread state: entered holding every unscoped buffer at `W3`, left holding them at `W4`.
    Its arrays are split out of the unscoped buffers and put back at what the write-backs leave; the generator
    register goes into the class invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m) c
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · iapply (owes_in c (pdats m 1 c) 0 rfl rfl); iexact Howes
    isplitl [Hreg]; · iexact Hreg
    iexact Hrest
  hin c := by
    rw [show (pdats m 1 c).Φ 0 = Pipeline.ΦA spec1 c from rfl]; unfold Pipeline.ΦA
    iintro ⟨Hreg, -, Hsc⟩
    isplitl [Hsc]; · iexact Hsc
    iexact Hreg
  hout c := by
    rw [Pipeline.ownSems0_none, show (pdats m 1 c).Φ (Fin.last _) = Pipeline.ΦA spec1 c from rfl]; unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V3 m c) (V4 m c) ((pdats m 1 c).arrAt · cfg1.N) (fun w => (W4_arr m c w).symm) (W4_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    iapply (owes_out c (pdats m 1 c) (Fin.last _) rfl); iexact Howes

set_option backward.isDefEq.respectTransparency.types false in
/-- Region 2 over the thread state: entered holding every unscoped buffer at `W5`, left holding them at `W6`.
    Its arrays are split out of the unscoped buffers and put back at what the write-backs leave; the generator
    register goes into the class invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (V5 m) c
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · iapply (owes_in c (pdats m 2 c) 0 rfl rfl); iexact Howes
    isplitl [Hreg]; · iexact Hreg
    iexact Hrest
  hin c := by
    rw [show (pdats m 2 c).Φ 0 = Pipeline.ΦA spec2 c from rfl]; unfold Pipeline.ΦA
    iintro ⟨Hreg, -, Hsc⟩
    isplitl [Hsc]; · iexact Hsc
    iexact Hreg
  hout c := by
    rw [Pipeline.ownSems0_none, show (pdats m 2 c).Φ (Fin.last _) = Pipeline.ΦA spec2 c from rfl]; unfold Pipeline.ΦA
    iintro ⟨Hsc, Hreg⟩
    isplitl [Hreg]; · iexact Hreg
    isplitr; · iempintro
    iexact Hsc
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (V5 m c) (V6 m c) ((pdats m 2 c).arrAt · cfg2.N) (fun w => (W6_arr m c w).symm) (W6_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    iapply (owes_out c (pdats m 2 c) (Fin.last _) rfl); iexact Howes

set_option backward.isDefEq.respectTransparency.types false in
/-- Region 3 over the thread state: entered holding every unscoped buffer at `W7`, left holding them at `W8`.
    Its arrays are split out of the unscoped buffers and put back at what the write-backs leave; the generator
    register goes into the class invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := body_obligation3 (V7 m) c
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · iapply (owes_in c (pdats m 3 c) 0 rfl rfl); iexact Howes
    isplitl [Hreg]; · iexact Hreg
    iexact Hrest
  hin c := by
    rw [show (pdats m 3 c).Φ 0 = Pipeline.ΦA spec3 c from rfl]; unfold Pipeline.ΦA
    iintro ⟨Hreg, -, Hsc⟩
    isplitl [Hsc]; · iexact Hsc
    iexact Hreg
  hout c := by
    rw [Pipeline.ownSems0_none, show (pdats m 3 c).Φ (Fin.last _) = Pipeline.ΦA spec3 c from rfl]; unfold Pipeline.ΦA
    iintro ⟨Hsc, Hreg⟩
    isplitl [Hreg]; · iexact Hreg
    isplitr; · iempintro
    iexact Hsc
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (V7 m c) (V8 m c) ((pdats m 3 c).arrAt · cfg3.N) (fun w => (W8_arr m c w).symm) (W8_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    iapply (owes_out c (pdats m 3 c) (Fin.last _) rfl); iexact Howes

set_option backward.isDefEq.respectTransparency.types false in
/-- Region 4 over the thread state: entered holding every unscoped buffer at `W9`, left holding them at `W10`.
    Its arrays are split out of the unscoped buffers and put back at what the write-backs leave; the generator
    register goes into the class invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := body_obligation4 (V9 m) c
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := Pipeline.UD sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · iapply (owes_in c (pdats m 4 c) 0 rfl rfl); iexact Howes
    isplitl [Hreg]; · iexact Hreg
    iexact Hrest
  hin c := by
    rw [show (pdats m 4 c).Φ 0 = Pipeline.ΦA spec4 c from rfl]; unfold Pipeline.ΦA
    iintro ⟨Hreg, -, Hsc⟩
    isplitl [Hsc]; · iexact Hsc
    iexact Hreg
  hout c := by
    rw [Pipeline.ownSems0_none, show (pdats m 4 c).Φ (Fin.last _) = Pipeline.ΦA spec4 c from rfl]; unfold Pipeline.ΦA
    iintro ⟨Hsc, Hreg⟩
    isplitl [Hreg]; · iexact Hreg
    isplitr; · iempintro
    iexact Hsc
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (V9 m c) (V10 m c) ((pdats m 4 c).arrAt · cfg4.N) (fun w => (W10_arr m c w).symm) (W10_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    iapply (owes_out c (pdats m 4 c) (Fin.last _) rfl); iexact Howes

set_option backward.isDefEq.respectTransparency.types false in
/-- Region 5 over the thread state: entered holding every unscoped buffer at `W11`, left holding them at `W12`.
    Its arrays are split out of the unscoped buffers and put back at what the write-backs leave; the generator
    register goes into the class invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := body_obligation5 (V11 m) c
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := Pipeline.UD sig nD τ) (Lvl := ℕ) spec5 c (V11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V11 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · iapply (owes_in c (pdats m 5 c) 0 rfl rfl); iexact Howes
    isplitl [Hreg]; · iexact Hreg
    iexact Hrest
  hin c := by
    rw [show (pdats m 5 c).Φ 0 = Pipeline.ΦA spec5 c from rfl]; unfold Pipeline.ΦA
    iintro ⟨Hreg, -, Hsc⟩
    isplitl [Hsc]; · iexact Hsc
    iexact Hreg
  hout c := by
    rw [Pipeline.ownSems0_none, show (pdats m 5 c).Φ (Fin.last _) = Pipeline.ΦA spec5 c from rfl]; unfold Pipeline.ΦA
    iintro ⟨Hsc, Hreg⟩
    isplitl [Hreg]; · iexact Hreg
    isplitr; · iempintro
    iexact Hsc
  hexit c := by
    have hjoin := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun _ => rfl)
      (V11 m c) (V12 m c) ((pdats m 5 c).arrAt · cfg5.N) (fun w => (W12_arr m c w).symm) (W12_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    iapply (owes_out c (pdats m 5 c) (Fin.last _) rfl); iexact Howes

/-! ## @main as segments, and the launch -/

/-- A stretch of host operations as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's thirteen segments in order. -/
abbrev segs : List (Pipeline.Seg (pcfgs (F := F)) adm (pdats m) () defs₀ 𝒱₀ L lv) :=
  [
    .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)) ]

set_option backward.isDefEq.respectTransparency.types false in
/-- THE RUN. From any memory with zero counters, every weakly fair execution of @main terminates, nothing faulting,
    and every final state holds each unscoped buffer at `W13`: the launch memory followed through the seven stretches
    and the six regions. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj embL defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W13 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (W13 m c) ∗ R c) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

end Cert.Kernel.Hand

end
-- ==== Proof.BitsSide.Keep.lean ====
/-
  What no stretch and no region writes stays: a buffer outside every stretch's results and every region's arrays holds
  its launch contents at every boundary of @main — in particular each argument after the last stretch, which with the
  run is the frame claim.
-/
import proofs.«142893_j63376537420313_1_alg».proof.Proof.BitsSide.Run

set_option maxRecDepth 16384

noncomputable section

namespace Cert.Kernel.Hand

open Cert.Kernel Cert.Kernel.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ)

theorem keepH0 (c : Dev nD) (r : Ref sig .tc) (h : r ∉ hostOps0_W) : W1 m c r = W0 m c r :=
  StableHlo.after_of_writes_sub hostOps0 _ hostOps0_writes h
theorem keepH1 (c : Dev nD) (r : Ref sig .tc) (h : r ∉ hostOps1_W) : W3 m c r = W2 m c r :=
  StableHlo.after_of_writes_sub hostOps1 _ hostOps1_writes h
theorem keepH2 (c : Dev nD) (r : Ref sig .tc) (h : r ∉ hostOps2_W) : W5 m c r = W4 m c r :=
  StableHlo.after_of_writes_sub hostOps2 _ hostOps2_writes h
theorem keepH3 (c : Dev nD) (r : Ref sig .tc) (h : r ∉ hostOps3_W) : W7 m c r = W6 m c r :=
  StableHlo.after_of_writes_sub hostOps3 _ hostOps3_writes h
theorem keepH4 (c : Dev nD) (r : Ref sig .tc) (h : r ∉ hostOps4_W) : W9 m c r = W8 m c r :=
  StableHlo.after_of_writes_sub hostOps4 _ hostOps4_writes h
theorem keepH5 (c : Dev nD) (r : Ref sig .tc) (h : r ∉ hostOps5_W) : W11 m c r = W10 m c r :=
  StableHlo.after_of_writes_sub hostOps5 _ hostOps5_writes h
theorem keepH6 (c : Dev nD) (r : Ref sig .tc) (h : r ∉ hostOps6_W) : W13 m c r = W12 m c r :=
  StableHlo.after_of_writes_sub hostOps6 _ hostOps6_writes h
theorem keepR0 (c : Dev nD) (r : Ref sig .tc) (h : ∀ w, Pipeline.arrRef spec0 w ≠ r) : W2 m c r = W1 m c r :=
  W2_of_ne m c r h
theorem inR0 (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem keepR1 (c : Dev nD) (r : Ref sig .tc) (h : ∀ w, Pipeline.arrRef spec1 w ≠ r) : W4 m c r = W3 m c r :=
  W4_of_ne m c r h
theorem inR1 (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))
theorem keepR2 (c : Dev nD) (r : Ref sig .tc) (h : ∀ w, Pipeline.arrRef spec2 w ≠ r) : W6 m c r = W5 m c r :=
  W6_of_ne m c r h
theorem inR2 (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hw _).trans (A_eq2 (V5 m) c w))
theorem keepR3 (c : Dev nD) (r : Ref sig .tc) (h : ∀ w, Pipeline.arrRef spec3 w ≠ r) : W8 m c r = W7 m c r :=
  W8_of_ne m c r h
theorem inR3 (c : Dev nD) (w : Fin cfg3.W) (hw : (cfg3.win w).isOut = false) :
    W8 m c (Proc.devRef .tc (Pipeline.arrRef spec3 w)) = W7 m c (Proc.devRef .tc (Pipeline.arrRef spec3 w)) :=
  (W8_arr m c w).trans (((dat3 (V7 m) c).arrAt_in w hw _).trans (A_eq3 (V7 m) c w))
theorem keepR4 (c : Dev nD) (r : Ref sig .tc) (h : ∀ w, Pipeline.arrRef spec4 w ≠ r) : W10 m c r = W9 m c r :=
  W10_of_ne m c r h
theorem inR4 (c : Dev nD) (w : Fin cfg4.W) (hw : (cfg4.win w).isOut = false) :
    W10 m c (Proc.devRef .tc (Pipeline.arrRef spec4 w)) = W9 m c (Proc.devRef .tc (Pipeline.arrRef spec4 w)) :=
  (W10_arr m c w).trans (((dat4 (V9 m) c).arrAt_in w hw _).trans (A_eq4 (V9 m) c w))
theorem keepR5 (c : Dev nD) (r : Ref sig .tc) (h : ∀ w, Pipeline.arrRef spec5 w ≠ r) : W12 m c r = W11 m c r :=
  W12_of_ne m c r h
theorem inR5 (c : Dev nD) (w : Fin cfg5.W) (hw : (cfg5.win w).isOut = false) :
    W12 m c (Proc.devRef .tc (Pipeline.arrRef spec5 w)) = W11 m c (Proc.devRef .tc (Pipeline.arrRef spec5 w)) :=
  (W12_arr m c w).trans (((dat5 (V11 m) c).arrAt_in w hw _).trans (A_eq5 (V11 m) c w))

/-! ## The arguments stay at their launch contents throughout -/

/-- A buffer at its launch contents after each of the six regions. -/
def Stays (c : Dev nD) (r : Ref sig .tc) : Prop :=
  W2 m c r = W0 m c r ∧ W4 m c r = W0 m c r ∧ W6 m c r = W0 m c r ∧ W8 m c r = W0 m c r ∧ W10 m c r = W0 m c r
    ∧ W12 m c r = W0 m c r

/-- A buffer no stretch writes and no region stages as an array holds its launch contents at every boundary. -/
theorem stays (c : Dev nD) (r : Ref sig .tc)
    (h0 : r ∉ hostOps0_W) (g0 : ∀ w, Pipeline.arrRef spec0 w ≠ r) (h1 : r ∉ hostOps1_W) (g1 : ∀ w, Pipeline.arrRef spec1 w ≠ r)
    (h2 : r ∉ hostOps2_W) (g2 : ∀ w, Pipeline.arrRef spec2 w ≠ r) (h3 : r ∉ hostOps3_W) (g3 : ∀ w, Pipeline.arrRef spec3 w ≠ r)
    (h4 : r ∉ hostOps4_W) (g4 : ∀ w, Pipeline.arrRef spec4 w ≠ r) (h5 : r ∉ hostOps5_W) (g5 : ∀ w, Pipeline.arrRef spec5 w ≠ r) :
    Stays m c r := by
  have e2 : W2 m c r = W0 m c r := (keepR0 m c r g0).trans (keepH0 m c r h0)
  have e4 : W4 m c r = W0 m c r := (keepR1 m c r g1).trans ((keepH1 m c r h1).trans e2)
  have e6 : W6 m c r = W0 m c r := (keepR2 m c r g2).trans ((keepH2 m c r h2).trans e4)
  have e8 : W8 m c r = W0 m c r := (keepR3 m c r g3).trans ((keepH3 m c r h3).trans e6)
  have e10 : W10 m c r = W0 m c r := (keepR4 m c r g4).trans ((keepH4 m c r h4).trans e8)
  have e12 : W12 m c r = W0 m c r := (keepR5 m c r g5).trans ((keepH5 m c r h5).trans e10)
  exact ⟨e2, e4, e6, e8, e10, e12⟩

theorem stays_arg3 (c : Dev nD) : Stays m c main_arg3 := stays m c main_arg3 (by decide) (by decide) (by decide) (by decide) (by decide) (by decide) (by decide) (by decide) (by decide) (by decide) (by decide) (by decide)
theorem stays_arg4 (c : Dev nD) : Stays m c main_arg4 := stays m c main_arg4 (by decide) (by decide) (by decide) (by decide) (by decide) (by decide) (by decide) (by decide) (by decide) (by decide) (by decide) (by decide)
theorem stays_arg5 (c : Dev nD) : Stays m c main_arg5 := stays m c main_arg5 (by decide) (by decide) (by decide) (by decide) (by decide) (by decide) (by decide) (by decide) (by decide) (by decide) (by decide) (by decide)
theorem stays_arg6 (c : Dev nD) : Stays m c main_arg6 := stays m c main_arg6 (by decide) (by decide) (by decide) (by decide) (by decide) (by decide) (by decide) (by decide) (by decide) (by decide) (by decide) (by decide)
theorem stays_arg7 (c : Dev nD) : Stays m c main_arg7 := stays m c main_arg7 (by decide) (by decide) (by decide) (by decide) (by decide) (by decide) (by decide) (by decide) (by decide) (by decide) (by decide) (by decide)

/-- Each argument after the last stretch holds its launch contents. -/
theorem s13_arg (c : Dev nD) (r : Ref sig .tc)
    (h0 : r ∉ hostOps0_W) (g0 : ∀ w, Pipeline.arrRef spec0 w ≠ r) (h1 : r ∉ hostOps1_W) (g1 : ∀ w, Pipeline.arrRef spec1 w ≠ r)
    (h2 : r ∉ hostOps2_W) (g2 : ∀ w, Pipeline.arrRef spec2 w ≠ r) (h3 : r ∉ hostOps3_W) (g3 : ∀ w, Pipeline.arrRef spec3 w ≠ r)
    (h4 : r ∉ hostOps4_W) (g4 : ∀ w, Pipeline.arrRef spec4 w ≠ r) (h5 : r ∉ hostOps5_W) (g5 : ∀ w, Pipeline.arrRef spec5 w ≠ r)
    (h6 : r ∉ hostOps6_W) : W13 m c r = W0 m c r :=
  (keepH6 m c r h6).trans (stays m c r h0 g0 h1 g1 h2 g2 h3 g3 h4 g4 h5 g5).2.2.2.2.2

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution of @main terminates, nothing faulting, with each argument array as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (s13_arg m c main_arg0 (by decide) (by decide) (by decide) (by decide) (by decide) (by decide) (by decide) (by decide) (by decide) (by decide) (by decide) (by decide) (by decide)),
     (h c _ (mem_uc main_arg1 (by decide))).trans (s13_arg m c main_arg1 (by decide) (by decide) (by decide) (by decide) (by decide) (by decide) (by decide) (by decide) (by decide) (by decide) (by decide) (by decide) (by decide)),
     (h c _ (mem_uc main_arg2 (by decide))).trans (s13_arg m c main_arg2 (by decide) (by decide) (by decide) (by decide) (by decide) (by decide) (by decide) (by decide) (by decide) (by decide) (by decide) (by decide) (by decide)),
     (h c _ (mem_uc main_arg3 (by decide))).trans (s13_arg m c main_arg3 (by decide) (by decide) (by decide) (by decide) (by decide) (by decide) (by decide) (by decide) (by decide) (by decide) (by decide) (by decide) (by decide)),
     (h c _ (mem_uc main_arg4 (by decide))).trans (s13_arg m c main_arg4 (by decide) (by decide) (by decide) (by decide) (by decide) (by decide) (by decide) (by decide) (by decide) (by decide) (by decide) (by decide) (by decide)),
     (h c _ (mem_uc main_arg5 (by decide))).trans (s13_arg m c main_arg5 (by decide) (by decide) (by decide) (by decide) (by decide) (by decide) (by decide) (by decide) (by decide) (by decide) (by decide) (by decide) (by decide)),
     (h c _ (mem_uc main_arg6 (by decide))).trans (s13_arg m c main_arg6 (by decide) (by decide) (by decide) (by decide) (by decide) (by decide) (by decide) (by decide) (by decide) (by decide) (by decide) (by decide) (by decide)),
     (h c _ (mem_uc main_arg7 (by decide))).trans (s13_arg m c main_arg7 (by decide) (by decide) (by decide) (by decide) (by decide) (by decide) (by decide) (by decide) (by decide) (by decide) (by decide) (by decide) (by decide))⟩)
    (run_all m ρ)

end Cert.Kernel.Hand

end
-- ==== Proof.IdealSide.Msg0.lean ====
import proofs.«142893_j63376537420313_1_alg».proof.Proof.Gen.KernelIdeal.Launch
import proofs.«142893_j63376537420313_1_alg».proof.Proof.Gen.KernelIdeal.Skeleton
import proofs.«142893_j63376537420313_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Tactic
import proofs.«142893_j63376537420313_1_alg».proof.Proof.LibKeepdims
import proofs.«142893_j63376537420313_1_alg».proof.Proof.Spec
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.ValueIdx

theorem hz2_0 : (![0, 0] : Fin 2 → Nat) = fun _ => 0 := funext fun a => by fin_cases a <;> rfl

/-! ## The edge-message kernel (region 0): one point's arithmetic -/

/-- What one point stores, at row `p` and lane `l` of the tile: the weight of edge `p` times entry `l` of the row
    gathered for that edge. -/
theorem msg0_pay_apply (X0 : Vec F S8192x1 .f32) (X1 : Vec F S8192x64 .f32) (p : Fin 8192) (l : Fin 64) :
    k0_pay1 X0 X1 (ix2 p l) = FloatOps.mulf (φ := .f32) (X0 (ix2 p (0 : Fin 1))) (X1 (ix2 p l)) := by
  unfold k0_pay1
  show FloatOps.mulf (φ := .f32) (broadcastTo S8192x64 (shapeCast S8192x1 X0 _) _ (ix2 p l)) (shapeCast S8192x64 X1 _ (ix2 p l)) = _
  rw [shapeCast_self, shapeCast_self, Cert.Lib.Keepdims.broadcastTo_a1_ab_apply]

/-- The kernel body on whole staging buffers: it loads the column of edge weights and the tile of gathered rows
    and stores their row-wise product into the result's buffer, whatever that held. -/
theorem sound_msg0 (c : Dev nD) (E : Set ℕ) (i : grid0.Coords)
    (arg1 : Memref sig .tc .vmem S8192x1 .f32) (harg1 : arg1.IsWhole)
    (arg2 : Memref sig .tc .vmem S8192x64 .f32) (harg2 : arg2.IsWhole)
    (arg3 : Memref sig .tc .vmem S8192x64 .f32) (harg3 : arg3.IsWhole)
    (x0 : Vec F S8192x1 .f32) (x1 : Vec F S8192x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k0_pay1 x0 x1)) -∗ K ⟨⟩))
      ⊢ wp frame (wpE (defs₀ (F := F)) Variants.none c none) E (cc0__msg_kernel i arg1 harg1 arg2 harg2 arg3 harg3) K := by
  simp only [cc0__msg_kernel_eq_skeleton]; unfold cc0__msg_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz2_0 inb_S8192x64_S8192x64_0_0 y⟩),
    View.canon_unit_zero hz2_0, View.readAt_eq_ld, View.readAt_eq_ld, View.ld_unit_zero hz2_0, View.ld_unit_zero hz2_0]

section Region
variable (V : (c : Dev nD) → (b : Ref sig .tc) → Buf (Elt F) ((c : Thread nD τ).loc b))

/-! ## The windows' blocks and the proof data -/

/-- The block of edge weights at point `t`: its part inside the array. -/
def wblk0 (c : Dev nD) (t : Fin cfg0.N) : (win0_0.xblock (grid0.coords t)).Idx → Elt F .f32 :=
  (win0_0.blk t).view.read (Elt F) (V c main_v1)
/-- The block of gathered rows at point `t`: its part inside the array. -/
def gblk0 (c : Dev nD) (t : Fin cfg0.N) : (win0_1.xblock (grid0.coords t)).Idx → Elt F .f32 :=
  (win0_1.blk t).view.read (Elt F) (V c main_v8)

/-- The two input buffers after a fetch, with the rows past the array's end (the last point's) at the zero word. -/
def wbuf0 (c : Dev nD) (t : Fin cfg0.N) : S8192x1.Idx → Elt F .f32 :=
  win0_0.fill (grid0.coords t) (fun _ => Scalar.ofBits .f32 0#32) (wblk0 V c t)
def gbuf0 (c : Dev nD) (t : Fin cfg0.N) : S8192x64.Idx → Elt F .f32 :=
  win0_1.fill (grid0.coords t) (fun _ => Scalar.ofBits .f32 0#32) (gblk0 V c t)

/-- The proof data of the pipeline: the arrays as the region finds them; after the body the inputs' buffers at
    their blocks and the result's at the product tile; the class invariant; nothing owed. -/
def dat0 (c : Dev nD) : Dat τ (Elt F) Unit ℕ (Pipeline.UD sig nD τ) ℕ cfg0 c where
  A w := V c (Pipeline.arrRef spec0 w)
  after w t := match w with
    | ⟨0, _⟩ => wbuf0 V c t
    | ⟨1, _⟩ => gbuf0 V c t
    | ⟨2, _⟩ => k0_pay1 (wbuf0 V c t) (gbuf0 V c t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = wbuf0 V c t := by dsimp only [dat0]
theorem after0_1 (c : Dev nD) (t : Fin cfg0.N) : (dat0 V c).after 1 t = gbuf0 V c t := by dsimp only [dat0]
theorem after0_2 (c : Dev nD) (t : Fin cfg0.N) : (dat0 V c).after 2 t = k0_pay1 (wbuf0 V c t) (gbuf0 V c t) := by dsimp only [dat0]

/-- An input buffer when the body runs: just fetched, its block on the rows inside the array. -/
theorem before0_0 (c : Dev nD) (t : Fin cfg0.N) (d) :
    (dat0 V c).before 0 t d = win0_0.fill (grid0.coords t) d (wblk0 V c t) := by
  unfold Dat.before; rw [if_pos (fetch0_0 t)]; unfold Dat.fetched Dat.blockOf wblk0; rw [A_eq0]
theorem before0_1 (c : Dev nD) (t : Fin cfg0.N) (d) :
    (dat0 V c).before 1 t d = win0_1.fill (grid0.coords t) d (gblk0 V c t) := by
  unfold Dat.before; rw [if_pos (fetch0_1 t)]; unfold Dat.fetched Dat.blockOf gblk0; rw [A_eq0]

end Region

/-! ## The schedule's arithmetic, decided over the grid -/

/-- At every point the three windows move the same rows, and every lane of their rows. -/
theorem xsize0 : ∀ t : Fin cfg0.N,
    win0_0.xsize (grid0.coords t) 0 = win0_2.xsize (grid0.coords t) 0 ∧ win0_0.xsize (grid0.coords t) 1 = 1
    ∧ win0_1.xsize (grid0.coords t) 0 = win0_2.xsize (grid0.coords t) 0 ∧ win0_1.xsize (grid0.coords t) 1 = 64
    ∧ win0_2.xsize (grid0.coords t) 1 = 64
    ∧ t.val * 8192 + win0_2.xsize (grid0.coords t) 0 = min (t.val * 8192 + 8192) 4000000 :=
  (by decide +kernel : ∀ t : Fin grid0.N, _)

/-- Block `t` of each window starts at row `8192 t`, lane 0. -/
theorem index0 : ∀ t : Fin cfg0.N,
    win0_0.index t 0 = t.val ∧ win0_0.index t 1 = 0 ∧ win0_1.index t 0 = t.val ∧ win0_1.index t 1 = 0
    ∧ win0_2.index t 0 = t.val ∧ win0_2.index t 1 = 0 :=
  (by decide +kernel : ∀ t : Fin grid0.N, _)

/-- Contents that differ only off the part a fetch fills agree on it. -/
theorem fill_congr_moved0 {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- On the rows the write-back moves, the product tile does not depend on what the input buffers hold past the
    array's end. -/
theorem msg0_cut_pay (t : Fin cfg0.N) (d0 d0' : S8192x1.Idx → Elt F .f32) (d1 d1' : S8192x64.Idx → Elt F .f32)
    (b0 : (win0_0.xblock (grid0.coords t)).Idx → Elt F .f32) (b1 : (win0_1.xblock (grid0.coords t)).Idx → Elt F .f32) :
    win0_2.cut (grid0.coords t) (k0_pay1 (win0_0.fill (grid0.coords t) d0 b0) (win0_1.fill (grid0.coords t) d1 b1))
      = win0_2.cut (grid0.coords t) (k0_pay1 (win0_0.fill (grid0.coords t) d0' b0) (win0_1.fill (grid0.coords t) d1' b1)) := by
  funext j
  obtain ⟨h00, h01, h10, h11, h21, -⟩ := xsize0 t
  have hj0 : (j 0).val < win0_2.xsize (grid0.coords t) 0 := (j 0).isLt
  have hj1 : (j 1).val < win0_2.xsize (grid0.coords t) 1 := (j 1).isLt
  have hr : (j 0).val < 8192 := lt_of_lt_of_le hj0 (win0_2.xsize_le _ 0)
  have hl : (j 1).val < 64 := lt_of_lt_of_le hj1 (win0_2.xsize_le _ 1)
  have e : win0_2.xinj (grid0.coords t) j = ix2 (⟨(j 0).val, hr⟩ : Fin 8192) (⟨(j 1).val, hl⟩ : Fin 64) :=
    funext fun a => Fin.ext (by match a with | ⟨0, _⟩ => rfl | ⟨1, _⟩ => rfl)
  show k0_pay1 _ _ (win0_2.xinj (grid0.coords t) j) = k0_pay1 _ _ (win0_2.xinj (grid0.coords t) j)
  rw [e, msg0_pay_apply, msg0_pay_apply]
  have m0 : win0_0.moved (grid0.coords t) (ix2 (⟨(j 0).val, hr⟩ : Fin 8192) (0 : Fin 1)) = true :=
    (win0_0.moved_iff _ _).mpr fun a => by
      match a with
      | ⟨0, _⟩ => show (j 0).val < win0_0.xsize (grid0.coords t) 0; rw [h00]; exact hj0
      | ⟨1, _⟩ => show 0 < win0_0.xsize (grid0.coords t) 1; rw [h01]; exact Nat.one_pos
  have m1 : win0_1.moved (grid0.coords t) (ix2 (⟨(j 0).val, hr⟩ : Fin 8192) (⟨(j 1).val, hl⟩ : Fin 64)) = true :=
    (win0_1.moved_iff _ _).mpr fun a => by
      match a with
      | ⟨0, _⟩ => show (j 0).val < win0_1.xsize (grid0.coords t) 0; rw [h10]; exact hj0
      | ⟨1, _⟩ => show (j 1).val < win0_1.xsize (grid0.coords t) 1; rw [h11]; exact hl
  rw [fill_congr_moved0 win0_0 _ d0 d0' b0 _ m0, fill_congr_moved0 win0_1 _ d1 d1' b1 _ m1]

section Region2
variable (V : (c : Dev nD) → (b : Ref sig .tc) → Buf (Elt F) ((c : Thread nD τ).loc b))

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: each buffer as the body left it on the rows its transfers move. -/
def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ (∃ d, owns (c : Thread nD τ) (st0_1 t) fullShare (win0_1.fill (grid0.coords t) d (win0_1.cut (grid0.coords t) ((dat0 V c).after 1 t))))
    ∗ (∃ d, owns (c : Thread nD τ) (st0_2 t) fullShare (win0_2.fill (grid0.coords t) d (win0_2.cut (grid0.coords t) ((dat0 V c).after 2 t)))))

/-- The body at any point: the two input buffers hold their blocks on the rows inside the array and anything past
    them; the product tile on the moved rows is the same whatever that is. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  rw [before0_0 V c t d0, before0_1 V c t d1]
  iapply (sound_msg0 c Set.univ (grid0.coords t) _ _ _ _ _ _
    (win0_0.fill (grid0.coords t) d0 (wblk0 V c t)) (win0_1.fill (grid0.coords t) d1 (gblk0 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    unfold wbuf0; rw [win0_0.cut_fill]; iexact H0
  isplitl [H1]
  · iexists d1
    unfold gbuf0; rw [win0_1.cut_fill]; iexact H1
  · iexists _
    unfold wbuf0 gbuf0
    rw [← msg0_cut_pay t d0 _ d1 _ (wblk0 V c t) (gblk0 V c t), win0_2.fill_cut]; iexact H2

/-- The library's body obligation, at every point. -/
theorem body_obligation0 (c : Dev nD) : BodyObligationLoose (dat0 (F := F) V c) (defs₀ (F := F)) Variants.none () Set.univ := fun t => by
  rw [bigSep_W0, bigSep_W0]
  exact sound_body0 V c t

end Region2

section Value
variable (V : (c : Dev nD) → (b : Ref sig .tc) → Buf (Elt F) ((c : Thread nD τ).loc b))

/-! ## The result array after the run -/

/-- Row `y` of the block of weights at point `t` is row `8192 t + y` of the array of weights; -/
theorem wblk0_apply (c : Dev nD) (t : Fin cfg0.N) (y : (win0_0.xblock (grid0.coords t)).Idx) (k : S4000000x1.Idx)
    (hk0 : (k 0).val = t.val * 8192 + (y 0).val) (hk1 : (k 1).val = (y 1).val) :
    wblk0 V c t y = (V c main_v1 : S4000000x1.Idx → Elt F .f32) k := by
  obtain ⟨i00, i01, -⟩ := index0 t
  unfold wblk0
  rw [View.read_apply]
  show (V c main_v1 : S4000000x1.Idx → Elt F .f32) _ = (V c main_v1 : S4000000x1.Idx → Elt F .f32) _
  congr 1
  funext a
  apply Fin.ext
  match a with
  | ⟨0, _⟩ => show win0_0.index t 0 * 8192 + 1 * (y 0).val = (k 0).val; rw [i00, hk0]; omega
  | ⟨1, _⟩ => show win0_0.index t 1 * 1 + 1 * (y 1).val = (k 1).val; rw [i01, hk1]; omega

/-- the same of the block of gathered rows; -/
theorem gblk0_apply (c : Dev nD) (t : Fin cfg0.N) (y : (win0_1.xblock (grid0.coords t)).Idx) (k : S4000000x64.Idx)
    (hk0 : (k 0).val = t.val * 8192 + (y 0).val) (hk1 : (k 1).val = (y 1).val) :
    gblk0 V c t y = (V c main_v8 : S4000000x64.Idx → Elt F .f32) k := by
  obtain ⟨-, -, i10, i11, -⟩ := index0 t
  unfold gblk0
  rw [View.read_apply]
  show (V c main_v8 : S4000000x64.Idx → Elt F .f32) _ = (V c main_v8 : S4000000x64.Idx → Elt F .f32) _
  congr 1
  funext a
  apply Fin.ext
  match a with
  | ⟨0, _⟩ => show win0_1.index t 0 * 8192 + 1 * (y 0).val = (k 0).val; rw [i10, hk0]; omega
  | ⟨1, _⟩ => show win0_1.index t 1 * 64 + 1 * (y 1).val = (k 1).val; rw [i11, hk1]; omega

/-- and of a block of any contents of the result array. -/
theorem oblk0_apply (G : S4000000x64.Idx → Elt F .f32) (t : Fin cfg0.N) (y : (win0_2.xblock (grid0.coords t)).Idx) (k : S4000000x64.Idx)
    (hk0 : (k 0).val = t.val * 8192 + (y 0).val) (hk1 : (k 1).val = (y 1).val) :
    (win0_2.blk t).view.read (Elt F) G y = G k := by
  obtain ⟨-, -, -, -, i20, i21⟩ := index0 t
  rw [View.read_apply]
  show G _ = G _
  congr 1
  funext a
  apply Fin.ext
  match a with
  | ⟨0, _⟩ => show win0_2.index t 0 * 8192 + 1 * (y 0).val = (k 0).val; rw [i20, hk0]; omega
  | ⟨1, _⟩ => show win0_2.index t 1 * 64 + 1 * (y 1).val = (k 1).val; rw [i21, hk1]; omega

/-- The edge messages of the arrays the region finds: what its result array is shown to hold. -/
abbrev msgOut0 (c : Dev nD) : S4000000x64.Idx → Elt F .f32 :=
  Cert.Spec.msgArr (F := F) (V c main_v1 : S4000000x1.Idx → Elt F .f32) (V c main_v8 : S4000000x64.Idx → Elt F .f32)

/-- What point `t` writes back is block `t` of the edge messages. -/
theorem flushed0 (c : Dev nD) (t : Fin cfg0.N) :
    (dat0 V c).flushed 2 t = ((cfg0.win 2).blk t).view.read (Elt F) (msgOut0 V c) := by
  show win0_2.cut (grid0.coords t) ((dat0 V c).after 2 t) = (win0_2.blk t).view.read (Elt F) (msgOut0 V c)
  rw [after0_2]
  funext j
  obtain ⟨h00, h01, h10, h11, h21, hx⟩ := xsize0 t
  have hj0 : (j 0).val < win0_2.xsize (grid0.coords t) 0 := (j 0).isLt
  have hj1 : (j 1).val < win0_2.xsize (grid0.coords t) 1 := (j 1).isLt
  have hr : (j 0).val < 8192 := lt_of_lt_of_le hj0 (win0_2.xsize_le _ 0)
  have hl : (j 1).val < 64 := lt_of_lt_of_le hj1 (win0_2.xsize_le _ 1)
  have hK : t.val * 8192 + (j 0).val < 4000000 := by
    have := Nat.min_le_right (t.val * 8192 + 8192) 4000000; omega
  have e : win0_2.xinj (grid0.coords t) j = ix2 (⟨(j 0).val, hr⟩ : Fin 8192) (⟨(j 1).val, hl⟩ : Fin 64) :=
    funext fun a => Fin.ext (by match a with | ⟨0, _⟩ => rfl | ⟨1, _⟩ => rfl)
  have m0 : win0_0.moved (grid0.coords t) (ix2 (⟨(j 0).val, hr⟩ : Fin 8192) (0 : Fin 1)) = true :=
    (win0_0.moved_iff _ _).mpr fun a => by
      match a with
      | ⟨0, _⟩ => show (j 0).val < win0_0.xsize (grid0.coords t) 0; rw [h00]; exact hj0
      | ⟨1, _⟩ => show 0 < win0_0.xsize (grid0.coords t) 1; rw [h01]; exact Nat.one_pos
  have m1 : win0_1.moved (grid0.coords t) (ix2 (⟨(j 0).val, hr⟩ : Fin 8192) (⟨(j 1).val, hl⟩ : Fin 64)) = true :=
    (win0_1.moved_iff _ _).mpr fun a => by
      match a with
      | ⟨0, _⟩ => show (j 0).val < win0_1.xsize (grid0.coords t) 0; rw [h10]; exact hj0
      | ⟨1, _⟩ => show (j 1).val < win0_1.xsize (grid0.coords t) 1; rw [h11]; exact hl
  show k0_pay1 _ _ (win0_2.xinj (grid0.coords t) j) = _
  rw [e, msg0_pay_apply]
  unfold wbuf0 gbuf0 Pipeline.Window.fill
  rw [dif_pos m0, dif_pos m1,
    wblk0_apply V c t _ (ix2 (⟨t.val * 8192 + (j 0).val, hK⟩ : Fin 4000000) (0 : Fin 1)) ?_ ?_,
    gblk0_apply V c t _ (ix2 (⟨t.val * 8192 + (j 0).val, hK⟩ : Fin 4000000) (⟨(j 1).val, hl⟩ : Fin 64)) ?_ ?_,
    oblk0_apply (msgOut0 V c) t j (ix2 (⟨t.val * 8192 + (j 0).val, hK⟩ : Fin 4000000) (⟨(j 1).val, hl⟩ : Fin 64)) ?_ ?_]
  all_goals rfl

/-- Every entry of the result array lies in the block of the point its row belongs to. -/
theorem cover0 (i : S4000000x64.Idx) :
    ∃ t : Fin cfg0.N, (cfg0.win 2).flush t = true ∧ i ∈ ((cfg0.win 2).blk t).view.set := by
  have hi0 : (i 0).val < 4000000 := (i 0).isLt
  have hi1 : (i 1).val < 64 := (i 1).isLt
  obtain ⟨q, r, hr, hqr⟩ : ∃ q r, r < 8192 ∧ (i 0).val = q * 8192 + r :=
    ⟨(i 0).val / 8192, (i 0).val % 8192, Nat.mod_lt _ (by decide), by rw [Nat.mul_comm]; exact (Nat.div_add_mod _ _).symm⟩
  have hN : cfg0.N = 489 := N_0
  have hT : q < cfg0.N := by rw [hN]; omega
  refine ⟨⟨q, hT⟩, flush0_2 _, ?_⟩
  obtain ⟨-, -, -, -, h21, hx⟩ := xsize0 ⟨q, hT⟩
  obtain ⟨-, -, -, -, i20, i21⟩ := index0 ⟨q, hT⟩
  have i20' : win0_2.index ⟨q, hT⟩ 0 = q := i20
  show i ∈ ((View.whole main_v9).slice (win0_2.rect ⟨q, hT⟩)).set
  rw [View.set_slice_whole, Rect.mem_set_unit]
  intro a
  match a with
  | ⟨0, _⟩ =>
    show win0_2.index ⟨q, hT⟩ 0 * 8192 ≤ (i 0).val
      ∧ (i 0).val < win0_2.index ⟨q, hT⟩ 0 * 8192 + win0_2.xsize (grid0.coords ⟨q, hT⟩) 0
    rw [i20']
    have hx' : q * 8192 + win0_2.xsize (grid0.coords ⟨q, hT⟩) 0 = min (q * 8192 + 8192) 4000000 := hx
    have hle := Nat.le_min.mpr (⟨by omega, by omega⟩ : (i 0).val + 1 ≤ q * 8192 + 8192 ∧ (i 0).val + 1 ≤ 4000000)
    rw [← hx'] at hle
    exact ⟨by rw [hqr]; exact Nat.le_add_right _ _, hle⟩
  | ⟨1, _⟩ =>
    show win0_2.index ⟨q, hT⟩ 1 * 64 ≤ (i 1).val
      ∧ (i 1).val < win0_2.index ⟨q, hT⟩ 1 * 64 + win0_2.xsize (grid0.coords ⟨q, hT⟩) 1
    rw [i21, h21]; omega

/-- So the result array ends holding the edge messages. -/
theorem final0 (c : Dev nD) : (dat0 V c).arrAt 2 cfg0.N = msgOut0 V c :=
  (dat0 V c).arrAt_eq_of_cover 2 (msgOut0 V c) (fun t _ => flushed0 V c t) cover0

end Value

end Cert.KernelIdeal.Hand

end
-- ==== Proof.IdealSide.Msg2.lean ====
import proofs.«142893_j63376537420313_1_alg».proof.Proof.Gen.KernelIdeal.Launch
import proofs.«142893_j63376537420313_1_alg».proof.Proof.Gen.KernelIdeal.Skeleton
import proofs.«142893_j63376537420313_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Tactic
import proofs.«142893_j63376537420313_1_alg».proof.Proof.LibKeepdims
import proofs.«142893_j63376537420313_1_alg».proof.Proof.Spec
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.ValueIdx

theorem hz2_2 : (![0, 0] : Fin 2 → Nat) = fun _ => 0 := funext fun a => by fin_cases a <;> rfl

/-! ## The edge-message kernel (region 2): one point's arithmetic -/

/-- What one point stores, at row `p` and lane `l` of the tile: the weight of edge `p` times entry `l` of the row
    gathered for that edge. -/
theorem msg2_pay_apply (X0 : Vec F S8192x1 .f32) (X1 : Vec F S8192x64 .f32) (p : Fin 8192) (l : Fin 64) :
    k2_pay1 X0 X1 (ix2 p l) = FloatOps.mulf (φ := .f32) (X0 (ix2 p (0 : Fin 1))) (X1 (ix2 p l)) := by
  unfold k2_pay1
  show FloatOps.mulf (φ := .f32) (broadcastTo S8192x64 (shapeCast S8192x1 X0 _) _ (ix2 p l)) (shapeCast S8192x64 X1 _ (ix2 p l)) = _
  rw [shapeCast_self, shapeCast_self, Cert.Lib.Keepdims.broadcastTo_a1_ab_apply]

/-- The kernel body on whole staging buffers: it loads the column of edge weights and the tile of gathered rows
    and stores their row-wise product into the result's buffer, whatever that held. -/
theorem sound_msg2 (c : Dev nD) (E : Set ℕ) (i : grid2.Coords)
    (arg1 : Memref sig .tc .vmem S8192x1 .f32) (harg1 : arg1.IsWhole)
    (arg2 : Memref sig .tc .vmem S8192x64 .f32) (harg2 : arg2.IsWhole)
    (arg3 : Memref sig .tc .vmem S8192x64 .f32) (harg3 : arg3.IsWhole)
    (x0 : Vec F S8192x1 .f32) (x1 : Vec F S8192x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k2_pay1 x0 x1)) -∗ K ⟨⟩))
      ⊢ wp frame (wpE (defs₀ (F := F)) Variants.none c none) E (cc2__msg_kernel i arg1 harg1 arg2 harg2 arg3 harg3) K := by
  simp only [cc2__msg_kernel_eq_skeleton]; unfold cc2__msg_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz2_2 inb_S8192x64_S8192x64_0_0 y⟩),
    View.canon_unit_zero hz2_2, View.readAt_eq_ld, View.readAt_eq_ld, View.ld_unit_zero hz2_2, View.ld_unit_zero hz2_2]

section Region
variable (V : (c : Dev nD) → (b : Ref sig .tc) → Buf (Elt F) ((c : Thread nD τ).loc b))

/-! ## The windows' blocks and the proof data -/

/-- The block of edge weights at point `t`: its part inside the array. -/
def wblk2 (c : Dev nD) (t : Fin cfg2.N) : (win2_0.xblock (grid2.coords t)).Idx → Elt F .f32 :=
  (win2_0.blk t).view.read (Elt F) (V c main_v1)
/-- The block of gathered rows at point `t`: its part inside the array. -/
def gblk2 (c : Dev nD) (t : Fin cfg2.N) : (win2_1.xblock (grid2.coords t)).Idx → Elt F .f32 :=
  (win2_1.blk t).view.read (Elt F) (V c main_v20)

/-- The two input buffers after a fetch, with the rows past the array's end (the last point's) at the zero word. -/
def wbuf2 (c : Dev nD) (t : Fin cfg2.N) : S8192x1.Idx → Elt F .f32 :=
  win2_0.fill (grid2.coords t) (fun _ => Scalar.ofBits .f32 0#32) (wblk2 V c t)
def gbuf2 (c : Dev nD) (t : Fin cfg2.N) : S8192x64.Idx → Elt F .f32 :=
  win2_1.fill (grid2.coords t) (fun _ => Scalar.ofBits .f32 0#32) (gblk2 V c t)

/-- The proof data of the pipeline: the arrays as the region finds them; after the body the inputs' buffers at
    their blocks and the result's at the product tile; the class invariant; nothing owed. -/
def dat2 (c : Dev nD) : Dat τ (Elt F) Unit ℕ (Pipeline.UD sig nD τ) ℕ cfg2 c where
  A w := V c (Pipeline.arrRef spec2 w)
  after w t := match w with
    | ⟨0, _⟩ => wbuf2 V c t
    | ⟨1, _⟩ => gbuf2 V c t
    | ⟨2, _⟩ => k2_pay1 (wbuf2 V c t) (gbuf2 V c t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = wbuf2 V c t := by dsimp only [dat2]
theorem after2_1 (c : Dev nD) (t : Fin cfg2.N) : (dat2 V c).after 1 t = gbuf2 V c t := by dsimp only [dat2]
theorem after2_2 (c : Dev nD) (t : Fin cfg2.N) : (dat2 V c).after 2 t = k2_pay1 (wbuf2 V c t) (gbuf2 V c t) := by dsimp only [dat2]

/-- An input buffer when the body runs: just fetched, its block on the rows inside the array. -/
theorem before2_0 (c : Dev nD) (t : Fin cfg2.N) (d) :
    (dat2 V c).before 0 t d = win2_0.fill (grid2.coords t) d (wblk2 V c t) := by
  unfold Dat.before; rw [if_pos (fetch2_0 t)]; unfold Dat.fetched Dat.blockOf wblk2; rw [A_eq2]
theorem before2_1 (c : Dev nD) (t : Fin cfg2.N) (d) :
    (dat2 V c).before 1 t d = win2_1.fill (grid2.coords t) d (gblk2 V c t) := by
  unfold Dat.before; rw [if_pos (fetch2_1 t)]; unfold Dat.fetched Dat.blockOf gblk2; rw [A_eq2]

end Region

/-! ## The schedule's arithmetic, decided over the grid -/

/-- At every point the three windows move the same rows, and every lane of their rows. -/
theorem xsize2 : ∀ t : Fin cfg2.N,
    win2_0.xsize (grid2.coords t) 0 = win2_2.xsize (grid2.coords t) 0 ∧ win2_0.xsize (grid2.coords t) 1 = 1
    ∧ win2_1.xsize (grid2.coords t) 0 = win2_2.xsize (grid2.coords t) 0 ∧ win2_1.xsize (grid2.coords t) 1 = 64
    ∧ win2_2.xsize (grid2.coords t) 1 = 64
    ∧ t.val * 8192 + win2_2.xsize (grid2.coords t) 0 = min (t.val * 8192 + 8192) 4000000 :=
  (by decide +kernel : ∀ t : Fin grid2.N, _)

/-- Block `t` of each window starts at row `8192 t`, lane 0. -/
theorem index2 : ∀ t : Fin cfg2.N,
    win2_0.index t 0 = t.val ∧ win2_0.index t 1 = 0 ∧ win2_1.index t 0 = t.val ∧ win2_1.index t 1 = 0
    ∧ win2_2.index t 0 = t.val ∧ win2_2.index t 1 = 0 :=
  (by decide +kernel : ∀ t : Fin grid2.N, _)

/-- Contents that differ only off the part a fetch fills agree on it. -/
theorem fill_congr_moved2 {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- On the rows the write-back moves, the product tile does not depend on what the input buffers hold past the
    array's end. -/
theorem msg2_cut_pay (t : Fin cfg2.N) (d0 d0' : S8192x1.Idx → Elt F .f32) (d1 d1' : S8192x64.Idx → Elt F .f32)
    (b0 : (win2_0.xblock (grid2.coords t)).Idx → Elt F .f32) (b1 : (win2_1.xblock (grid2.coords t)).Idx → Elt F .f32) :
    win2_2.cut (grid2.coords t) (k2_pay1 (win2_0.fill (grid2.coords t) d0 b0) (win2_1.fill (grid2.coords t) d1 b1))
      = win2_2.cut (grid2.coords t) (k2_pay1 (win2_0.fill (grid2.coords t) d0' b0) (win2_1.fill (grid2.coords t) d1' b1)) := by
  funext j
  obtain ⟨h00, h01, h10, h11, h21, -⟩ := xsize2 t
  have hj0 : (j 0).val < win2_2.xsize (grid2.coords t) 0 := (j 0).isLt
  have hj1 : (j 1).val < win2_2.xsize (grid2.coords t) 1 := (j 1).isLt
  have hr : (j 0).val < 8192 := lt_of_lt_of_le hj0 (win2_2.xsize_le _ 0)
  have hl : (j 1).val < 64 := lt_of_lt_of_le hj1 (win2_2.xsize_le _ 1)
  have e : win2_2.xinj (grid2.coords t) j = ix2 (⟨(j 0).val, hr⟩ : Fin 8192) (⟨(j 1).val, hl⟩ : Fin 64) :=
    funext fun a => Fin.ext (by match a with | ⟨0, _⟩ => rfl | ⟨1, _⟩ => rfl)
  show k2_pay1 _ _ (win2_2.xinj (grid2.coords t) j) = k2_pay1 _ _ (win2_2.xinj (grid2.coords t) j)
  rw [e, msg2_pay_apply, msg2_pay_apply]
  have m0 : win2_0.moved (grid2.coords t) (ix2 (⟨(j 0).val, hr⟩ : Fin 8192) (0 : Fin 1)) = true :=
    (win2_0.moved_iff _ _).mpr fun a => by
      match a with
      | ⟨0, _⟩ => show (j 0).val < win2_0.xsize (grid2.coords t) 0; rw [h00]; exact hj0
      | ⟨1, _⟩ => show 0 < win2_0.xsize (grid2.coords t) 1; rw [h01]; exact Nat.one_pos
  have m1 : win2_1.moved (grid2.coords t) (ix2 (⟨(j 0).val, hr⟩ : Fin 8192) (⟨(j 1).val, hl⟩ : Fin 64)) = true :=
    (win2_1.moved_iff _ _).mpr fun a => by
      match a with
      | ⟨0, _⟩ => show (j 0).val < win2_1.xsize (grid2.coords t) 0; rw [h10]; exact hj0
      | ⟨1, _⟩ => show (j 1).val < win2_1.xsize (grid2.coords t) 1; rw [h11]; exact hl
  rw [fill_congr_moved2 win2_0 _ d0 d0' b0 _ m0, fill_congr_moved2 win2_1 _ d1 d1' b1 _ m1]

section Region2
variable (V : (c : Dev nD) → (b : Ref sig .tc) → Buf (Elt F) ((c : Thread nD τ).loc b))

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: each buffer as the body left it on the rows its transfers move. -/
def bodyPost2 (c : Dev nD) (t : Fin cfg2.N) : sProp 𝕄 :=
  iprop((dat2 V c).Φ t.succ ∗ (dat2 V c).owesAt () t.succ
    ∗ (∃ d, owns (c : Thread nD τ) (st2_0 t) fullShare (win2_0.fill (grid2.coords t) d (win2_0.cut (grid2.coords t) ((dat2 V c).after 0 t))))
    ∗ (∃ d, owns (c : Thread nD τ) (st2_1 t) fullShare (win2_1.fill (grid2.coords t) d (win2_1.cut (grid2.coords t) ((dat2 V c).after 1 t))))
    ∗ (∃ d, owns (c : Thread nD τ) (st2_2 t) fullShare (win2_2.fill (grid2.coords t) d (win2_2.cut (grid2.coords t) ((dat2 V c).after 2 t)))))

/-- The body at any point: the two input buffers hold their blocks on the rows inside the array and anything past
    them; the product tile on the moved rows is the same whatever that is. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  rw [before2_0 V c t d0, before2_1 V c t d1]
  iapply (sound_msg2 c Set.univ (grid2.coords t) _ _ _ _ _ _
    (win2_0.fill (grid2.coords t) d0 (wblk2 V c t)) (win2_1.fill (grid2.coords t) d1 (gblk2 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    unfold wbuf2; rw [win2_0.cut_fill]; iexact H0
  isplitl [H1]
  · iexists d1
    unfold gbuf2; rw [win2_1.cut_fill]; iexact H1
  · iexists _
    unfold wbuf2 gbuf2
    rw [← msg2_cut_pay t d0 _ d1 _ (wblk2 V c t) (gblk2 V c t), win2_2.fill_cut]; iexact H2

/-- The library's body obligation, at every point. -/
theorem body_obligation2 (c : Dev nD) : BodyObligationLoose (dat2 (F := F) V c) (defs₀ (F := F)) Variants.none () Set.univ := fun t => by
  rw [bigSep_W2, bigSep_W2]
  exact sound_body2 V c t

end Region2

section Value
variable (V : (c : Dev nD) → (b : Ref sig .tc) → Buf (Elt F) ((c : Thread nD τ).loc b))

/-! ## The result array after the run -/

/-- Row `y` of the block of weights at point `t` is row `8192 t + y` of the array of weights; -/
theorem wblk2_apply (c : Dev nD) (t : Fin cfg2.N) (y : (win2_0.xblock (grid2.coords t)).Idx) (k : S4000000x1.Idx)
    (hk0 : (k 0).val = t.val * 8192 + (y 0).val) (hk1 : (k 1).val = (y 1).val) :
    wblk2 V c t y = (V c main_v1 : S4000000x1.Idx → Elt F .f32) k := by
  obtain ⟨i00, i01, -⟩ := index2 t
  unfold wblk2
  rw [View.read_apply]
  show (V c main_v1 : S4000000x1.Idx → Elt F .f32) _ = (V c main_v1 : S4000000x1.Idx → Elt F .f32) _
  congr 1
  funext a
  apply Fin.ext
  match a with
  | ⟨0, _⟩ => show win2_0.index t 0 * 8192 + 1 * (y 0).val = (k 0).val; rw [i00, hk0]; omega
  | ⟨1, _⟩ => show win2_0.index t 1 * 1 + 1 * (y 1).val = (k 1).val; rw [i01, hk1]; omega

/-- the same of the block of gathered rows; -/
theorem gblk2_apply (c : Dev nD) (t : Fin cfg2.N) (y : (win2_1.xblock (grid2.coords t)).Idx) (k : S4000000x64.Idx)
    (hk0 : (k 0).val = t.val * 8192 + (y 0).val) (hk1 : (k 1).val = (y 1).val) :
    gblk2 V c t y = (V c main_v20 : S4000000x64.Idx → Elt F .f32) k := by
  obtain ⟨-, -, i10, i11, -⟩ := index2 t
  unfold gblk2
  rw [View.read_apply]
  show (V c main_v20 : S4000000x64.Idx → Elt F .f32) _ = (V c main_v20 : S4000000x64.Idx → Elt F .f32) _
  congr 1
  funext a
  apply Fin.ext
  match a with
  | ⟨0, _⟩ => show win2_1.index t 0 * 8192 + 1 * (y 0).val = (k 0).val; rw [i10, hk0]; omega
  | ⟨1, _⟩ => show win2_1.index t 1 * 64 + 1 * (y 1).val = (k 1).val; rw [i11, hk1]; omega

/-- and of a block of any contents of the result array. -/
theorem oblk2_apply (G : S4000000x64.Idx → Elt F .f32) (t : Fin cfg2.N) (y : (win2_2.xblock (grid2.coords t)).Idx) (k : S4000000x64.Idx)
    (hk0 : (k 0).val = t.val * 8192 + (y 0).val) (hk1 : (k 1).val = (y 1).val) :
    (win2_2.blk t).view.read (Elt F) G y = G k := by
  obtain ⟨-, -, -, -, i20, i21⟩ := index2 t
  rw [View.read_apply]
  show G _ = G _
  congr 1
  funext a
  apply Fin.ext
  match a with
  | ⟨0, _⟩ => show win2_2.index t 0 * 8192 + 1 * (y 0).val = (k 0).val; rw [i20, hk0]; omega
  | ⟨1, _⟩ => show win2_2.index t 1 * 64 + 1 * (y 1).val = (k 1).val; rw [i21, hk1]; omega

/-- The edge messages of the arrays the region finds: what its result array is shown to hold. -/
abbrev msgOut2 (c : Dev nD) : S4000000x64.Idx → Elt F .f32 :=
  Cert.Spec.msgArr (F := F) (V c main_v1 : S4000000x1.Idx → Elt F .f32) (V c main_v20 : S4000000x64.Idx → Elt F .f32)

/-- What point `t` writes back is block `t` of the edge messages. -/
theorem flushed2 (c : Dev nD) (t : Fin cfg2.N) :
    (dat2 V c).flushed 2 t = ((cfg2.win 2).blk t).view.read (Elt F) (msgOut2 V c) := by
  show win2_2.cut (grid2.coords t) ((dat2 V c).after 2 t) = (win2_2.blk t).view.read (Elt F) (msgOut2 V c)
  rw [after2_2]
  funext j
  obtain ⟨h00, h01, h10, h11, h21, hx⟩ := xsize2 t
  have hj0 : (j 0).val < win2_2.xsize (grid2.coords t) 0 := (j 0).isLt
  have hj1 : (j 1).val < win2_2.xsize (grid2.coords t) 1 := (j 1).isLt
  have hr : (j 0).val < 8192 := lt_of_lt_of_le hj0 (win2_2.xsize_le _ 0)
  have hl : (j 1).val < 64 := lt_of_lt_of_le hj1 (win2_2.xsize_le _ 1)
  have hK : t.val * 8192 + (j 0).val < 4000000 := by
    have := Nat.min_le_right (t.val * 8192 + 8192) 4000000; omega
  have e : win2_2.xinj (grid2.coords t) j = ix2 (⟨(j 0).val, hr⟩ : Fin 8192) (⟨(j 1).val, hl⟩ : Fin 64) :=
    funext fun a => Fin.ext (by match a with | ⟨0, _⟩ => rfl | ⟨1, _⟩ => rfl)
  have m0 : win2_0.moved (grid2.coords t) (ix2 (⟨(j 0).val, hr⟩ : Fin 8192) (0 : Fin 1)) = true :=
    (win2_0.moved_iff _ _).mpr fun a => by
      match a with
      | ⟨0, _⟩ => show (j 0).val < win2_0.xsize (grid2.coords t) 0; rw [h00]; exact hj0
      | ⟨1, _⟩ => show 0 < win2_0.xsize (grid2.coords t) 1; rw [h01]; exact Nat.one_pos
  have m1 : win2_1.moved (grid2.coords t) (ix2 (⟨(j 0).val, hr⟩ : Fin 8192) (⟨(j 1).val, hl⟩ : Fin 64)) = true :=
    (win2_1.moved_iff _ _).mpr fun a => by
      match a with
      | ⟨0, _⟩ => show (j 0).val < win2_1.xsize (grid2.coords t) 0; rw [h10]; exact hj0
      | ⟨1, _⟩ => show (j 1).val < win2_1.xsize (grid2.coords t) 1; rw [h11]; exact hl
  show k2_pay1 _ _ (win2_2.xinj (grid2.coords t) j) = _
  rw [e, msg2_pay_apply]
  unfold wbuf2 gbuf2 Pipeline.Window.fill
  rw [dif_pos m0, dif_pos m1,
    wblk2_apply V c t _ (ix2 (⟨t.val * 8192 + (j 0).val, hK⟩ : Fin 4000000) (0 : Fin 1)) ?_ ?_,
    gblk2_apply V c t _ (ix2 (⟨t.val * 8192 + (j 0).val, hK⟩ : Fin 4000000) (⟨(j 1).val, hl⟩ : Fin 64)) ?_ ?_,
    oblk2_apply (msgOut2 V c) t j (ix2 (⟨t.val * 8192 + (j 0).val, hK⟩ : Fin 4000000) (⟨(j 1).val, hl⟩ : Fin 64)) ?_ ?_]
  all_goals rfl

/-- Every entry of the result array lies in the block of the point its row belongs to. -/
theorem cover2 (i : S4000000x64.Idx) :
    ∃ t : Fin cfg2.N, (cfg2.win 2).flush t = true ∧ i ∈ ((cfg2.win 2).blk t).view.set := by
  have hi0 : (i 0).val < 4000000 := (i 0).isLt
  have hi1 : (i 1).val < 64 := (i 1).isLt
  obtain ⟨q, r, hr, hqr⟩ : ∃ q r, r < 8192 ∧ (i 0).val = q * 8192 + r :=
    ⟨(i 0).val / 8192, (i 0).val % 8192, Nat.mod_lt _ (by decide), by rw [Nat.mul_comm]; exact (Nat.div_add_mod _ _).symm⟩
  have hN : cfg2.N = 489 := N_2
  have hT : q < cfg2.N := by rw [hN]; omega
  refine ⟨⟨q, hT⟩, flush2_2 _, ?_⟩
  obtain ⟨-, -, -, -, h21, hx⟩ := xsize2 ⟨q, hT⟩
  obtain ⟨-, -, -, -, i20, i21⟩ := index2 ⟨q, hT⟩
  have i20' : win2_2.index ⟨q, hT⟩ 0 = q := i20
  show i ∈ ((View.whole main_v21).slice (win2_2.rect ⟨q, hT⟩)).set
  rw [View.set_slice_whole, Rect.mem_set_unit]
  intro a
  match a with
  | ⟨0, _⟩ =>
    show win2_2.index ⟨q, hT⟩ 0 * 8192 ≤ (i 0).val
      ∧ (i 0).val < win2_2.index ⟨q, hT⟩ 0 * 8192 + win2_2.xsize (grid2.coords ⟨q, hT⟩) 0
    rw [i20']
    have hx' : q * 8192 + win2_2.xsize (grid2.coords ⟨q, hT⟩) 0 = min (q * 8192 + 8192) 4000000 := hx
    have hle := Nat.le_min.mpr (⟨by omega, by omega⟩ : (i 0).val + 1 ≤ q * 8192 + 8192 ∧ (i 0).val + 1 ≤ 4000000)
    rw [← hx'] at hle
    exact ⟨by rw [hqr]; exact Nat.le_add_right _ _, hle⟩
  | ⟨1, _⟩ =>
    show win2_2.index ⟨q, hT⟩ 1 * 64 ≤ (i 1).val
      ∧ (i 1).val < win2_2.index ⟨q, hT⟩ 1 * 64 + win2_2.xsize (grid2.coords ⟨q, hT⟩) 1
    rw [i21, h21]; omega

/-- So the result array ends holding the edge messages. -/
theorem final2 (c : Dev nD) : (dat2 V c).arrAt 2 cfg2.N = msgOut2 V c :=
  (dat2 V c).arrAt_eq_of_cover 2 (msgOut2 V c) (fun t _ => flushed2 V c t) cover2

end Value

end Cert.KernelIdeal.Hand

end
-- ==== Proof.IdealSide.Msg4.lean ====
import proofs.«142893_j63376537420313_1_alg».proof.Proof.Gen.KernelIdeal.Launch
import proofs.«142893_j63376537420313_1_alg».proof.Proof.Gen.KernelIdeal.Skeleton
import proofs.«142893_j63376537420313_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Tactic
import proofs.«142893_j63376537420313_1_alg».proof.Proof.LibKeepdims
import proofs.«142893_j63376537420313_1_alg».proof.Proof.Spec
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.ValueIdx

theorem hz2_4 : (![0, 0] : Fin 2 → Nat) = fun _ => 0 := funext fun a => by fin_cases a <;> rfl

/-! ## The edge-message kernel (region 4): one point's arithmetic -/

/-- What one point stores, at row `p` and lane `l` of the tile: the weight of edge `p` times entry `l` of the row
    gathered for that edge. -/
theorem msg4_pay_apply (X0 : Vec F S8192x1 .f32) (X1 : Vec F S8192x64 .f32) (p : Fin 8192) (l : Fin 64) :
    k4_pay1 X0 X1 (ix2 p l) = FloatOps.mulf (φ := .f32) (X0 (ix2 p (0 : Fin 1))) (X1 (ix2 p l)) := by
  unfold k4_pay1
  show FloatOps.mulf (φ := .f32) (broadcastTo S8192x64 (shapeCast S8192x1 X0 _) _ (ix2 p l)) (shapeCast S8192x64 X1 _ (ix2 p l)) = _
  rw [shapeCast_self, shapeCast_self, Cert.Lib.Keepdims.broadcastTo_a1_ab_apply]

/-- The kernel body on whole staging buffers: it loads the column of edge weights and the tile of gathered rows
    and stores their row-wise product into the result's buffer, whatever that held. -/
theorem sound_msg4 (c : Dev nD) (E : Set ℕ) (i : grid4.Coords)
    (arg1 : Memref sig .tc .vmem S8192x1 .f32) (harg1 : arg1.IsWhole)
    (arg2 : Memref sig .tc .vmem S8192x64 .f32) (harg2 : arg2.IsWhole)
    (arg3 : Memref sig .tc .vmem S8192x64 .f32) (harg3 : arg3.IsWhole)
    (x0 : Vec F S8192x1 .f32) (x1 : Vec F S8192x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k4_pay1 x0 x1)) -∗ K ⟨⟩))
      ⊢ wp frame (wpE (defs₀ (F := F)) Variants.none c none) E (cc4__msg_kernel i arg1 harg1 arg2 harg2 arg3 harg3) K := by
  simp only [cc4__msg_kernel_eq_skeleton]; unfold cc4__msg_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz2_4 inb_S8192x64_S8192x64_0_0 y⟩),
    View.canon_unit_zero hz2_4, View.readAt_eq_ld, View.readAt_eq_ld, View.ld_unit_zero hz2_4, View.ld_unit_zero hz2_4]

section Region
variable (V : (c : Dev nD) → (b : Ref sig .tc) → Buf (Elt F) ((c : Thread nD τ).loc b))

/-! ## The windows' blocks and the proof data -/

/-- The block of edge weights at point `t`: its part inside the array. -/
def wblk4 (c : Dev nD) (t : Fin cfg4.N) : (win4_0.xblock (grid4.coords t)).Idx → Elt F .f32 :=
  (win4_0.blk t).view.read (Elt F) (V c main_v1)
/-- The block of gathered rows at point `t`: its part inside the array. -/
def gblk4 (c : Dev nD) (t : Fin cfg4.N) : (win4_1.xblock (grid4.coords t)).Idx → Elt F .f32 :=
  (win4_1.blk t).view.read (Elt F) (V c main_v32)

/-- The two input buffers after a fetch, with the rows past the array's end (the last point's) at the zero word. -/
def wbuf4 (c : Dev nD) (t : Fin cfg4.N) : S8192x1.Idx → Elt F .f32 :=
  win4_0.fill (grid4.coords t) (fun _ => Scalar.ofBits .f32 0#32) (wblk4 V c t)
def gbuf4 (c : Dev nD) (t : Fin cfg4.N) : S8192x64.Idx → Elt F .f32 :=
  win4_1.fill (grid4.coords t) (fun _ => Scalar.ofBits .f32 0#32) (gblk4 V c t)

/-- The proof data of the pipeline: the arrays as the region finds them; after the body the inputs' buffers at
    their blocks and the result's at the product tile; the class invariant; nothing owed. -/
def dat4 (c : Dev nD) : Dat τ (Elt F) Unit ℕ (Pipeline.UD sig nD τ) ℕ cfg4 c where
  A w := V c (Pipeline.arrRef spec4 w)
  after w t := match w with
    | ⟨0, _⟩ => wbuf4 V c t
    | ⟨1, _⟩ => gbuf4 V c t
    | ⟨2, _⟩ => k4_pay1 (wbuf4 V c t) (gbuf4 V c t)
  Φ _ := Pipeline.ΦA spec4 c
  q _ := fullShare
  owed _ := 0

theorem A_eq4 (c : Dev nD) (w : Fin cfg4.W) : (dat4 V c).A w = V c (Pipeline.arrRef spec4 w) := by dsimp only [dat4]
theorem after4_0 (c : Dev nD) (t : Fin cfg4.N) : (dat4 V c).after 0 t = wbuf4 V c t := by dsimp only [dat4]
theorem after4_1 (c : Dev nD) (t : Fin cfg4.N) : (dat4 V c).after 1 t = gbuf4 V c t := by dsimp only [dat4]
theorem after4_2 (c : Dev nD) (t : Fin cfg4.N) : (dat4 V c).after 2 t = k4_pay1 (wbuf4 V c t) (gbuf4 V c t) := by dsimp only [dat4]

/-- An input buffer when the body runs: just fetched, its block on the rows inside the array. -/
theorem before4_0 (c : Dev nD) (t : Fin cfg4.N) (d) :
    (dat4 V c).before 0 t d = win4_0.fill (grid4.coords t) d (wblk4 V c t) := by
  unfold Dat.before; rw [if_pos (fetch4_0 t)]; unfold Dat.fetched Dat.blockOf wblk4; rw [A_eq4]
theorem before4_1 (c : Dev nD) (t : Fin cfg4.N) (d) :
    (dat4 V c).before 1 t d = win4_1.fill (grid4.coords t) d (gblk4 V c t) := by
  unfold Dat.before; rw [if_pos (fetch4_1 t)]; unfold Dat.fetched Dat.blockOf gblk4; rw [A_eq4]

end Region

/-! ## The schedule's arithmetic, decided over the grid -/

/-- At every point the three windows move the same rows, and every lane of their rows. -/
theorem xsize4 : ∀ t : Fin cfg4.N,
    win4_0.xsize (grid4.coords t) 0 = win4_2.xsize (grid4.coords t) 0 ∧ win4_0.xsize (grid4.coords t) 1 = 1
    ∧ win4_1.xsize (grid4.coords t) 0 = win4_2.xsize (grid4.coords t) 0 ∧ win4_1.xsize (grid4.coords t) 1 = 64
    ∧ win4_2.xsize (grid4.coords t) 1 = 64
    ∧ t.val * 8192 + win4_2.xsize (grid4.coords t) 0 = min (t.val * 8192 + 8192) 4000000 :=
  (by decide +kernel : ∀ t : Fin grid4.N, _)

/-- Block `t` of each window starts at row `8192 t`, lane 0. -/
theorem index4 : ∀ t : Fin cfg4.N,
    win4_0.index t 0 = t.val ∧ win4_0.index t 1 = 0 ∧ win4_1.index t 0 = t.val ∧ win4_1.index t 1 = 0
    ∧ win4_2.index t 0 = t.val ∧ win4_2.index t 1 = 0 :=
  (by decide +kernel : ∀ t : Fin grid4.N, _)

/-- Contents that differ only off the part a fetch fills agree on it. -/
theorem fill_congr_moved4 {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- On the rows the write-back moves, the product tile does not depend on what the input buffers hold past the
    array's end. -/
theorem msg4_cut_pay (t : Fin cfg4.N) (d0 d0' : S8192x1.Idx → Elt F .f32) (d1 d1' : S8192x64.Idx → Elt F .f32)
    (b0 : (win4_0.xblock (grid4.coords t)).Idx → Elt F .f32) (b1 : (win4_1.xblock (grid4.coords t)).Idx → Elt F .f32) :
    win4_2.cut (grid4.coords t) (k4_pay1 (win4_0.fill (grid4.coords t) d0 b0) (win4_1.fill (grid4.coords t) d1 b1))
      = win4_2.cut (grid4.coords t) (k4_pay1 (win4_0.fill (grid4.coords t) d0' b0) (win4_1.fill (grid4.coords t) d1' b1)) := by
  funext j
  obtain ⟨h00, h01, h10, h11, h21, -⟩ := xsize4 t
  have hj0 : (j 0).val < win4_2.xsize (grid4.coords t) 0 := (j 0).isLt
  have hj1 : (j 1).val < win4_2.xsize (grid4.coords t) 1 := (j 1).isLt
  have hr : (j 0).val < 8192 := lt_of_lt_of_le hj0 (win4_2.xsize_le _ 0)
  have hl : (j 1).val < 64 := lt_of_lt_of_le hj1 (win4_2.xsize_le _ 1)
  have e : win4_2.xinj (grid4.coords t) j = ix2 (⟨(j 0).val, hr⟩ : Fin 8192) (⟨(j 1).val, hl⟩ : Fin 64) :=
    funext fun a => Fin.ext (by match a with | ⟨0, _⟩ => rfl | ⟨1, _⟩ => rfl)
  show k4_pay1 _ _ (win4_2.xinj (grid4.coords t) j) = k4_pay1 _ _ (win4_2.xinj (grid4.coords t) j)
  rw [e, msg4_pay_apply, msg4_pay_apply]
  have m0 : win4_0.moved (grid4.coords t) (ix2 (⟨(j 0).val, hr⟩ : Fin 8192) (0 : Fin 1)) = true :=
    (win4_0.moved_iff _ _).mpr fun a => by
      match a with
      | ⟨0, _⟩ => show (j 0).val < win4_0.xsize (grid4.coords t) 0; rw [h00]; exact hj0
      | ⟨1, _⟩ => show 0 < win4_0.xsize (grid4.coords t) 1; rw [h01]; exact Nat.one_pos
  have m1 : win4_1.moved (grid4.coords t) (ix2 (⟨(j 0).val, hr⟩ : Fin 8192) (⟨(j 1).val, hl⟩ : Fin 64)) = true :=
    (win4_1.moved_iff _ _).mpr fun a => by
      match a with
      | ⟨0, _⟩ => show (j 0).val < win4_1.xsize (grid4.coords t) 0; rw [h10]; exact hj0
      | ⟨1, _⟩ => show (j 1).val < win4_1.xsize (grid4.coords t) 1; rw [h11]; exact hl
  rw [fill_congr_moved4 win4_0 _ d0 d0' b0 _ m0, fill_congr_moved4 win4_1 _ d1 d1' b1 _ m1]

section Region2
variable (V : (c : Dev nD) → (b : Ref sig .tc) → Buf (Elt F) ((c : Thread nD τ).loc b))

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns: each buffer as the body left it on the rows its transfers move. -/
def bodyPost4 (c : Dev nD) (t : Fin cfg4.N) : sProp 𝕄 :=
  iprop((dat4 V c).Φ t.succ ∗ (dat4 V c).owesAt () t.succ
    ∗ (∃ d, owns (c : Thread nD τ) (st4_0 t) fullShare (win4_0.fill (grid4.coords t) d (win4_0.cut (grid4.coords t) ((dat4 V c).after 0 t))))
    ∗ (∃ d, owns (c : Thread nD τ) (st4_1 t) fullShare (win4_1.fill (grid4.coords t) d (win4_1.cut (grid4.coords t) ((dat4 V c).after 1 t))))
    ∗ (∃ d, owns (c : Thread nD τ) (st4_2 t) fullShare (win4_2.fill (grid4.coords t) d (win4_2.cut (grid4.coords t) ((dat4 V c).after 2 t)))))

/-- The body at any point: the two input buffers hold their blocks on the rows inside the array and anything past
    them; the product tile on the moved rows is the same whatever that is. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  rw [before4_0 V c t d0, before4_1 V c t d1]
  iapply (sound_msg4 c Set.univ (grid4.coords t) _ _ _ _ _ _
    (win4_0.fill (grid4.coords t) d0 (wblk4 V c t)) (win4_1.fill (grid4.coords t) d1 (gblk4 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    unfold wbuf4; rw [win4_0.cut_fill]; iexact H0
  isplitl [H1]
  · iexists d1
    unfold gbuf4; rw [win4_1.cut_fill]; iexact H1
  · iexists _
    unfold wbuf4 gbuf4
    rw [← msg4_cut_pay t d0 _ d1 _ (wblk4 V c t) (gblk4 V c t), win4_2.fill_cut]; iexact H2

/-- The library's body obligation, at every point. -/
theorem body_obligation4 (c : Dev nD) : BodyObligationLoose (dat4 (F := F) V c) (defs₀ (F := F)) Variants.none () Set.univ := fun t => by
  rw [bigSep_W4, bigSep_W4]
  exact sound_body4 V c t

end Region2

section Value
variable (V : (c : Dev nD) → (b : Ref sig .tc) → Buf (Elt F) ((c : Thread nD τ).loc b))

/-! ## The result array after the run -/

/-- Row `y` of the block of weights at point `t` is row `8192 t + y` of the array of weights; -/
theorem wblk4_apply (c : Dev nD) (t : Fin cfg4.N) (y : (win4_0.xblock (grid4.coords t)).Idx) (k : S4000000x1.Idx)
    (hk0 : (k 0).val = t.val * 8192 + (y 0).val) (hk1 : (k 1).val = (y 1).val) :
    wblk4 V c t y = (V c main_v1 : S4000000x1.Idx → Elt F .f32) k := by
  obtain ⟨i00, i01, -⟩ := index4 t
  unfold wblk4
  rw [View.read_apply]
  show (V c main_v1 : S4000000x1.Idx → Elt F .f32) _ = (V c main_v1 : S4000000x1.Idx → Elt F .f32) _
  congr 1
  funext a
  apply Fin.ext
  match a with
  | ⟨0, _⟩ => show win4_0.index t 0 * 8192 + 1 * (y 0).val = (k 0).val; rw [i00, hk0]; omega
  | ⟨1, _⟩ => show win4_0.index t 1 * 1 + 1 * (y 1).val = (k 1).val; rw [i01, hk1]; omega

/-- the same of the block of gathered rows; -/
theorem gblk4_apply (c : Dev nD) (t : Fin cfg4.N) (y : (win4_1.xblock (grid4.coords t)).Idx) (k : S4000000x64.Idx)
    (hk0 : (k 0).val = t.val * 8192 + (y 0).val) (hk1 : (k 1).val = (y 1).val) :
    gblk4 V c t y = (V c main_v32 : S4000000x64.Idx → Elt F .f32) k := by
  obtain ⟨-, -, i10, i11, -⟩ := index4 t
  unfold gblk4
  rw [View.read_apply]
  show (V c main_v32 : S4000000x64.Idx → Elt F .f32) _ = (V c main_v32 : S4000000x64.Idx → Elt F .f32) _
  congr 1
  funext a
  apply Fin.ext
  match a with
  | ⟨0, _⟩ => show win4_1.index t 0 * 8192 + 1 * (y 0).val = (k 0).val; rw [i10, hk0]; omega
  | ⟨1, _⟩ => show win4_1.index t 1 * 64 + 1 * (y 1).val = (k 1).val; rw [i11, hk1]; omega

/-- and of a block of any contents of the result array. -/
theorem oblk4_apply (G : S4000000x64.Idx → Elt F .f32) (t : Fin cfg4.N) (y : (win4_2.xblock (grid4.coords t)).Idx) (k : S4000000x64.Idx)
    (hk0 : (k 0).val = t.val * 8192 + (y 0).val) (hk1 : (k 1).val = (y 1).val) :
    (win4_2.blk t).view.read (Elt F) G y = G k := by
  obtain ⟨-, -, -, -, i20, i21⟩ := index4 t
  rw [View.read_apply]
  show G _ = G _
  congr 1
  funext a
  apply Fin.ext
  match a with
  | ⟨0, _⟩ => show win4_2.index t 0 * 8192 + 1 * (y 0).val = (k 0).val; rw [i20, hk0]; omega
  | ⟨1, _⟩ => show win4_2.index t 1 * 64 + 1 * (y 1).val = (k 1).val; rw [i21, hk1]; omega

/-- The edge messages of the arrays the region finds: what its result array is shown to hold. -/
abbrev msgOut4 (c : Dev nD) : S4000000x64.Idx → Elt F .f32 :=
  Cert.Spec.msgArr (F := F) (V c main_v1 : S4000000x1.Idx → Elt F .f32) (V c main_v32 : S4000000x64.Idx → Elt F .f32)

/-- What point `t` writes back is block `t` of the edge messages. -/
theorem flushed4 (c : Dev nD) (t : Fin cfg4.N) :
    (dat4 V c).flushed 2 t = ((cfg4.win 2).blk t).view.read (Elt F) (msgOut4 V c) := by
  show win4_2.cut (grid4.coords t) ((dat4 V c).after 2 t) = (win4_2.blk t).view.read (Elt F) (msgOut4 V c)
  rw [after4_2]
  funext j
  obtain ⟨h00, h01, h10, h11, h21, hx⟩ := xsize4 t
  have hj0 : (j 0).val < win4_2.xsize (grid4.coords t) 0 := (j 0).isLt
  have hj1 : (j 1).val < win4_2.xsize (grid4.coords t) 1 := (j 1).isLt
  have hr : (j 0).val < 8192 := lt_of_lt_of_le hj0 (win4_2.xsize_le _ 0)
  have hl : (j 1).val < 64 := lt_of_lt_of_le hj1 (win4_2.xsize_le _ 1)
  have hK : t.val * 8192 + (j 0).val < 4000000 := by
    have := Nat.min_le_right (t.val * 8192 + 8192) 4000000; omega
  have e : win4_2.xinj (grid4.coords t) j = ix2 (⟨(j 0).val, hr⟩ : Fin 8192) (⟨(j 1).val, hl⟩ : Fin 64) :=
    funext fun a => Fin.ext (by match a with | ⟨0, _⟩ => rfl | ⟨1, _⟩ => rfl)
  have m0 : win4_0.moved (grid4.coords t) (ix2 (⟨(j 0).val, hr⟩ : Fin 8192) (0 : Fin 1)) = true :=
    (win4_0.moved_iff _ _).mpr fun a => by
      match a with
      | ⟨0, _⟩ => show (j 0).val < win4_0.xsize (grid4.coords t) 0; rw [h00]; exact hj0
      | ⟨1, _⟩ => show 0 < win4_0.xsize (grid4.coords t) 1; rw [h01]; exact Nat.one_pos
  have m1 : win4_1.moved (grid4.coords t) (ix2 (⟨(j 0).val, hr⟩ : Fin 8192) (⟨(j 1).val, hl⟩ : Fin 64)) = true :=
    (win4_1.moved_iff _ _).mpr fun a => by
      match a with
      | ⟨0, _⟩ => show (j 0).val < win4_1.xsize (grid4.coords t) 0; rw [h10]; exact hj0
      | ⟨1, _⟩ => show (j 1).val < win4_1.xsize (grid4.coords t) 1; rw [h11]; exact hl
  show k4_pay1 _ _ (win4_2.xinj (grid4.coords t) j) = _
  rw [e, msg4_pay_apply]
  unfold wbuf4 gbuf4 Pipeline.Window.fill
  rw [dif_pos m0, dif_pos m1,
    wblk4_apply V c t _ (ix2 (⟨t.val * 8192 + (j 0).val, hK⟩ : Fin 4000000) (0 : Fin 1)) ?_ ?_,
    gblk4_apply V c t _ (ix2 (⟨t.val * 8192 + (j 0).val, hK⟩ : Fin 4000000) (⟨(j 1).val, hl⟩ : Fin 64)) ?_ ?_,
    oblk4_apply (msgOut4 V c) t j (ix2 (⟨t.val * 8192 + (j 0).val, hK⟩ : Fin 4000000) (⟨(j 1).val, hl⟩ : Fin 64)) ?_ ?_]
  all_goals rfl

/-- Every entry of the result array lies in the block of the point its row belongs to. -/
theorem cover4 (i : S4000000x64.Idx) :
    ∃ t : Fin cfg4.N, (cfg4.win 2).flush t = true ∧ i ∈ ((cfg4.win 2).blk t).view.set := by
  have hi0 : (i 0).val < 4000000 := (i 0).isLt
  have hi1 : (i 1).val < 64 := (i 1).isLt
  obtain ⟨q, r, hr, hqr⟩ : ∃ q r, r < 8192 ∧ (i 0).val = q * 8192 + r :=
    ⟨(i 0).val / 8192, (i 0).val % 8192, Nat.mod_lt _ (by decide), by rw [Nat.mul_comm]; exact (Nat.div_add_mod _ _).symm⟩
  have hN : cfg4.N = 489 := N_4
  have hT : q < cfg4.N := by rw [hN]; omega
  refine ⟨⟨q, hT⟩, flush4_2 _, ?_⟩
  obtain ⟨-, -, -, -, h21, hx⟩ := xsize4 ⟨q, hT⟩
  obtain ⟨-, -, -, -, i20, i21⟩ := index4 ⟨q, hT⟩
  have i20' : win4_2.index ⟨q, hT⟩ 0 = q := i20
  show i ∈ ((View.whole main_v33).slice (win4_2.rect ⟨q, hT⟩)).set
  rw [View.set_slice_whole, Rect.mem_set_unit]
  intro a
  match a with
  | ⟨0, _⟩ =>
    show win4_2.index ⟨q, hT⟩ 0 * 8192 ≤ (i 0).val
      ∧ (i 0).val < win4_2.index ⟨q, hT⟩ 0 * 8192 + win4_2.xsize (grid4.coords ⟨q, hT⟩) 0
    rw [i20']
    have hx' : q * 8192 + win4_2.xsize (grid4.coords ⟨q, hT⟩) 0 = min (q * 8192 + 8192) 4000000 := hx
    have hle := Nat.le_min.mpr (⟨by omega, by omega⟩ : (i 0).val + 1 ≤ q * 8192 + 8192 ∧ (i 0).val + 1 ≤ 4000000)
    rw [← hx'] at hle
    exact ⟨by rw [hqr]; exact Nat.le_add_right _ _, hle⟩
  | ⟨1, _⟩ =>
    show win4_2.index ⟨q, hT⟩ 1 * 64 ≤ (i 1).val
      ∧ (i 1).val < win4_2.index ⟨q, hT⟩ 1 * 64 + win4_2.xsize (grid4.coords ⟨q, hT⟩) 1
    rw [i21, h21]; omega

/-- So the result array ends holding the edge messages. -/
theorem final4 (c : Dev nD) : (dat4 V c).arrAt 2 cfg4.N = msgOut4 V c :=
  (dat4 V c).arrAt_eq_of_cover 2 (msgOut4 V c) (fun t _ => flushed4 V c t) cover4

end Value

end Cert.KernelIdeal.Hand

end
-- ==== Proof.IdealSide.Acc1.lean ====
import proofs.«142893_j63376537420313_1_alg».proof.Proof.Gen.KernelIdeal.Launch
import proofs.«142893_j63376537420313_1_alg».proof.Proof.Gen.KernelIdeal.Skeleton
import proofs.«142893_j63376537420313_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Tactic
import proofs.«142893_j63376537420313_1_alg».proof.Proof.Spec
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.ValueIdx

theorem hz2_1 : (![0, 0] : Fin 2 → Nat) = fun _ => 0 := funext fun a => by fin_cases a <;> rfl

/-! ## The accumulation kernel (region 1): one point's arithmetic -/

/-- What one point stores, entry by entry: the running total plus the new layer, times the kernel's scale. -/
theorem acc1_pay_apply (X0 X1 : Vec F S8000x64 .f32) (j : S8000x64.Idx) :
    k1_pay1 X0 X1 j = FloatOps.mulf (φ := .f32) (FloatOps.addf (φ := .f32) (X0 j) (X1 j)) (Scalar.ofBits .f32 0x3F800000#32) := by
  unfold k1_pay1
  show FloatOps.mulf (φ := .f32) (FloatOps.addf (φ := .f32) (shapeCast S8000x64 X0 _ j) (shapeCast S8000x64 X1 _ j)) _ = _
  rw [shapeCast_self, shapeCast_self]
  rfl

/-- The kernel body on whole staging buffers: it loads the tile of the running total and the tile of the new layer
    and stores their scaled sum into the result's buffer, whatever that held. -/
theorem sound_acc1 (c : Dev nD) (E : Set ℕ) (i : grid1.Coords)
    (arg1 : Memref sig .tc .vmem S8000x64 .f32) (harg1 : arg1.IsWhole)
    (arg2 : Memref sig .tc .vmem S8000x64 .f32) (harg2 : arg2.IsWhole)
    (arg3 : Memref sig .tc .vmem S8000x64 .f32) (harg3 : arg3.IsWhole)
    (x0 x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k1_pay1 x0 x1)) -∗ K ⟨⟩))
      ⊢ wp frame (wpE (defs₀ (F := F)) Variants.none c none) E (cc1__accum_kernel i arg1 harg1 arg2 harg2 arg3 harg3) K := by
  simp only [cc1__accum_kernel_eq_skeleton]; unfold cc1__accum_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz2_1 inb_S8000x64_S8000x64_0_0 y⟩),
    View.canon_unit_zero hz2_1, View.readAt_eq_ld, View.readAt_eq_ld, View.ld_unit_zero hz2_1, View.ld_unit_zero hz2_1]

/-! ## The schedule's arithmetic, decided over the grid -/

/-- At every point the three windows move the same rows, and every lane of their rows. -/
theorem xsize1 : ∀ t : Fin cfg1.N,
    win1_0.xsize (grid1.coords t) 0 = win1_2.xsize (grid1.coords t) 0 ∧ win1_0.xsize (grid1.coords t) 1 = win1_2.xsize (grid1.coords t) 1
    ∧ win1_1.xsize (grid1.coords t) 0 = win1_2.xsize (grid1.coords t) 0 ∧ win1_1.xsize (grid1.coords t) 1 = win1_2.xsize (grid1.coords t) 1
    ∧ win1_2.xsize (grid1.coords t) 1 = 64
    ∧ t.val * 8000 + win1_2.xsize (grid1.coords t) 0 = min (t.val * 8000 + 8000) 150000 :=
  (by decide +kernel : ∀ t : Fin grid1.N, _)

/-- Block `t` of each window starts at row `8000 t`, lane 0. -/
theorem index1 : ∀ t : Fin cfg1.N,
    win1_0.index t 0 = t.val ∧ win1_0.index t 1 = 0 ∧ win1_1.index t 0 = t.val ∧ win1_1.index t 1 = 0
    ∧ win1_2.index t 0 = t.val ∧ win1_2.index t 1 = 0 :=
  (by decide +kernel : ∀ t : Fin grid1.N, _)

/-- Contents that differ only off the part a fetch fills agree on it. -/
theorem fill_congr_moved1 {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- The entries the result's write-back moves are entries the two fetches fill. -/
theorem moved1 (t : Fin cfg1.N) (j : (win1_2.xblock (grid1.coords t)).Idx) :
    win1_0.moved (grid1.coords t) (win1_2.xinj (grid1.coords t) j) = true
    ∧ win1_1.moved (grid1.coords t) (win1_2.xinj (grid1.coords t) j) = true := by
  obtain ⟨h00, h01, h10, h11, -, -⟩ := xsize1 t
  have hj0 : (j 0).val < win1_2.xsize (grid1.coords t) 0 := (j 0).isLt
  have hj1 : (j 1).val < win1_2.xsize (grid1.coords t) 1 := (j 1).isLt
  refine ⟨(win1_0.moved_iff _ _).mpr fun a => ?_, (win1_1.moved_iff _ _).mpr fun a => ?_⟩
  · match a with
    | ⟨0, _⟩ => show (j 0).val < win1_0.xsize (grid1.coords t) 0; rw [h00]; exact hj0
    | ⟨1, _⟩ => show (j 1).val < win1_0.xsize (grid1.coords t) 1; rw [h01]; exact hj1
  · match a with
    | ⟨0, _⟩ => show (j 0).val < win1_1.xsize (grid1.coords t) 0; rw [h10]; exact hj0
    | ⟨1, _⟩ => show (j 1).val < win1_1.xsize (grid1.coords t) 1; rw [h11]; exact hj1

/-- On the rows the write-back moves, the stored tile does not depend on what the input buffers hold past the
    array's end. -/
theorem acc1_cut_pay (t : Fin cfg1.N) (d0 d0' d1 d1' : S8000x64.Idx → Elt F .f32)
    (b0 : (win1_0.xblock (grid1.coords t)).Idx → Elt F .f32) (b1 : (win1_1.xblock (grid1.coords t)).Idx → Elt F .f32) :
    win1_2.cut (grid1.coords t) (k1_pay1 (win1_0.fill (grid1.coords t) d0 b0) (win1_1.fill (grid1.coords t) d1 b1))
      = win1_2.cut (grid1.coords t) (k1_pay1 (win1_0.fill (grid1.coords t) d0' b0) (win1_1.fill (grid1.coords t) d1' b1)) := by
  funext j
  obtain ⟨m0, m1⟩ := moved1 t j
  show k1_pay1 _ _ (win1_2.xinj (grid1.coords t) j) = k1_pay1 _ _ (win1_2.xinj (grid1.coords t) j)
  rw [acc1_pay_apply, acc1_pay_apply,
    fill_congr_moved1 win1_0 _ d0 d0' b0 _ m0, fill_congr_moved1 win1_1 _ d1 d1' b1 _ m1]

section Region
variable (V : (c : Dev nD) → (b : Ref sig .tc) → Buf (Elt F) ((c : Thread nD τ).loc b))

/-! ## The windows' blocks and the proof data -/

/-- The block of the running total at point `t`: its part inside the array. -/
def ablk1 (c : Dev nD) (t : Fin cfg1.N) : (win1_0.xblock (grid1.coords t)).Idx → Elt F .f32 :=
  (win1_0.blk t).view.read (Elt F) (V c main_v0)
/-- The block of the new layer at point `t`: its part inside the array. -/
def xblk1 (c : Dev nD) (t : Fin cfg1.N) : (win1_1.xblock (grid1.coords t)).Idx → Elt F .f32 :=
  (win1_1.blk t).view.read (Elt F) (V c main_v12)

/-- The two input buffers after a fetch, with the rows past the array's end (the last point's) at the zero word. -/
def abuf1 (c : Dev nD) (t : Fin cfg1.N) : S8000x64.Idx → Elt F .f32 :=
  win1_0.fill (grid1.coords t) (fun _ => Scalar.ofBits .f32 0#32) (ablk1 V c t)
def xbuf1 (c : Dev nD) (t : Fin cfg1.N) : S8000x64.Idx → Elt F .f32 :=
  win1_1.fill (grid1.coords t) (fun _ => Scalar.ofBits .f32 0#32) (xblk1 V c t)

/-- The proof data of the pipeline: the arrays as the region finds them; after the body the inputs' buffers at
    their blocks and the result's at the scaled sum; the class invariant; nothing owed. -/
def dat1 (c : Dev nD) : Dat τ (Elt F) Unit ℕ (Pipeline.UD sig nD τ) ℕ cfg1 c where
  A w := V c (Pipeline.arrRef spec1 w)
  after w t := match w with
    | ⟨0, _⟩ => abuf1 V c t
    | ⟨1, _⟩ => xbuf1 V c t
    | ⟨2, _⟩ => k1_pay1 (abuf1 V c t) (xbuf1 V c t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = abuf1 V c t := by dsimp only [dat1]
theorem after1_1 (c : Dev nD) (t : Fin cfg1.N) : (dat1 V c).after 1 t = xbuf1 V c t := by dsimp only [dat1]
theorem after1_2 (c : Dev nD) (t : Fin cfg1.N) : (dat1 V c).after 2 t = k1_pay1 (abuf1 V c t) (xbuf1 V c t) := by dsimp only [dat1]

/-- An input buffer when the body runs: just fetched, its block on the rows inside the array. -/
theorem before1_0 (c : Dev nD) (t : Fin cfg1.N) (d) :
    (dat1 V c).before 0 t d = win1_0.fill (grid1.coords t) d (ablk1 V c t) := by
  unfold Dat.before; rw [if_pos (fetch1_0 t)]; unfold Dat.fetched Dat.blockOf ablk1; rw [A_eq1]
theorem before1_1 (c : Dev nD) (t : Fin cfg1.N) (d) :
    (dat1 V c).before 1 t d = win1_1.fill (grid1.coords t) d (xblk1 V c t) := by
  unfold Dat.before; rw [if_pos (fetch1_1 t)]; unfold Dat.fetched Dat.blockOf xblk1; rw [A_eq1]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: each buffer as the body left it on the rows its transfers move. -/
def bodyPost1 (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t)))))

/-- The body at any point: the two input buffers hold their blocks on the rows inside the array and anything past
    them; the stored tile on the moved rows is the same whatever that is. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  rw [before1_0 V c t d0, before1_1 V c t d1]
  iapply (sound_acc1 c Set.univ (grid1.coords t) _ _ _ _ _ _
    (win1_0.fill (grid1.coords t) d0 (ablk1 V c t)) (win1_1.fill (grid1.coords t) d1 (xblk1 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    unfold abuf1; rw [win1_0.cut_fill]; iexact H0
  isplitl [H1]
  · iexists d1
    unfold xbuf1; rw [win1_1.cut_fill]; iexact H1
  · iexists _
    unfold abuf1 xbuf1
    rw [← acc1_cut_pay t d0 _ d1 _ (ablk1 V c t) (xblk1 V c t), win1_2.fill_cut]; iexact H2

/-- The library's body obligation, at every point. -/
theorem body_obligation1 (c : Dev nD) : BodyObligationLoose (dat1 (F := F) V c) (defs₀ (F := F)) Variants.none () Set.univ := fun t => by
  rw [bigSep_W1, bigSep_W1]
  exact sound_body1 V c t

/-! ## The result array after the run -/

/-- Entry `y` of a window's block at point `t` is the entry of its array `8000 t` rows further down. -/
theorem ablk1_apply (c : Dev nD) (t : Fin cfg1.N) (y : (win1_0.xblock (grid1.coords t)).Idx) (k : S150000x64.Idx)
    (hk0 : (k 0).val = t.val * 8000 + (y 0).val) (hk1 : (k 1).val = (y 1).val) :
    ablk1 V c t y = (V c main_v0 : S150000x64.Idx → Elt F .f32) k := by
  obtain ⟨i00, i01, -⟩ := index1 t
  unfold ablk1
  rw [View.read_apply]
  show (V c main_v0 : S150000x64.Idx → Elt F .f32) _ = (V c main_v0 : S150000x64.Idx → Elt F .f32) _
  congr 1
  funext a
  apply Fin.ext
  match a with
  | ⟨0, _⟩ => show win1_0.index t 0 * 8000 + 1 * (y 0).val = (k 0).val; rw [i00, hk0]; omega
  | ⟨1, _⟩ => show win1_0.index t 1 * 64 + 1 * (y 1).val = (k 1).val; rw [i01, hk1]; omega

theorem xblk1_apply (c : Dev nD) (t : Fin cfg1.N) (y : (win1_1.xblock (grid1.coords t)).Idx) (k : S150000x64.Idx)
    (hk0 : (k 0).val = t.val * 8000 + (y 0).val) (hk1 : (k 1).val = (y 1).val) :
    xblk1 V c t y = (V c main_v12 : S150000x64.Idx → Elt F .f32) k := by
  obtain ⟨-, -, i10, i11, -⟩ := index1 t
  unfold xblk1
  rw [View.read_apply]
  show (V c main_v12 : S150000x64.Idx → Elt F .f32) _ = (V c main_v12 : S150000x64.Idx → Elt F .f32) _
  congr 1
  funext a
  apply Fin.ext
  match a with
  | ⟨0, _⟩ => show win1_1.index t 0 * 8000 + 1 * (y 0).val = (k 0).val; rw [i10, hk0]; omega
  | ⟨1, _⟩ => show win1_1.index t 1 * 64 + 1 * (y 1).val = (k 1).val; rw [i11, hk1]; omega

theorem oblk1_apply (G : S150000x64.Idx → Elt F .f32) (t : Fin cfg1.N) (y : (win1_2.xblock (grid1.coords t)).Idx) (k : S150000x64.Idx)
    (hk0 : (k 0).val = t.val * 8000 + (y 0).val) (hk1 : (k 1).val = (y 1).val) :
    (win1_2.blk t).view.read (Elt F) G y = G k := by
  obtain ⟨-, -, -, -, i20, i21⟩ := index1 t
  rw [View.read_apply]
  show G _ = G _
  congr 1
  funext a
  apply Fin.ext
  match a with
  | ⟨0, _⟩ => show win1_2.index t 0 * 8000 + 1 * (y 0).val = (k 0).val; rw [i20, hk0]; omega
  | ⟨1, _⟩ => show win1_2.index t 1 * 64 + 1 * (y 1).val = (k 1).val; rw [i21, hk1]; omega

/-- The accumulation step of the arrays the region finds: what its result array is shown to hold. -/
abbrev accOut1 (c : Dev nD) : S150000x64.Idx → Elt F .f32 :=
  Cert.Spec.accArr (F := F) (Scalar.ofBits .f32 0x3F800000#32) (V c main_v0 : S150000x64.Idx → Elt F .f32) (V c main_v12 : S150000x64.Idx → Elt F .f32)

/-- What point `t` writes back is block `t` of the accumulation step. -/
theorem flushed1 (c : Dev nD) (t : Fin cfg1.N) :
    (dat1 V c).flushed 2 t = ((cfg1.win 2).blk t).view.read (Elt F) (accOut1 V c) := by
  show win1_2.cut (grid1.coords t) ((dat1 V c).after 2 t) = (win1_2.blk t).view.read (Elt F) (accOut1 V c)
  rw [after1_2]
  funext j
  obtain ⟨-, -, -, -, h21, hx⟩ := xsize1 t
  obtain ⟨m0, m1⟩ := moved1 t j
  have hj0 : (j 0).val < win1_2.xsize (grid1.coords t) 0 := (j 0).isLt
  have hj1 : (j 1).val < win1_2.xsize (grid1.coords t) 1 := (j 1).isLt
  have hl : (j 1).val < 64 := lt_of_lt_of_le hj1 (win1_2.xsize_le _ 1)
  have hK : t.val * 8000 + (j 0).val < 150000 := by
    have := Nat.min_le_right (t.val * 8000 + 8000) 150000; omega
  show k1_pay1 _ _ (win1_2.xinj (grid1.coords t) j) = _
  rw [acc1_pay_apply]
  unfold abuf1 xbuf1 Pipeline.Window.fill
  rw [dif_pos m0, dif_pos m1,
    ablk1_apply V c t _ (ix2 (⟨t.val * 8000 + (j 0).val, hK⟩ : Fin 150000) (⟨(j 1).val, hl⟩ : Fin 64)) ?_ ?_,
    xblk1_apply V c t _ (ix2 (⟨t.val * 8000 + (j 0).val, hK⟩ : Fin 150000) (⟨(j 1).val, hl⟩ : Fin 64)) ?_ ?_,
    oblk1_apply (accOut1 V c) t j (ix2 (⟨t.val * 8000 + (j 0).val, hK⟩ : Fin 150000) (⟨(j 1).val, hl⟩ : Fin 64)) ?_ ?_]
  all_goals rfl

/-- Every entry of the result array lies in the block of the point its row belongs to. -/
theorem cover1 (i : S150000x64.Idx) :
    ∃ t : Fin cfg1.N, (cfg1.win 2).flush t = true ∧ i ∈ ((cfg1.win 2).blk t).view.set := by
  have hi0 : (i 0).val < 150000 := (i 0).isLt
  have hi1 : (i 1).val < 64 := (i 1).isLt
  obtain ⟨q, r, hr, hqr⟩ : ∃ q r, r < 8000 ∧ (i 0).val = q * 8000 + r :=
    ⟨(i 0).val / 8000, (i 0).val % 8000, Nat.mod_lt _ (by decide), by rw [Nat.mul_comm]; exact (Nat.div_add_mod _ _).symm⟩
  have hN : cfg1.N = 19 := N_1
  have hT : q < cfg1.N := by rw [hN]; omega
  refine ⟨⟨q, hT⟩, flush1_2 _, ?_⟩
  obtain ⟨-, -, -, -, h21, hx⟩ := xsize1 ⟨q, hT⟩
  obtain ⟨-, -, -, -, i20, i21⟩ := index1 ⟨q, hT⟩
  have i20' : win1_2.index ⟨q, hT⟩ 0 = q := i20
  show i ∈ ((View.whole main_v13).slice (win1_2.rect ⟨q, hT⟩)).set
  rw [View.set_slice_whole, Rect.mem_set_unit]
  intro a
  match a with
  | ⟨0, _⟩ =>
    show win1_2.index ⟨q, hT⟩ 0 * 8000 ≤ (i 0).val
      ∧ (i 0).val < win1_2.index ⟨q, hT⟩ 0 * 8000 + win1_2.xsize (grid1.coords ⟨q, hT⟩) 0
    rw [i20']
    have hx' : q * 8000 + win1_2.xsize (grid1.coords ⟨q, hT⟩) 0 = min (q * 8000 + 8000) 150000 := hx
    have hle := Nat.le_min.mpr (⟨by omega, by omega⟩ : (i 0).val + 1 ≤ q * 8000 + 8000 ∧ (i 0).val + 1 ≤ 150000)
    rw [← hx'] at hle
    exact ⟨by rw [hqr]; exact Nat.le_add_right _ _, hle⟩
  | ⟨1, _⟩ =>
    show win1_2.index ⟨q, hT⟩ 1 * 64 ≤ (i 1).val
      ∧ (i 1).val < win1_2.index ⟨q, hT⟩ 1 * 64 + win1_2.xsize (grid1.coords ⟨q, hT⟩) 1
    rw [i21, h21]; omega

/-- So the result array ends holding the accumulation step. -/
theorem final1 (c : Dev nD) : (dat1 V c).arrAt 2 cfg1.N = accOut1 V c :=
  (dat1 V c).arrAt_eq_of_cover 2 (accOut1 V c) (fun t _ => flushed1 V c t) cover1

end Region

end Cert.KernelIdeal.Hand

end
-- ==== Proof.IdealSide.Acc3.lean ====
import proofs.«142893_j63376537420313_1_alg».proof.Proof.Gen.KernelIdeal.Launch
import proofs.«142893_j63376537420313_1_alg».proof.Proof.Gen.KernelIdeal.Skeleton
import proofs.«142893_j63376537420313_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Tactic
import proofs.«142893_j63376537420313_1_alg».proof.Proof.Spec
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.ValueIdx

theorem hz2_3 : (![0, 0] : Fin 2 → Nat) = fun _ => 0 := funext fun a => by fin_cases a <;> rfl

/-! ## The accumulation kernel (region 3): one point's arithmetic -/

/-- What one point stores, entry by entry: the running total plus the new layer, times the kernel's scale. -/
theorem acc3_pay_apply (X0 X1 : Vec F S8000x64 .f32) (j : S8000x64.Idx) :
    k3_pay1 X0 X1 j = FloatOps.mulf (φ := .f32) (FloatOps.addf (φ := .f32) (X0 j) (X1 j)) (Scalar.ofBits .f32 0x3F800000#32) := by
  unfold k3_pay1
  show FloatOps.mulf (φ := .f32) (FloatOps.addf (φ := .f32) (shapeCast S8000x64 X0 _ j) (shapeCast S8000x64 X1 _ j)) _ = _
  rw [shapeCast_self, shapeCast_self]
  rfl

/-- The kernel body on whole staging buffers: it loads the tile of the running total and the tile of the new layer
    and stores their scaled sum into the result's buffer, whatever that held. -/
theorem sound_acc3 (c : Dev nD) (E : Set ℕ) (i : grid3.Coords)
    (arg1 : Memref sig .tc .vmem S8000x64 .f32) (harg1 : arg1.IsWhole)
    (arg2 : Memref sig .tc .vmem S8000x64 .f32) (harg2 : arg2.IsWhole)
    (arg3 : Memref sig .tc .vmem S8000x64 .f32) (harg3 : arg3.IsWhole)
    (x0 x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k3_pay1 x0 x1)) -∗ K ⟨⟩))
      ⊢ wp frame (wpE (defs₀ (F := F)) Variants.none c none) E (cc3__accum_kernel i arg1 harg1 arg2 harg2 arg3 harg3) K := by
  simp only [cc3__accum_kernel_eq_skeleton]; unfold cc3__accum_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz2_3 inb_S8000x64_S8000x64_0_0 y⟩),
    View.canon_unit_zero hz2_3, View.readAt_eq_ld, View.readAt_eq_ld, View.ld_unit_zero hz2_3, View.ld_unit_zero hz2_3]

/-! ## The schedule's arithmetic, decided over the grid -/

/-- At every point the three windows move the same rows, and every lane of their rows. -/
theorem xsize3 : ∀ t : Fin cfg3.N,
    win3_0.xsize (grid3.coords t) 0 = win3_2.xsize (grid3.coords t) 0 ∧ win3_0.xsize (grid3.coords t) 1 = win3_2.xsize (grid3.coords t) 1
    ∧ win3_1.xsize (grid3.coords t) 0 = win3_2.xsize (grid3.coords t) 0 ∧ win3_1.xsize (grid3.coords t) 1 = win3_2.xsize (grid3.coords t) 1
    ∧ win3_2.xsize (grid3.coords t) 1 = 64
    ∧ t.val * 8000 + win3_2.xsize (grid3.coords t) 0 = min (t.val * 8000 + 8000) 150000 :=
  (by decide +kernel : ∀ t : Fin grid3.N, _)

/-- Block `t` of each window starts at row `8000 t`, lane 0. -/
theorem index3 : ∀ t : Fin cfg3.N,
    win3_0.index t 0 = t.val ∧ win3_0.index t 1 = 0 ∧ win3_1.index t 0 = t.val ∧ win3_1.index t 1 = 0
    ∧ win3_2.index t 0 = t.val ∧ win3_2.index t 1 = 0 :=
  (by decide +kernel : ∀ t : Fin grid3.N, _)

/-- Contents that differ only off the part a fetch fills agree on it. -/
theorem fill_congr_moved3 {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- The entries the result's write-back moves are entries the two fetches fill. -/
theorem moved3 (t : Fin cfg3.N) (j : (win3_2.xblock (grid3.coords t)).Idx) :
    win3_0.moved (grid3.coords t) (win3_2.xinj (grid3.coords t) j) = true
    ∧ win3_1.moved (grid3.coords t) (win3_2.xinj (grid3.coords t) j) = true := by
  obtain ⟨h00, h01, h10, h11, -, -⟩ := xsize3 t
  have hj0 : (j 0).val < win3_2.xsize (grid3.coords t) 0 := (j 0).isLt
  have hj1 : (j 1).val < win3_2.xsize (grid3.coords t) 1 := (j 1).isLt
  refine ⟨(win3_0.moved_iff _ _).mpr fun a => ?_, (win3_1.moved_iff _ _).mpr fun a => ?_⟩
  · match a with
    | ⟨0, _⟩ => show (j 0).val < win3_0.xsize (grid3.coords t) 0; rw [h00]; exact hj0
    | ⟨1, _⟩ => show (j 1).val < win3_0.xsize (grid3.coords t) 1; rw [h01]; exact hj1
  · match a with
    | ⟨0, _⟩ => show (j 0).val < win3_1.xsize (grid3.coords t) 0; rw [h10]; exact hj0
    | ⟨1, _⟩ => show (j 1).val < win3_1.xsize (grid3.coords t) 1; rw [h11]; exact hj1

/-- On the rows the write-back moves, the stored tile does not depend on what the input buffers hold past the
    array's end. -/
theorem acc3_cut_pay (t : Fin cfg3.N) (d0 d0' d1 d1' : S8000x64.Idx → Elt F .f32)
    (b0 : (win3_0.xblock (grid3.coords t)).Idx → Elt F .f32) (b1 : (win3_1.xblock (grid3.coords t)).Idx → Elt F .f32) :
    win3_2.cut (grid3.coords t) (k3_pay1 (win3_0.fill (grid3.coords t) d0 b0) (win3_1.fill (grid3.coords t) d1 b1))
      = win3_2.cut (grid3.coords t) (k3_pay1 (win3_0.fill (grid3.coords t) d0' b0) (win3_1.fill (grid3.coords t) d1' b1)) := by
  funext j
  obtain ⟨m0, m1⟩ := moved3 t j
  show k3_pay1 _ _ (win3_2.xinj (grid3.coords t) j) = k3_pay1 _ _ (win3_2.xinj (grid3.coords t) j)
  rw [acc3_pay_apply, acc3_pay_apply,
    fill_congr_moved3 win3_0 _ d0 d0' b0 _ m0, fill_congr_moved3 win3_1 _ d1 d1' b1 _ m1]

section Region
variable (V : (c : Dev nD) → (b : Ref sig .tc) → Buf (Elt F) ((c : Thread nD τ).loc b))

/-! ## The windows' blocks and the proof data -/

/-- The block of the running total at point `t`: its part inside the array. -/
def ablk3 (c : Dev nD) (t : Fin cfg3.N) : (win3_0.xblock (grid3.coords t)).Idx → Elt F .f32 :=
  (win3_0.blk t).view.read (Elt F) (V c main_v13)
/-- The block of the new layer at point `t`: its part inside the array. -/
def xblk3 (c : Dev nD) (t : Fin cfg3.N) : (win3_1.xblock (grid3.coords t)).Idx → Elt F .f32 :=
  (win3_1.blk t).view.read (Elt F) (V c main_v24)

/-- The two input buffers after a fetch, with the rows past the array's end (the last point's) at the zero word. -/
def abuf3 (c : Dev nD) (t : Fin cfg3.N) : S8000x64.Idx → Elt F .f32 :=
  win3_0.fill (grid3.coords t) (fun _ => Scalar.ofBits .f32 0#32) (ablk3 V c t)
def xbuf3 (c : Dev nD) (t : Fin cfg3.N) : S8000x64.Idx → Elt F .f32 :=
  win3_1.fill (grid3.coords t) (fun _ => Scalar.ofBits .f32 0#32) (xblk3 V c t)

/-- The proof data of the pipeline: the arrays as the region finds them; after the body the inputs' buffers at
    their blocks and the result's at the scaled sum; the class invariant; nothing owed. -/
def dat3 (c : Dev nD) : Dat τ (Elt F) Unit ℕ (Pipeline.UD sig nD τ) ℕ cfg3 c where
  A w := V c (Pipeline.arrRef spec3 w)
  after w t := match w with
    | ⟨0, _⟩ => abuf3 V c t
    | ⟨1, _⟩ => xbuf3 V c t
    | ⟨2, _⟩ => k3_pay1 (abuf3 V c t) (xbuf3 V c t)
  Φ _ := Pipeline.ΦA spec3 c
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = abuf3 V c t := by dsimp only [dat3]
theorem after3_1 (c : Dev nD) (t : Fin cfg3.N) : (dat3 V c).after 1 t = xbuf3 V c t := by dsimp only [dat3]
theorem after3_2 (c : Dev nD) (t : Fin cfg3.N) : (dat3 V c).after 2 t = k3_pay1 (abuf3 V c t) (xbuf3 V c t) := by dsimp only [dat3]

/-- An input buffer when the body runs: just fetched, its block on the rows inside the array. -/
theorem before3_0 (c : Dev nD) (t : Fin cfg3.N) (d) :
    (dat3 V c).before 0 t d = win3_0.fill (grid3.coords t) d (ablk3 V c t) := by
  unfold Dat.before; rw [if_pos (fetch3_0 t)]; unfold Dat.fetched Dat.blockOf ablk3; rw [A_eq3]
theorem before3_1 (c : Dev nD) (t : Fin cfg3.N) (d) :
    (dat3 V c).before 1 t d = win3_1.fill (grid3.coords t) d (xblk3 V c t) := by
  unfold Dat.before; rw [if_pos (fetch3_1 t)]; unfold Dat.fetched Dat.blockOf xblk3; rw [A_eq3]

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns: each buffer as the body left it on the rows its transfers move. -/
def bodyPost3 (c : Dev nD) (t : Fin cfg3.N) : sProp 𝕄 :=
  iprop((dat3 V c).Φ t.succ ∗ (dat3 V c).owesAt () t.succ
    ∗ (∃ d, owns (c : Thread nD τ) (st3_0 t) fullShare (win3_0.fill (grid3.coords t) d (win3_0.cut (grid3.coords t) ((dat3 V c).after 0 t))))
    ∗ (∃ d, owns (c : Thread nD τ) (st3_1 t) fullShare (win3_1.fill (grid3.coords t) d (win3_1.cut (grid3.coords t) ((dat3 V c).after 1 t))))
    ∗ (∃ d, owns (c : Thread nD τ) (st3_2 t) fullShare (win3_2.fill (grid3.coords t) d (win3_2.cut (grid3.coords t) ((dat3 V c).after 2 t)))))

/-- The body at any point: the two input buffers hold their blocks on the rows inside the array and anything past
    them; the stored tile on the moved rows is the same whatever that is. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  rw [before3_0 V c t d0, before3_1 V c t d1]
  iapply (sound_acc3 c Set.univ (grid3.coords t) _ _ _ _ _ _
    (win3_0.fill (grid3.coords t) d0 (ablk3 V c t)) (win3_1.fill (grid3.coords t) d1 (xblk3 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    unfold abuf3; rw [win3_0.cut_fill]; iexact H0
  isplitl [H1]
  · iexists d1
    unfold xbuf3; rw [win3_1.cut_fill]; iexact H1
  · iexists _
    unfold abuf3 xbuf3
    rw [← acc3_cut_pay t d0 _ d1 _ (ablk3 V c t) (xblk3 V c t), win3_2.fill_cut]; iexact H2

/-- The library's body obligation, at every point. -/
theorem body_obligation3 (c : Dev nD) : BodyObligationLoose (dat3 (F := F) V c) (defs₀ (F := F)) Variants.none () Set.univ := fun t => by
  rw [bigSep_W3, bigSep_W3]
  exact sound_body3 V c t

/-! ## The result array after the run -/

/-- Entry `y` of a window's block at point `t` is the entry of its array `8000 t` rows further down. -/
theorem ablk3_apply (c : Dev nD) (t : Fin cfg3.N) (y : (win3_0.xblock (grid3.coords t)).Idx) (k : S150000x64.Idx)
    (hk0 : (k 0).val = t.val * 8000 + (y 0).val) (hk1 : (k 1).val = (y 1).val) :
    ablk3 V c t y = (V c main_v13 : S150000x64.Idx → Elt F .f32) k := by
  obtain ⟨i00, i01, -⟩ := index3 t
  unfold ablk3
  rw [View.read_apply]
  show (V c main_v13 : S150000x64.Idx → Elt F .f32) _ = (V c main_v13 : S150000x64.Idx → Elt F .f32) _
  congr 1
  funext a
  apply Fin.ext
  match a with
  | ⟨0, _⟩ => show win3_0.index t 0 * 8000 + 1 * (y 0).val = (k 0).val; rw [i00, hk0]; omega
  | ⟨1, _⟩ => show win3_0.index t 1 * 64 + 1 * (y 1).val = (k 1).val; rw [i01, hk1]; omega

theorem xblk3_apply (c : Dev nD) (t : Fin cfg3.N) (y : (win3_1.xblock (grid3.coords t)).Idx) (k : S150000x64.Idx)
    (hk0 : (k 0).val = t.val * 8000 + (y 0).val) (hk1 : (k 1).val = (y 1).val) :
    xblk3 V c t y = (V c main_v24 : S150000x64.Idx → Elt F .f32) k := by
  obtain ⟨-, -, i10, i11, -⟩ := index3 t
  unfold xblk3
  rw [View.read_apply]
  show (V c main_v24 : S150000x64.Idx → Elt F .f32) _ = (V c main_v24 : S150000x64.Idx → Elt F .f32) _
  congr 1
  funext a
  apply Fin.ext
  match a with
  | ⟨0, _⟩ => show win3_1.index t 0 * 8000 + 1 * (y 0).val = (k 0).val; rw [i10, hk0]; omega
  | ⟨1, _⟩ => show win3_1.index t 1 * 64 + 1 * (y 1).val = (k 1).val; rw [i11, hk1]; omega

theorem oblk3_apply (G : S150000x64.Idx → Elt F .f32) (t : Fin cfg3.N) (y : (win3_2.xblock (grid3.coords t)).Idx) (k : S150000x64.Idx)
    (hk0 : (k 0).val = t.val * 8000 + (y 0).val) (hk1 : (k 1).val = (y 1).val) :
    (win3_2.blk t).view.read (Elt F) G y = G k := by
  obtain ⟨-, -, -, -, i20, i21⟩ := index3 t
  rw [View.read_apply]
  show G _ = G _
  congr 1
  funext a
  apply Fin.ext
  match a with
  | ⟨0, _⟩ => show win3_2.index t 0 * 8000 + 1 * (y 0).val = (k 0).val; rw [i20, hk0]; omega
  | ⟨1, _⟩ => show win3_2.index t 1 * 64 + 1 * (y 1).val = (k 1).val; rw [i21, hk1]; omega

/-- The accumulation step of the arrays the region finds: what its result array is shown to hold. -/
abbrev accOut3 (c : Dev nD) : S150000x64.Idx → Elt F .f32 :=
  Cert.Spec.accArr (F := F) (Scalar.ofBits .f32 0x3F800000#32) (V c main_v13 : S150000x64.Idx → Elt F .f32) (V c main_v24 : S150000x64.Idx → Elt F .f32)

/-- What point `t` writes back is block `t` of the accumulation step. -/
theorem flushed3 (c : Dev nD) (t : Fin cfg3.N) :
    (dat3 V c).flushed 2 t = ((cfg3.win 2).blk t).view.read (Elt F) (accOut3 V c) := by
  show win3_2.cut (grid3.coords t) ((dat3 V c).after 2 t) = (win3_2.blk t).view.read (Elt F) (accOut3 V c)
  rw [after3_2]
  funext j
  obtain ⟨-, -, -, -, h21, hx⟩ := xsize3 t
  obtain ⟨m0, m1⟩ := moved3 t j
  have hj0 : (j 0).val < win3_2.xsize (grid3.coords t) 0 := (j 0).isLt
  have hj1 : (j 1).val < win3_2.xsize (grid3.coords t) 1 := (j 1).isLt
  have hl : (j 1).val < 64 := lt_of_lt_of_le hj1 (win3_2.xsize_le _ 1)
  have hK : t.val * 8000 + (j 0).val < 150000 := by
    have := Nat.min_le_right (t.val * 8000 + 8000) 150000; omega
  show k3_pay1 _ _ (win3_2.xinj (grid3.coords t) j) = _
  rw [acc3_pay_apply]
  unfold abuf3 xbuf3 Pipeline.Window.fill
  rw [dif_pos m0, dif_pos m1,
    ablk3_apply V c t _ (ix2 (⟨t.val * 8000 + (j 0).val, hK⟩ : Fin 150000) (⟨(j 1).val, hl⟩ : Fin 64)) ?_ ?_,
    xblk3_apply V c t _ (ix2 (⟨t.val * 8000 + (j 0).val, hK⟩ : Fin 150000) (⟨(j 1).val, hl⟩ : Fin 64)) ?_ ?_,
    oblk3_apply (accOut3 V c) t j (ix2 (⟨t.val * 8000 + (j 0).val, hK⟩ : Fin 150000) (⟨(j 1).val, hl⟩ : Fin 64)) ?_ ?_]
  all_goals rfl

/-- Every entry of the result array lies in the block of the point its row belongs to. -/
theorem cover3 (i : S150000x64.Idx) :
    ∃ t : Fin cfg3.N, (cfg3.win 2).flush t = true ∧ i ∈ ((cfg3.win 2).blk t).view.set := by
  have hi0 : (i 0).val < 150000 := (i 0).isLt
  have hi1 : (i 1).val < 64 := (i 1).isLt
  obtain ⟨q, r, hr, hqr⟩ : ∃ q r, r < 8000 ∧ (i 0).val = q * 8000 + r :=
    ⟨(i 0).val / 8000, (i 0).val % 8000, Nat.mod_lt _ (by decide), by rw [Nat.mul_comm]; exact (Nat.div_add_mod _ _).symm⟩
  have hN : cfg3.N = 19 := N_3
  have hT : q < cfg3.N := by rw [hN]; omega
  refine ⟨⟨q, hT⟩, flush3_2 _, ?_⟩
  obtain ⟨-, -, -, -, h21, hx⟩ := xsize3 ⟨q, hT⟩
  obtain ⟨-, -, -, -, i20, i21⟩ := index3 ⟨q, hT⟩
  have i20' : win3_2.index ⟨q, hT⟩ 0 = q := i20
  show i ∈ ((View.whole main_v25).slice (win3_2.rect ⟨q, hT⟩)).set
  rw [View.set_slice_whole, Rect.mem_set_unit]
  intro a
  match a with
  | ⟨0, _⟩ =>
    show win3_2.index ⟨q, hT⟩ 0 * 8000 ≤ (i 0).val
      ∧ (i 0).val < win3_2.index ⟨q, hT⟩ 0 * 8000 + win3_2.xsize (grid3.coords ⟨q, hT⟩) 0
    rw [i20']
    have hx' : q * 8000 + win3_2.xsize (grid3.coords ⟨q, hT⟩) 0 = min (q * 8000 + 8000) 150000 := hx
    have hle := Nat.le_min.mpr (⟨by omega, by omega⟩ : (i 0).val + 1 ≤ q * 8000 + 8000 ∧ (i 0).val + 1 ≤ 150000)
    rw [← hx'] at hle
    exact ⟨by rw [hqr]; exact Nat.le_add_right _ _, hle⟩
  | ⟨1, _⟩ =>
    show win3_2.index ⟨q, hT⟩ 1 * 64 ≤ (i 1).val
      ∧ (i 1).val < win3_2.index ⟨q, hT⟩ 1 * 64 + win3_2.xsize (grid3.coords ⟨q, hT⟩) 1
    rw [i21, h21]; omega

/-- So the result array ends holding the accumulation step. -/
theorem final3 (c : Dev nD) : (dat3 V c).arrAt 2 cfg3.N = accOut3 V c :=
  (dat3 V c).arrAt_eq_of_cover 2 (accOut3 V c) (fun t _ => flushed3 V c t) cover3

end Region

end Cert.KernelIdeal.Hand

end
-- ==== Proof.IdealSide.Acc5.lean ====
import proofs.«142893_j63376537420313_1_alg».proof.Proof.Gen.KernelIdeal.Launch
import proofs.«142893_j63376537420313_1_alg».proof.Proof.Gen.KernelIdeal.Skeleton
import proofs.«142893_j63376537420313_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Tactic
import proofs.«142893_j63376537420313_1_alg».proof.Proof.Spec
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.ValueIdx

theorem hz2_5 : (![0, 0] : Fin 2 → Nat) = fun _ => 0 := funext fun a => by fin_cases a <;> rfl

/-! ## The accumulation kernel (region 5): one point's arithmetic -/

/-- What one point stores, entry by entry: the running total plus the new layer, times the kernel's scale. -/
theorem acc5_pay_apply (X0 X1 : Vec F S8000x64 .f32) (j : S8000x64.Idx) :
    k5_pay1 X0 X1 j = FloatOps.mulf (φ := .f32) (FloatOps.addf (φ := .f32) (X0 j) (X1 j)) (Scalar.ofBits .f32 0x3E800000#32) := by
  unfold k5_pay1
  show FloatOps.mulf (φ := .f32) (FloatOps.addf (φ := .f32) (shapeCast S8000x64 X0 _ j) (shapeCast S8000x64 X1 _ j)) _ = _
  rw [shapeCast_self, shapeCast_self]
  rfl

/-- The kernel body on whole staging buffers: it loads the tile of the running total and the tile of the new layer
    and stores their scaled sum into the result's buffer, whatever that held. -/
theorem sound_acc5 (c : Dev nD) (E : Set ℕ) (i : grid5.Coords)
    (arg1 : Memref sig .tc .vmem S8000x64 .f32) (harg1 : arg1.IsWhole)
    (arg2 : Memref sig .tc .vmem S8000x64 .f32) (harg2 : arg2.IsWhole)
    (arg3 : Memref sig .tc .vmem S8000x64 .f32) (harg3 : arg3.IsWhole)
    (x0 x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (k5_pay1 x0 x1)) -∗ K ⟨⟩))
      ⊢ wp frame (wpE (defs₀ (F := F)) Variants.none c none) E (cc5__accum_kernel i arg1 harg1 arg2 harg2 arg3 harg3) K := by
  simp only [cc5__accum_kernel_eq_skeleton]; unfold cc5__accum_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz2_5 inb_S8000x64_S8000x64_0_0 y⟩),
    View.canon_unit_zero hz2_5, View.readAt_eq_ld, View.readAt_eq_ld, View.ld_unit_zero hz2_5, View.ld_unit_zero hz2_5]

/-! ## The schedule's arithmetic, decided over the grid -/

/-- At every point the three windows move the same rows, and every lane of their rows. -/
theorem xsize5 : ∀ t : Fin cfg5.N,
    win5_0.xsize (grid5.coords t) 0 = win5_2.xsize (grid5.coords t) 0 ∧ win5_0.xsize (grid5.coords t) 1 = win5_2.xsize (grid5.coords t) 1
    ∧ win5_1.xsize (grid5.coords t) 0 = win5_2.xsize (grid5.coords t) 0 ∧ win5_1.xsize (grid5.coords t) 1 = win5_2.xsize (grid5.coords t) 1
    ∧ win5_2.xsize (grid5.coords t) 1 = 64
    ∧ t.val * 8000 + win5_2.xsize (grid5.coords t) 0 = min (t.val * 8000 + 8000) 150000 :=
  (by decide +kernel : ∀ t : Fin grid5.N, _)

/-- Block `t` of each window starts at row `8000 t`, lane 0. -/
theorem index5 : ∀ t : Fin cfg5.N,
    win5_0.index t 0 = t.val ∧ win5_0.index t 1 = 0 ∧ win5_1.index t 0 = t.val ∧ win5_1.index t 1 = 0
    ∧ win5_2.index t 0 = t.val ∧ win5_2.index t 1 = 0 :=
  (by decide +kernel : ∀ t : Fin grid5.N, _)

/-- Contents that differ only off the part a fetch fills agree on it. -/
theorem fill_congr_moved5 {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- The entries the result's write-back moves are entries the two fetches fill. -/
theorem moved5 (t : Fin cfg5.N) (j : (win5_2.xblock (grid5.coords t)).Idx) :
    win5_0.moved (grid5.coords t) (win5_2.xinj (grid5.coords t) j) = true
    ∧ win5_1.moved (grid5.coords t) (win5_2.xinj (grid5.coords t) j) = true := by
  obtain ⟨h00, h01, h10, h11, -, -⟩ := xsize5 t
  have hj0 : (j 0).val < win5_2.xsize (grid5.coords t) 0 := (j 0).isLt
  have hj1 : (j 1).val < win5_2.xsize (grid5.coords t) 1 := (j 1).isLt
  refine ⟨(win5_0.moved_iff _ _).mpr fun a => ?_, (win5_1.moved_iff _ _).mpr fun a => ?_⟩
  · match a with
    | ⟨0, _⟩ => show (j 0).val < win5_0.xsize (grid5.coords t) 0; rw [h00]; exact hj0
    | ⟨1, _⟩ => show (j 1).val < win5_0.xsize (grid5.coords t) 1; rw [h01]; exact hj1
  · match a with
    | ⟨0, _⟩ => show (j 0).val < win5_1.xsize (grid5.coords t) 0; rw [h10]; exact hj0
    | ⟨1, _⟩ => show (j 1).val < win5_1.xsize (grid5.coords t) 1; rw [h11]; exact hj1

/-- On the rows the write-back moves, the stored tile does not depend on what the input buffers hold past the
    array's end. -/
theorem acc5_cut_pay (t : Fin cfg5.N) (d0 d0' d1 d1' : S8000x64.Idx → Elt F .f32)
    (b0 : (win5_0.xblock (grid5.coords t)).Idx → Elt F .f32) (b1 : (win5_1.xblock (grid5.coords t)).Idx → Elt F .f32) :
    win5_2.cut (grid5.coords t) (k5_pay1 (win5_0.fill (grid5.coords t) d0 b0) (win5_1.fill (grid5.coords t) d1 b1))
      = win5_2.cut (grid5.coords t) (k5_pay1 (win5_0.fill (grid5.coords t) d0' b0) (win5_1.fill (grid5.coords t) d1' b1)) := by
  funext j
  obtain ⟨m0, m1⟩ := moved5 t j
  show k5_pay1 _ _ (win5_2.xinj (grid5.coords t) j) = k5_pay1 _ _ (win5_2.xinj (grid5.coords t) j)
  rw [acc5_pay_apply, acc5_pay_apply,
    fill_congr_moved5 win5_0 _ d0 d0' b0 _ m0, fill_congr_moved5 win5_1 _ d1 d1' b1 _ m1]

section Region
variable (V : (c : Dev nD) → (b : Ref sig .tc) → Buf (Elt F) ((c : Thread nD τ).loc b))

/-! ## The windows' blocks and the proof data -/

/-- The block of the running total at point `t`: its part inside the array. -/
def ablk5 (c : Dev nD) (t : Fin cfg5.N) : (win5_0.xblock (grid5.coords t)).Idx → Elt F .f32 :=
  (win5_0.blk t).view.read (Elt F) (V c main_v25)
/-- The block of the new layer at point `t`: its part inside the array. -/
def xblk5 (c : Dev nD) (t : Fin cfg5.N) : (win5_1.xblock (grid5.coords t)).Idx → Elt F .f32 :=
  (win5_1.blk t).view.read (Elt F) (V c main_v36)

/-- The two input buffers after a fetch, with the rows past the array's end (the last point's) at the zero word. -/
def abuf5 (c : Dev nD) (t : Fin cfg5.N) : S8000x64.Idx → Elt F .f32 :=
  win5_0.fill (grid5.coords t) (fun _ => Scalar.ofBits .f32 0#32) (ablk5 V c t)
def xbuf5 (c : Dev nD) (t : Fin cfg5.N) : S8000x64.Idx → Elt F .f32 :=
  win5_1.fill (grid5.coords t) (fun _ => Scalar.ofBits .f32 0#32) (xblk5 V c t)

/-- The proof data of the pipeline: the arrays as the region finds them; after the body the inputs' buffers at
    their blocks and the result's at the scaled sum; the class invariant; nothing owed. -/
def dat5 (c : Dev nD) : Dat τ (Elt F) Unit ℕ (Pipeline.UD sig nD τ) ℕ cfg5 c where
  A w := V c (Pipeline.arrRef spec5 w)
  after w t := match w with
    | ⟨0, _⟩ => abuf5 V c t
    | ⟨1, _⟩ => xbuf5 V c t
    | ⟨2, _⟩ => k5_pay1 (abuf5 V c t) (xbuf5 V c t)
  Φ _ := Pipeline.ΦA spec5 c
  q _ := fullShare
  owed _ := 0

theorem A_eq5 (c : Dev nD) (w : Fin cfg5.W) : (dat5 V c).A w = V c (Pipeline.arrRef spec5 w) := by dsimp only [dat5]
theorem after5_0 (c : Dev nD) (t : Fin cfg5.N) : (dat5 V c).after 0 t = abuf5 V c t := by dsimp only [dat5]
theorem after5_1 (c : Dev nD) (t : Fin cfg5.N) : (dat5 V c).after 1 t = xbuf5 V c t := by dsimp only [dat5]
theorem after5_2 (c : Dev nD) (t : Fin cfg5.N) : (dat5 V c).after 2 t = k5_pay1 (abuf5 V c t) (xbuf5 V c t) := by dsimp only [dat5]

/-- An input buffer when the body runs: just fetched, its block on the rows inside the array. -/
theorem before5_0 (c : Dev nD) (t : Fin cfg5.N) (d) :
    (dat5 V c).before 0 t d = win5_0.fill (grid5.coords t) d (ablk5 V c t) := by
  unfold Dat.before; rw [if_pos (fetch5_0 t)]; unfold Dat.fetched Dat.blockOf ablk5; rw [A_eq5]
theorem before5_1 (c : Dev nD) (t : Fin cfg5.N) (d) :
    (dat5 V c).before 1 t d = win5_1.fill (grid5.coords t) d (xblk5 V c t) := by
  unfold Dat.before; rw [if_pos (fetch5_1 t)]; unfold Dat.fetched Dat.blockOf xblk5; rw [A_eq5]

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns: each buffer as the body left it on the rows its transfers move. -/
def bodyPost5 (c : Dev nD) (t : Fin cfg5.N) : sProp 𝕄 :=
  iprop((dat5 V c).Φ t.succ ∗ (dat5 V c).owesAt () t.succ
    ∗ (∃ d, owns (c : Thread nD τ) (st5_0 t) fullShare (win5_0.fill (grid5.coords t) d (win5_0.cut (grid5.coords t) ((dat5 V c).after 0 t))))
    ∗ (∃ d, owns (c : Thread nD τ) (st5_1 t) fullShare (win5_1.fill (grid5.coords t) d (win5_1.cut (grid5.coords t) ((dat5 V c).after 1 t))))
    ∗ (∃ d, owns (c : Thread nD τ) (st5_2 t) fullShare (win5_2.fill (grid5.coords t) d (win5_2.cut (grid5.coords t) ((dat5 V c).after 2 t)))))

/-- The body at any point: the two input buffers hold their blocks on the rows inside the array and anything past
    them; the stored tile on the moved rows is the same whatever that is. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  rw [before5_0 V c t d0, before5_1 V c t d1]
  iapply (sound_acc5 c Set.univ (grid5.coords t) _ _ _ _ _ _
    (win5_0.fill (grid5.coords t) d0 (ablk5 V c t)) (win5_1.fill (grid5.coords t) d1 (xblk5 V c t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    unfold abuf5; rw [win5_0.cut_fill]; iexact H0
  isplitl [H1]
  · iexists d1
    unfold xbuf5; rw [win5_1.cut_fill]; iexact H1
  · iexists _
    unfold abuf5 xbuf5
    rw [← acc5_cut_pay t d0 _ d1 _ (ablk5 V c t) (xblk5 V c t), win5_2.fill_cut]; iexact H2

/-- The library's body obligation, at every point. -/
theorem body_obligation5 (c : Dev nD) : BodyObligationLoose (dat5 (F := F) V c) (defs₀ (F := F)) Variants.none () Set.univ := fun t => by
  rw [bigSep_W5, bigSep_W5]
  exact sound_body5 V c t

/-! ## The result array after the run -/

/-- Entry `y` of a window's block at point `t` is the entry of its array `8000 t` rows further down. -/
theorem ablk5_apply (c : Dev nD) (t : Fin cfg5.N) (y : (win5_0.xblock (grid5.coords t)).Idx) (k : S150000x64.Idx)
    (hk0 : (k 0).val = t.val * 8000 + (y 0).val) (hk1 : (k 1).val = (y 1).val) :
    ablk5 V c t y = (V c main_v25 : S150000x64.Idx → Elt F .f32) k := by
  obtain ⟨i00, i01, -⟩ := index5 t
  unfold ablk5
  rw [View.read_apply]
  show (V c main_v25 : S150000x64.Idx → Elt F .f32) _ = (V c main_v25 : S150000x64.Idx → Elt F .f32) _
  congr 1
  funext a
  apply Fin.ext
  match a with
  | ⟨0, _⟩ => show win5_0.index t 0 * 8000 + 1 * (y 0).val = (k 0).val; rw [i00, hk0]; omega
  | ⟨1, _⟩ => show win5_0.index t 1 * 64 + 1 * (y 1).val = (k 1).val; rw [i01, hk1]; omega

theorem xblk5_apply (c : Dev nD) (t : Fin cfg5.N) (y : (win5_1.xblock (grid5.coords t)).Idx) (k : S150000x64.Idx)
    (hk0 : (k 0).val = t.val * 8000 + (y 0).val) (hk1 : (k 1).val = (y 1).val) :
    xblk5 V c t y = (V c main_v36 : S150000x64.Idx → Elt F .f32) k := by
  obtain ⟨-, -, i10, i11, -⟩ := index5 t
  unfold xblk5
  rw [View.read_apply]
  show (V c main_v36 : S150000x64.Idx → Elt F .f32) _ = (V c main_v36 : S150000x64.Idx → Elt F .f32) _
  congr 1
  funext a
  apply Fin.ext
  match a with
  | ⟨0, _⟩ => show win5_1.index t 0 * 8000 + 1 * (y 0).val = (k 0).val; rw [i10, hk0]; omega
  | ⟨1, _⟩ => show win5_1.index t 1 * 64 + 1 * (y 1).val = (k 1).val; rw [i11, hk1]; omega

theorem oblk5_apply (G : S150000x64.Idx → Elt F .f32) (t : Fin cfg5.N) (y : (win5_2.xblock (grid5.coords t)).Idx) (k : S150000x64.Idx)
    (hk0 : (k 0).val = t.val * 8000 + (y 0).val) (hk1 : (k 1).val = (y 1).val) :
    (win5_2.blk t).view.read (Elt F) G y = G k := by
  obtain ⟨-, -, -, -, i20, i21⟩ := index5 t
  rw [View.read_apply]
  show G _ = G _
  congr 1
  funext a
  apply Fin.ext
  match a with
  | ⟨0, _⟩ => show win5_2.index t 0 * 8000 + 1 * (y 0).val = (k 0).val; rw [i20, hk0]; omega
  | ⟨1, _⟩ => show win5_2.index t 1 * 64 + 1 * (y 1).val = (k 1).val; rw [i21, hk1]; omega

/-- The accumulation step of the arrays the region finds: what its result array is shown to hold. -/
abbrev accOut5 (c : Dev nD) : S150000x64.Idx → Elt F .f32 :=
  Cert.Spec.accArr (F := F) (Scalar.ofBits .f32 0x3E800000#32) (V c main_v25 : S150000x64.Idx → Elt F .f32) (V c main_v36 : S150000x64.Idx → Elt F .f32)

/-- What point `t` writes back is block `t` of the accumulation step. -/
theorem flushed5 (c : Dev nD) (t : Fin cfg5.N) :
    (dat5 V c).flushed 2 t = ((cfg5.win 2).blk t).view.read (Elt F) (accOut5 V c) := by
  show win5_2.cut (grid5.coords t) ((dat5 V c).after 2 t) = (win5_2.blk t).view.read (Elt F) (accOut5 V c)
  rw [after5_2]
  funext j
  obtain ⟨-, -, -, -, h21, hx⟩ := xsize5 t
  obtain ⟨m0, m1⟩ := moved5 t j
  have hj0 : (j 0).val < win5_2.xsize (grid5.coords t) 0 := (j 0).isLt
  have hj1 : (j 1).val < win5_2.xsize (grid5.coords t) 1 := (j 1).isLt
  have hl : (j 1).val < 64 := lt_of_lt_of_le hj1 (win5_2.xsize_le _ 1)
  have hK : t.val * 8000 + (j 0).val < 150000 := by
    have := Nat.min_le_right (t.val * 8000 + 8000) 150000; omega
  show k5_pay1 _ _ (win5_2.xinj (grid5.coords t) j) = _
  rw [acc5_pay_apply]
  unfold abuf5 xbuf5 Pipeline.Window.fill
  rw [dif_pos m0, dif_pos m1,
    ablk5_apply V c t _ (ix2 (⟨t.val * 8000 + (j 0).val, hK⟩ : Fin 150000) (⟨(j 1).val, hl⟩ : Fin 64)) ?_ ?_,
    xblk5_apply V c t _ (ix2 (⟨t.val * 8000 + (j 0).val, hK⟩ : Fin 150000) (⟨(j 1).val, hl⟩ : Fin 64)) ?_ ?_,
    oblk5_apply (accOut5 V c) t j (ix2 (⟨t.val * 8000 + (j 0).val, hK⟩ : Fin 150000) (⟨(j 1).val, hl⟩ : Fin 64)) ?_ ?_]
  all_goals rfl

/-- Every entry of the result array lies in the block of the point its row belongs to. -/
theorem cover5 (i : S150000x64.Idx) :
    ∃ t : Fin cfg5.N, (cfg5.win 2).flush t = true ∧ i ∈ ((cfg5.win 2).blk t).view.set := by
  have hi0 : (i 0).val < 150000 := (i 0).isLt
  have hi1 : (i 1).val < 64 := (i 1).isLt
  obtain ⟨q, r, hr, hqr⟩ : ∃ q r, r < 8000 ∧ (i 0).val = q * 8000 + r :=
    ⟨(i 0).val / 8000, (i 0).val % 8000, Nat.mod_lt _ (by decide), by rw [Nat.mul_comm]; exact (Nat.div_add_mod _ _).symm⟩
  have hN : cfg5.N = 19 := N_5
  have hT : q < cfg5.N := by rw [hN]; omega
  refine ⟨⟨q, hT⟩, flush5_2 _, ?_⟩
  obtain ⟨-, -, -, -, h21, hx⟩ := xsize5 ⟨q, hT⟩
  obtain ⟨-, -, -, -, i20, i21⟩ := index5 ⟨q, hT⟩
  have i20' : win5_2.index ⟨q, hT⟩ 0 = q := i20
  show i ∈ ((View.whole main_v37).slice (win5_2.rect ⟨q, hT⟩)).set
  rw [View.set_slice_whole, Rect.mem_set_unit]
  intro a
  match a with
  | ⟨0, _⟩ =>
    show win5_2.index ⟨q, hT⟩ 0 * 8000 ≤ (i 0).val
      ∧ (i 0).val < win5_2.index ⟨q, hT⟩ 0 * 8000 + win5_2.xsize (grid5.coords ⟨q, hT⟩) 0
    rw [i20']
    have hx' : q * 8000 + win5_2.xsize (grid5.coords ⟨q, hT⟩) 0 = min (q * 8000 + 8000) 150000 := hx
    have hle := Nat.le_min.mpr (⟨by omega, by omega⟩ : (i 0).val + 1 ≤ q * 8000 + 8000 ∧ (i 0).val + 1 ≤ 150000)
    rw [← hx'] at hle
    exact ⟨by rw [hqr]; exact Nat.le_add_right _ _, hle⟩
  | ⟨1, _⟩ =>
    show win5_2.index ⟨q, hT⟩ 1 * 64 ≤ (i 1).val
      ∧ (i 1).val < win5_2.index ⟨q, hT⟩ 1 * 64 + win5_2.xsize (grid5.coords ⟨q, hT⟩) 1
    rw [i21, h21]; omega

/-- So the result array ends holding the accumulation step. -/
theorem final5 (c : Dev nD) : (dat5 V c).arrAt 2 cfg5.N = accOut5 V c :=
  (dat5 V c).arrAt_eq_of_cover 2 (accOut5 V c) (fun t _ => flushed5 V c t) cover5

end Region

end Cert.KernelIdeal.Hand

end
-- ==== Proof.IdealSide.Run.lean ====
/-
  The whole run of @main: six kernel regions among seven stretches of host operations.

  The contents of every unscoped buffer are followed from the launch memory through each stretch (its operations
  applied) and each region (its three arrays replaced by what the write-backs leave), so that after the last stretch
  every such buffer is known as a term of the launch memory.  Each region enters the pipeline rule with its proof
  data at the contents found at its entry; the generator register and the core's empty debt ride along.
-/
import proofs.«142893_j63376537420313_1_alg».proof.Proof.IdealSide.Msg0
import proofs.«142893_j63376537420313_1_alg».proof.Proof.IdealSide.Msg2
import proofs.«142893_j63376537420313_1_alg».proof.Proof.IdealSide.Msg4
import proofs.«142893_j63376537420313_1_alg».proof.Proof.IdealSide.Acc1
import proofs.«142893_j63376537420313_1_alg».proof.Proof.IdealSide.Acc3
import proofs.«142893_j63376537420313_1_alg».proof.Proof.IdealSide.Acc5
import proofs.«142893_j63376537420313_1_alg».proof.Proof.Gen.KernelIdeal.Regions
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## What rides beside the buffers -/

abbrev 𝒱₀ : Variants := Variants.none
/-- No core owes another anything: no level is assigned. -/
abbrev L : GSem nD τ sig → Finset Unit := fun _ => ∅
abbrev lv : GSem nD τ sig → Unit → ℕ := fun _ _ => 0
/-- The core's generator register at some state, and its debt: none. -/
abbrev R (c : Dev nD) : sProp 𝕄 := iprop((∃ r, prngReg c r) ∗ ∃ W, owes (c : Thread nD τ) (0 : CellTallies nD τ sig Unit) W)

/-- A core that owes nothing owes, in particular, within any bound; -/
theorem owes_in (c : Dev nD) {cfg : Cfg sig Λ₀} (dat : Dat τ (Elt F) Unit ℕ (Pipeline.UD sig nD τ) ℕ cfg c)
    (t : Fin (cfg.N + 1)) (h : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [h]
  iintro ⟨%W, HO⟩; iexists W; isplitr
  · ipureintro; unfold Pipeline.Dat.bound; rw [hr]; exact fun _ _ => Or.inl trivial
  iexact HO
/-- and the bound forgotten, it owes nothing. -/
theorem owes_out (c : Dev nD) {cfg : Cfg sig Λ₀} (dat : Dat τ (Elt F) Unit ℕ (Pipeline.UD sig nD τ) ℕ cfg c)
    (t : Fin (cfg.N + 1)) (h : dat.owed t = 0) :
    dat.owesAt () t ⊢ (iprop(∃ W, owes (c : Thread nD τ) (0 : CellTallies nD τ sig Unit) W) : sProp 𝕄) := by
  unfold Pipeline.Dat.owesAt Pipeline.owesWithin
  rw [h]
  iintro ⟨%W, -, HO⟩; iexists W; iexact HO

variable (m : (ℓ : Loc nD τ sig) → Buf (Elt F) ℓ)

/-! ## The buffers' contents at each boundary -/

/-- Core `c`'s buffers at launch. -/
abbrev W0 (c : Dev nD) : Valuation τ sig (Elt F) := fun b => m (c, b)
/-- After the first stretch of host operations. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b

/-- After region 0: its arrays at what the write-backs leave, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W2_rest (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host operations that follow region 0. -/
abbrev W3 (c : Dev nD) : Valuation τ sig (Elt F) := StableHlo.after hostOps1 (W2 m c)
abbrev V3 : (c : Dev nD) → (b : Ref sig .tc) → Buf (Elt F) ((c : Thread nD τ).loc b) := fun c b => W3 m c b

/-- After region 1: its arrays at what the write-backs leave, every other buffer as entered. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W4_rest (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the host operations that follow region 1. -/
abbrev W5 (c : Dev nD) : Valuation τ sig (Elt F) := StableHlo.after hostOps2 (W4 m c)
abbrev V5 : (c : Dev nD) → (b : Ref sig .tc) → Buf (Elt F) ((c : Thread nD τ).loc b) := fun c b => W5 m c b

/-- After region 2: its arrays at what the write-backs leave, every other buffer as entered. -/
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem W6_rest (c : Dev nD) : ∀ b, b ∉ Finset.univ.image (Pipeline.arrRef spec2) → V6 m c b = V5 m c b :=
  fun b hb => W6_of_ne m c b fun w e => hb (Finset.mem_image.mpr ⟨w, Finset.mem_univ _, e⟩)
/-- After the host operations that follow region 2. -/
abbrev W7 (c : Dev nD) : Valuation τ sig (Elt F) := StableHlo.after hostOps3 (W6 m c)
abbrev V7 : (c : Dev nD) → (b : Ref sig .tc) → Buf (Elt F) ((c : Thread nD τ).loc b) := fun c b => W7 m c b

/-- After region 3: its arrays at what the write-backs leave, every other buffer as entered. -/
def W8 (c : Dev nD) : Valuation τ sig (Elt F) :=
  Pipeline.withArrays spec3 c (W7 m c) fun w => (dat3 (V7 m) c).arrAt w cfg3.N
abbrev V8 : (c : Dev nD) → (b : Ref sig .tc) → Buf (Elt F) ((c : Thread nD τ).loc b) := fun c b => W8 m c b
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem W8_rest (c : Dev nD) : ∀ b, b ∉ Finset.univ.image (Pipeline.arrRef spec3) → V8 m c b = V7 m c b :=
  fun b hb => W8_of_ne m c b fun w e => hb (Finset.mem_image.mpr ⟨w, Finset.mem_univ _, e⟩)
/-- After the host operations that follow region 3. -/
abbrev W9 (c : Dev nD) : Valuation τ sig (Elt F) := StableHlo.after hostOps4 (W8 m c)
abbrev V9 : (c : Dev nD) → (b : Ref sig .tc) → Buf (Elt F) ((c : Thread nD τ).loc b) := fun c b => W9 m c b

/-- After region 4: its arrays at what the write-backs leave, every other buffer as entered. -/
def W10 (c : Dev nD) : Valuation τ sig (Elt F) :=
  Pipeline.withArrays spec4 c (W9 m c) fun w => (dat4 (V9 m) c).arrAt w cfg4.N
abbrev V10 : (c : Dev nD) → (b : Ref sig .tc) → Buf (Elt F) ((c : Thread nD τ).loc b) := fun c b => W10 m c b
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
theorem W10_rest (c : Dev nD) : ∀ b, b ∉ Finset.univ.image (Pipeline.arrRef spec4) → V10 m c b = V9 m c b :=
  fun b hb => W10_of_ne m c b fun w e => hb (Finset.mem_image.mpr ⟨w, Finset.mem_univ _, e⟩)
/-- After the host operations that follow region 4. -/
abbrev W11 (c : Dev nD) : Valuation τ sig (Elt F) := StableHlo.after hostOps5 (W10 m c)
abbrev V11 : (c : Dev nD) → (b : Ref sig .tc) → Buf (Elt F) ((c : Thread nD τ).loc b) := fun c b => W11 m c b

/-- After region 5: its arrays at what the write-backs leave, every other buffer as entered. -/
def W12 (c : Dev nD) : Valuation τ sig (Elt F) :=
  Pipeline.withArrays spec5 c (W11 m c) fun w => (dat5 (V11 m) c).arrAt w cfg5.N
abbrev V12 : (c : Dev nD) → (b : Ref sig .tc) → Buf (Elt F) ((c : Thread nD τ).loc b) := fun c b => W12 m c b
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
theorem W12_rest (c : Dev nD) : ∀ b, b ∉ Finset.univ.image (Pipeline.arrRef spec5) → V12 m c b = V11 m c b :=
  fun b hb => W12_of_ne m c b fun w e => hb (Finset.mem_image.mpr ⟨w, Finset.mem_univ _, e⟩)
/-- After the host operations that follow region 5. -/
abbrev W13 (c : Dev nD) : Valuation τ sig (Elt F) := StableHlo.after hostOps6 (W12 m c)
abbrev V13 : (c : Dev nD) → (b : Ref sig .tc) → Buf (Elt F) ((c : Thread nD τ).loc b) := fun c b => W13 m c b

/-! ## The proof data of the six pipelines, each at its region's entry contents -/

def pdats : (p : Fin 6) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c

/-! ## The regions as segments -/

set_option backward.isDefEq.respectTransparency.types false in
/-- Region 0 over the thread state: entered holding every unscoped buffer at `W1`, left holding them at `W2`.
    Its arrays are split out of the unscoped buffers and put back at what the write-backs leave; the generator
    register goes into the class invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (V1 m) c
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · iapply (owes_in c (pdats m 0 c) 0 rfl rfl); iexact Howes
    isplitl [Hreg]; · iexact Hreg
    iexact Hrest
  hin c := by
    rw [show (pdats m 0 c).Φ 0 = Pipeline.ΦA spec0 c from rfl]; unfold Pipeline.ΦA
    iintro ⟨Hreg, -, Hsc⟩
    isplitl [Hsc]; · iexact Hsc
    iexact Hreg
  hout c := by
    rw [Pipeline.ownSems0_none, show (pdats m 0 c).Φ (Fin.last _) = Pipeline.ΦA spec0 c from rfl]; unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (fun w => (W2_arr m c w).symm) (W2_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    iapply (owes_out c (pdats m 0 c) (Fin.last _) rfl); iexact Howes

set_option backward.isDefEq.respectTransparency.types false in
/-- Region 1 over the thread state: entered holding every unscoped buffer at `W3`, left holding them at `W4`.
    Its arrays are split out of the unscoped buffers and put back at what the write-backs leave; the generator
    register goes into the class invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m) c
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · iapply (owes_in c (pdats m 1 c) 0 rfl rfl); iexact Howes
    isplitl [Hreg]; · iexact Hreg
    iexact Hrest
  hin c := by
    rw [show (pdats m 1 c).Φ 0 = Pipeline.ΦA spec1 c from rfl]; unfold Pipeline.ΦA
    iintro ⟨Hreg, -, Hsc⟩
    isplitl [Hsc]; · iexact Hsc
    iexact Hreg
  hout c := by
    rw [Pipeline.ownSems0_none, show (pdats m 1 c).Φ (Fin.last _) = Pipeline.ΦA spec1 c from rfl]; unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V3 m c) (V4 m c) ((pdats m 1 c).arrAt · cfg1.N) (fun w => (W4_arr m c w).symm) (W4_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    iapply (owes_out c (pdats m 1 c) (Fin.last _) rfl); iexact Howes

set_option backward.isDefEq.respectTransparency.types false in
/-- Region 2 over the thread state: entered holding every unscoped buffer at `W5`, left holding them at `W6`.
    Its arrays are split out of the unscoped buffers and put back at what the write-backs leave; the generator
    register goes into the class invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := body_obligation2 (V5 m) c
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · iapply (owes_in c (pdats m 2 c) 0 rfl rfl); iexact Howes
    isplitl [Hreg]; · iexact Hreg
    iexact Hrest
  hin c := by
    rw [show (pdats m 2 c).Φ 0 = Pipeline.ΦA spec2 c from rfl]; unfold Pipeline.ΦA
    iintro ⟨Hreg, -, Hsc⟩
    isplitl [Hsc]; · iexact Hsc
    iexact Hreg
  hout c := by
    rw [Pipeline.ownSems0_none, show (pdats m 2 c).Φ (Fin.last _) = Pipeline.ΦA spec2 c from rfl]; unfold Pipeline.ΦA
    iintro ⟨Hsc, Hreg⟩
    isplitl [Hreg]; · iexact Hreg
    isplitr; · iempintro
    iexact Hsc
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (V5 m c) (V6 m c) ((pdats m 2 c).arrAt · cfg2.N) (fun w => (W6_arr m c w).symm) (W6_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    iapply (owes_out c (pdats m 2 c) (Fin.last _) rfl); iexact Howes

set_option backward.isDefEq.respectTransparency.types false in
/-- Region 3 over the thread state: entered holding every unscoped buffer at `W7`, left holding them at `W8`.
    Its arrays are split out of the unscoped buffers and put back at what the write-backs leave; the generator
    register goes into the class invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := body_obligation3 (V7 m) c
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · iapply (owes_in c (pdats m 3 c) 0 rfl rfl); iexact Howes
    isplitl [Hreg]; · iexact Hreg
    iexact Hrest
  hin c := by
    rw [show (pdats m 3 c).Φ 0 = Pipeline.ΦA spec3 c from rfl]; unfold Pipeline.ΦA
    iintro ⟨Hreg, -, Hsc⟩
    isplitl [Hsc]; · iexact Hsc
    iexact Hreg
  hout c := by
    rw [Pipeline.ownSems0_none, show (pdats m 3 c).Φ (Fin.last _) = Pipeline.ΦA spec3 c from rfl]; unfold Pipeline.ΦA
    iintro ⟨Hsc, Hreg⟩
    isplitl [Hreg]; · iexact Hreg
    isplitr; · iempintro
    iexact Hsc
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (V7 m c) (V8 m c) ((pdats m 3 c).arrAt · cfg3.N) (fun w => (W8_arr m c w).symm) (W8_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    iapply (owes_out c (pdats m 3 c) (Fin.last _) rfl); iexact Howes

set_option backward.isDefEq.respectTransparency.types false in
/-- Region 4 over the thread state: entered holding every unscoped buffer at `W9`, left holding them at `W10`.
    Its arrays are split out of the unscoped buffers and put back at what the write-backs leave; the generator
    register goes into the class invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := body_obligation4 (V9 m) c
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := Pipeline.UD sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · iapply (owes_in c (pdats m 4 c) 0 rfl rfl); iexact Howes
    isplitl [Hreg]; · iexact Hreg
    iexact Hrest
  hin c := by
    rw [show (pdats m 4 c).Φ 0 = Pipeline.ΦA spec4 c from rfl]; unfold Pipeline.ΦA
    iintro ⟨Hreg, -, Hsc⟩
    isplitl [Hsc]; · iexact Hsc
    iexact Hreg
  hout c := by
    rw [Pipeline.ownSems0_none, show (pdats m 4 c).Φ (Fin.last _) = Pipeline.ΦA spec4 c from rfl]; unfold Pipeline.ΦA
    iintro ⟨Hsc, Hreg⟩
    isplitl [Hreg]; · iexact Hreg
    isplitr; · iempintro
    iexact Hsc
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (V9 m c) (V10 m c) ((pdats m 4 c).arrAt · cfg4.N) (fun w => (W10_arr m c w).symm) (W10_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    iapply (owes_out c (pdats m 4 c) (Fin.last _) rfl); iexact Howes

set_option backward.isDefEq.respectTransparency.types false in
/-- Region 5 over the thread state: entered holding every unscoped buffer at `W11`, left holding them at `W12`.
    Its arrays are split out of the unscoped buffers and put back at what the write-backs leave; the generator
    register goes into the class invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := body_obligation5 (V11 m) c
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := Pipeline.UD sig nD τ) (Lvl := ℕ) spec5 c (V11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V11 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · iapply (owes_in c (pdats m 5 c) 0 rfl rfl); iexact Howes
    isplitl [Hreg]; · iexact Hreg
    iexact Hrest
  hin c := by
    rw [show (pdats m 5 c).Φ 0 = Pipeline.ΦA spec5 c from rfl]; unfold Pipeline.ΦA
    iintro ⟨Hreg, -, Hsc⟩
    isplitl [Hsc]; · iexact Hsc
    iexact Hreg
  hout c := by
    rw [Pipeline.ownSems0_none, show (pdats m 5 c).Φ (Fin.last _) = Pipeline.ΦA spec5 c from rfl]; unfold Pipeline.ΦA
    iintro ⟨Hsc, Hreg⟩
    isplitl [Hreg]; · iexact Hreg
    isplitr; · iempintro
    iexact Hsc
  hexit c := by
    have hjoin := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun _ => rfl)
      (V11 m c) (V12 m c) ((pdats m 5 c).arrAt · cfg5.N) (fun w => (W12_arr m c w).symm) (W12_rest m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    iapply (owes_out c (pdats m 5 c) (Fin.last _) rfl); iexact Howes

/-! ## @main as segments, and the launch -/

/-- A stretch of host operations as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's thirteen segments in order. -/
abbrev segs : List (Pipeline.Seg (pcfgs (F := F)) adm (pdats m) () defs₀ 𝒱₀ L lv) :=
  [
    .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)) ]

set_option backward.isDefEq.respectTransparency.types false in
/-- THE RUN. From any memory with zero counters, every weakly fair execution of @main terminates, nothing faulting,
    and every final state holds each unscoped buffer at `W13`: the launch memory followed through the seven stretches
    and the six regions. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj embL defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W13 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (W13 m c) ∗ R c) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h c => h c)

end Cert.KernelIdeal.Hand

end
-- ==== Proof.IdealSide.Keep.lean ====
/-
  What no stretch and no region writes stays: a buffer outside every stretch's results and every region's arrays holds
  its launch contents at every boundary of @main — in particular each argument after the last stretch, which with the
  run is the frame claim.
-/
import proofs.«142893_j63376537420313_1_alg».proof.Proof.IdealSide.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ)

theorem keepH0 (c : Dev nD) (r : Ref sig .tc) (h : r ∉ hostOps0_W) : W1 m c r = W0 m c r :=
  StableHlo.after_of_writes_sub hostOps0 _ hostOps0_writes h
theorem keepH1 (c : Dev nD) (r : Ref sig .tc) (h : r ∉ hostOps1_W) : W3 m c r = W2 m c r :=
  StableHlo.after_of_writes_sub hostOps1 _ hostOps1_writes h
theorem keepH2 (c : Dev nD) (r : Ref sig .tc) (h : r ∉ hostOps2_W) : W5 m c r = W4 m c r :=
  StableHlo.after_of_writes_sub hostOps2 _ hostOps2_writes h
theorem keepH3 (c : Dev nD) (r : Ref sig .tc) (h : r ∉ hostOps3_W) : W7 m c r = W6 m c r :=
  StableHlo.after_of_writes_sub hostOps3 _ hostOps3_writes h
theorem keepH4 (c : Dev nD) (r : Ref sig .tc) (h : r ∉ hostOps4_W) : W9 m c r = W8 m c r :=
  StableHlo.after_of_writes_sub hostOps4 _ hostOps4_writes h
theorem keepH5 (c : Dev nD) (r : Ref sig .tc) (h : r ∉ hostOps5_W) : W11 m c r = W10 m c r :=
  StableHlo.after_of_writes_sub hostOps5 _ hostOps5_writes h
theorem keepH6 (c : Dev nD) (r : Ref sig .tc) (h : r ∉ hostOps6_W) : W13 m c r = W12 m c r :=
  StableHlo.after_of_writes_sub hostOps6 _ hostOps6_writes h
theorem keepR0 (c : Dev nD) (r : Ref sig .tc) (h : ∀ w, Pipeline.arrRef spec0 w ≠ r) : W2 m c r = W1 m c r :=
  W2_of_ne m c r h
theorem inR0 (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem keepR1 (c : Dev nD) (r : Ref sig .tc) (h : ∀ w, Pipeline.arrRef spec1 w ≠ r) : W4 m c r = W3 m c r :=
  W4_of_ne m c r h
theorem inR1 (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))
theorem keepR2 (c : Dev nD) (r : Ref sig .tc) (h : ∀ w, Pipeline.arrRef spec2 w ≠ r) : W6 m c r = W5 m c r :=
  W6_of_ne m c r h
theorem inR2 (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hw _).trans (A_eq2 (V5 m) c w))
theorem keepR3 (c : Dev nD) (r : Ref sig .tc) (h : ∀ w, Pipeline.arrRef spec3 w ≠ r) : W8 m c r = W7 m c r :=
  W8_of_ne m c r h
theorem inR3 (c : Dev nD) (w : Fin cfg3.W) (hw : (cfg3.win w).isOut = false) :
    W8 m c (Proc.devRef .tc (Pipeline.arrRef spec3 w)) = W7 m c (Proc.devRef .tc (Pipeline.arrRef spec3 w)) :=
  (W8_arr m c w).trans (((dat3 (V7 m) c).arrAt_in w hw _).trans (A_eq3 (V7 m) c w))
theorem keepR4 (c : Dev nD) (r : Ref sig .tc) (h : ∀ w, Pipeline.arrRef spec4 w ≠ r) : W10 m c r = W9 m c r :=
  W10_of_ne m c r h
theorem inR4 (c : Dev nD) (w : Fin cfg4.W) (hw : (cfg4.win w).isOut = false) :
    W10 m c (Proc.devRef .tc (Pipeline.arrRef spec4 w)) = W9 m c (Proc.devRef .tc (Pipeline.arrRef spec4 w)) :=
  (W10_arr m c w).trans (((dat4 (V9 m) c).arrAt_in w hw _).trans (A_eq4 (V9 m) c w))
theorem keepR5 (c : Dev nD) (r : Ref sig .tc) (h : ∀ w, Pipeline.arrRef spec5 w ≠ r) : W12 m c r = W11 m c r :=
  W12_of_ne m c r h
theorem inR5 (c : Dev nD) (w : Fin cfg5.W) (hw : (cfg5.win w).isOut = false) :
    W12 m c (Proc.devRef .tc (Pipeline.arrRef spec5 w)) = W11 m c (Proc.devRef .tc (Pipeline.arrRef spec5 w)) :=
  (W12_arr m c w).trans (((dat5 (V11 m) c).arrAt_in w hw _).trans (A_eq5 (V11 m) c w))

/-! ## The arguments stay at their launch contents throughout -/

/-- A buffer at its launch contents after each of the six regions. -/
def Stays (c : Dev nD) (r : Ref sig .tc) : Prop :=
  W2 m c r = W0 m c r ∧ W4 m c r = W0 m c r ∧ W6 m c r = W0 m c r ∧ W8 m c r = W0 m c r ∧ W10 m c r = W0 m c r
    ∧ W12 m c r = W0 m c r

/-- A buffer no stretch writes and no region stages as an array holds its launch contents at every boundary. -/
theorem stays (c : Dev nD) (r : Ref sig .tc)
    (h0 : r ∉ hostOps0_W) (g0 : ∀ w, Pipeline.arrRef spec0 w ≠ r) (h1 : r ∉ hostOps1_W) (g1 : ∀ w, Pipeline.arrRef spec1 w ≠ r)
    (h2 : r ∉ hostOps2_W) (g2 : ∀ w, Pipeline.arrRef spec2 w ≠ r) (h3 : r ∉ hostOps3_W) (g3 : ∀ w, Pipeline.arrRef spec3 w ≠ r)
    (h4 : r ∉ hostOps4_W) (g4 : ∀ w, Pipeline.arrRef spec4 w ≠ r) (h5 : r ∉ hostOps5_W) (g5 : ∀ w, Pipeline.arrRef spec5 w ≠ r) :
    Stays m c r := by
  have e2 : W2 m c r = W0 m c r := (keepR0 m c r g0).trans (keepH0 m c r h0)
  have e4 : W4 m c r = W0 m c r := (keepR1 m c r g1).trans ((keepH1 m c r h1).trans e2)
  have e6 : W6 m c r = W0 m c r := (keepR2 m c r g2).trans ((keepH2 m c r h2).trans e4)
  have e8 : W8 m c r = W0 m c r := (keepR3 m c r g3).trans ((keepH3 m c r h3).trans e6)
  have e10 : W10 m c r = W0 m c r := (keepR4 m c r g4).trans ((keepH4 m c r h4).trans e8)
  have e12 : W12 m c r = W0 m c r := (keepR5 m c r g5).trans ((keepH5 m c r h5).trans e10)
  exact ⟨e2, e4, e6, e8, e10, e12⟩

theorem stays_arg3 (c : Dev nD) : Stays m c main_arg3 := stays m c main_arg3 (by decide) (by decide) (by decide) (by decide) (by decide) (by decide) (by decide) (by decide) (by decide) (by decide) (by decide) (by decide)
theorem stays_arg4 (c : Dev nD) : Stays m c main_arg4 := stays m c main_arg4 (by decide) (by decide) (by decide) (by decide) (by decide) (by decide) (by decide) (by decide) (by decide) (by decide) (by decide) (by decide)
theorem stays_arg5 (c : Dev nD) : Stays m c main_arg5 := stays m c main_arg5 (by decide) (by decide) (by decide) (by decide) (by decide) (by decide) (by decide) (by decide) (by decide) (by decide) (by decide) (by decide)
theorem stays_arg6 (c : Dev nD) : Stays m c main_arg6 := stays m c main_arg6 (by decide) (by decide) (by decide) (by decide) (by decide) (by decide) (by decide) (by decide) (by decide) (by decide) (by decide) (by decide)
theorem stays_arg7 (c : Dev nD) : Stays m c main_arg7 := stays m c main_arg7 (by decide) (by decide) (by decide) (by decide) (by decide) (by decide) (by decide) (by decide) (by decide) (by decide) (by decide) (by decide)

/-- Each argument after the last stretch holds its launch contents. -/
theorem s13_arg (c : Dev nD) (r : Ref sig .tc)
    (h0 : r ∉ hostOps0_W) (g0 : ∀ w, Pipeline.arrRef spec0 w ≠ r) (h1 : r ∉ hostOps1_W) (g1 : ∀ w, Pipeline.arrRef spec1 w ≠ r)
    (h2 : r ∉ hostOps2_W) (g2 : ∀ w, Pipeline.arrRef spec2 w ≠ r) (h3 : r ∉ hostOps3_W) (g3 : ∀ w, Pipeline.arrRef spec3 w ≠ r)
    (h4 : r ∉ hostOps4_W) (g4 : ∀ w, Pipeline.arrRef spec4 w ≠ r) (h5 : r ∉ hostOps5_W) (g5 : ∀ w, Pipeline.arrRef spec5 w ≠ r)
    (h6 : r ∉ hostOps6_W) : W13 m c r = W0 m c r :=
  (keepH6 m c r h6).trans (stays m c r h0 g0 h1 g1 h2 g2 h3 g3 h4 g4 h5 g5).2.2.2.2.2

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution of @main terminates, nothing faulting, with each argument array as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (s13_arg m c main_arg0 (by decide) (by decide) (by decide) (by decide) (by decide) (by decide) (by decide) (by decide) (by decide) (by decide) (by decide) (by decide) (by decide)),
     (h c _ (mem_uc main_arg1 (by decide))).trans (s13_arg m c main_arg1 (by decide) (by decide) (by decide) (by decide) (by decide) (by decide) (by decide) (by decide) (by decide) (by decide) (by decide) (by decide) (by decide)),
     (h c _ (mem_uc main_arg2 (by decide))).trans (s13_arg m c main_arg2 (by decide) (by decide) (by decide) (by decide) (by decide) (by decide) (by decide) (by decide) (by decide) (by decide) (by decide) (by decide) (by decide)),
     (h c _ (mem_uc main_arg3 (by decide))).trans (s13_arg m c main_arg3 (by decide) (by decide) (by decide) (by decide) (by decide) (by decide) (by decide) (by decide) (by decide) (by decide) (by decide) (by decide) (by decide)),
     (h c _ (mem_uc main_arg4 (by decide))).trans (s13_arg m c main_arg4 (by decide) (by decide) (by decide) (by decide) (by decide) (by decide) (by decide) (by decide) (by decide) (by decide) (by decide) (by decide) (by decide)),
     (h c _ (mem_uc main_arg5 (by decide))).trans (s13_arg m c main_arg5 (by decide) (by decide) (by decide) (by decide) (by decide) (by decide) (by decide) (by decide) (by decide) (by decide) (by decide) (by decide) (by decide)),
     (h c _ (mem_uc main_arg6 (by decide))).trans (s13_arg m c main_arg6 (by decide) (by decide) (by decide) (by decide) (by decide) (by decide) (by decide) (by decide) (by decide) (by decide) (by decide) (by decide) (by decide)),
     (h c _ (mem_uc main_arg7 (by decide))).trans (s13_arg m c main_arg7 (by decide) (by decide) (by decide) (by decide) (by decide) (by decide) (by decide) (by decide) (by decide) (by decide) (by decide) (by decide) (by decide))⟩)
    (run_all m ρ)

end Cert.KernelIdeal.Hand

end
-- ==== Proof.IdealSide.Values.lean ====
/-
  What the buffers hold at each boundary of @main, as terms of the launch memory.

  One layer of message passing is: gather the current node table at the edges' source nodes, weigh each gathered row
  by its edge, and add the rows up at the edges' target nodes.  The program does this three times from the table of
  concatenated embeddings; after each layer a kernel adds the layer into the running total and scales it (by 1, 1 and
  1/4).  The lemmas below follow every buffer the next step reads through the stretches and regions that do not write
  it, read each stretch's own results off its operations, and each region's result array off its write-backs.
-/
import proofs.«142893_j63376537420313_1_alg».proof.Proof.IdealSide.Keep
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-! ## The host operations the layers share, named -/

/-- The node table: the user embeddings stacked on the item embeddings. -/
def kEmb (a0 : S100000x64.Idx → Elt F .f32) (a1 : S50000x64.Idx → Elt F .f32) : S150000x64.Idx → Elt F .f32 :=
  concatenate S150000x64 0 [⟨S100000x64, a0⟩, ⟨S50000x64, a1⟩] concatenates_S100000x64_S50000x64_S150000x64_d0
/-- The edge weights as a column. -/
def kVals (a2 : S4000000.Idx → Elt F .f32) : S4000000x1.Idx → Elt F .f32 :=
  shapeCast S4000000x1 a2 shapeCasts_S4000000_S4000000x1
/-- The edges' source nodes as gather indices: a negative index counted from the end, kept as a column. -/
def kCol (a4 : S4000000.Idx → Elt F .i32) : S4000000x1.Idx → Elt F .i32 :=
  broadcastInDim S4000000x1 ![0] bcast_S4000000_S4000000x1_0
    (select (cmpi .slt a4 (broadcastInDim S4000000 ![] bcast_S_S4000000 (constantI S_ 32 0#32)))
      (addi a4 (broadcastInDim S4000000 ![] bcast_S_S4000000 (constantI S_ 32 150000#32))) a4)
/-- The rows of a node table at the edges' source nodes. -/
def kGath (x : S150000x64.Idx → Elt F .f32) (a4 : S4000000.Idx → Elt F .i32) : S4000000x64.Idx → Elt F .f32 :=
  Host.gather gather_S150000x64_S4000000x1_S4000000x64_1_0_n_n_0_1_164 x (kCol a4)
/-- Edge rows added up at the edges' target nodes, from a table of zeros. -/
def kScat (a3 : S4000000.Idx → Elt F .i32) (u : S4000000x64.Idx → Elt F .f32) : S150000x64.Idx → Elt F .f32 :=
  Host.scatterAdd scatter_S150000x64_S4000000x1_S4000000x64_1_0_0_1
    (broadcastInDim S150000x64 ![] bcast_S_S150000x64 (constant (F := F) S_ .f32 0x00000000#32))
    (broadcastInDim S4000000x1 ![0] bcast_S4000000_S4000000x1_0 a3) u
/-- One layer of message passing from the node table `x`. -/
def kLayer (a2 : S4000000.Idx → Elt F .f32) (a3 a4 : S4000000.Idx → Elt F .i32) (x : S150000x64.Idx → Elt F .f32) :
    S150000x64.Idx → Elt F .f32 :=
  kScat a3 (Cert.Spec.msgArr (F := F) (kVals a2) (kGath x a4))

/-- A batch index into a table of `n` rows as a gather index: a negative one counted from the end, kept as a column. -/
def kBatch (n : BitVec 32) (a : S4096.Idx → Elt F .i32) : S4096x1.Idx → Elt F .i32 :=
  broadcastInDim S4096x1 ![0] bcast_S4096_S4096x1_0
    (select (cmpi .slt a (broadcastInDim S4096 ![] bcast_S_S4096 (constantI S_ 32 0#32)))
      (addi a (broadcastInDim S4096 ![] bcast_S_S4096 (constantI S_ 32 n))) a)
/-- The scores of a batch: the user rows of the final table against the item rows, lane-wise products summed. -/
def kScore (A : S150000x64.Idx → Elt F .f32) (users items : S4096.Idx → Elt F .i32) : S4096.Idx → Elt F .f32 :=
  Host.reduceAdd
    (mulf
      (Host.gather gather_S100000x64_S4096x1_S4096x64_1_0_n_n_0_1_164
        (extractStridedSlice S100000x64 ![0, 0] A slices_S150000x64_S100000x64_0_0) (kBatch 100000#32 users))
      (Host.gather gather_S50000x64_S4096x1_S4096x64_1_0_n_n_0_1_164
        (extractStridedSlice S50000x64 ![100000, 0] A slices_S150000x64_S50000x64_100000_0) (kBatch 50000#32 items)))
    (constant (F := F) S_ .f32 0x00000000#32) reducesTo_S4096x64_S4096_d1 h_S_

variable (m : (ℓ : Loc nD τ sig) → Buf (Elt F) ℓ)

/-! ## The arguments, and the terms the program builds from them -/

abbrev a0 (c : Dev nD) : S100000x64.Idx → Elt F .f32 := m ((c : Thread nD τ).loc main_arg0)
abbrev a1 (c : Dev nD) : S50000x64.Idx → Elt F .f32 := m ((c : Thread nD τ).loc main_arg1)
abbrev a2 (c : Dev nD) : S4000000.Idx → Elt F .f32 := m ((c : Thread nD τ).loc main_arg2)
abbrev a3 (c : Dev nD) : S4000000.Idx → Elt F .i32 := m ((c : Thread nD τ).loc main_arg3)
abbrev a4 (c : Dev nD) : S4000000.Idx → Elt F .i32 := m ((c : Thread nD τ).loc main_arg4)
abbrev a5 (c : Dev nD) : S4096.Idx → Elt F .i32 := m ((c : Thread nD τ).loc main_arg5)
abbrev a6 (c : Dev nD) : S4096.Idx → Elt F .i32 := m ((c : Thread nD τ).loc main_arg6)
abbrev a7 (c : Dev nD) : S4096.Idx → Elt F .i32 := m ((c : Thread nD τ).loc main_arg7)

/-- The node table, the three layers, and the three running totals. -/
def kE (c : Dev nD) : S150000x64.Idx → Elt F .f32 := kEmb (a0 m c) (a1 m c)
def kX1 (c : Dev nD) : S150000x64.Idx → Elt F .f32 := kLayer (a2 m c) (a3 m c) (a4 m c) (kE m c)
def kX2 (c : Dev nD) : S150000x64.Idx → Elt F .f32 := kLayer (a2 m c) (a3 m c) (a4 m c) (kX1 m c)
def kX3 (c : Dev nD) : S150000x64.Idx → Elt F .f32 := kLayer (a2 m c) (a3 m c) (a4 m c) (kX2 m c)
def kT1 (c : Dev nD) : S150000x64.Idx → Elt F .f32 := Cert.Spec.accArr (F := F) (Scalar.ofBits .f32 0x3F800000#32) (kE m c) (kX1 m c)
def kT2 (c : Dev nD) : S150000x64.Idx → Elt F .f32 := Cert.Spec.accArr (F := F) (Scalar.ofBits .f32 0x3F800000#32) (kT1 m c) (kX2 m c)
def kT3 (c : Dev nD) : S150000x64.Idx → Elt F .f32 := Cert.Spec.accArr (F := F) (Scalar.ofBits .f32 0x3E800000#32) (kT2 m c) (kX3 m c)

/-! ## Boundary by boundary -/

theorem s1_v0 (c : Dev nD) : (W1 m c (Proc.devRef .tc main_v0) : S150000x64.Idx → Elt F .f32) = kE m c := by
  show StableHlo.after hostOps0 (W0 m c) (Proc.devRef .tc main_v0) = _
  after_results; rfl
theorem s1_v1 (c : Dev nD) : (W1 m c (Proc.devRef .tc main_v1) : S4000000x1.Idx → Elt F .f32) = kVals (a2 m c) := by
  show StableHlo.after hostOps0 (W0 m c) (Proc.devRef .tc main_v1) = _
  after_results; rfl
theorem s1_v8 (c : Dev nD) : (W1 m c (Proc.devRef .tc main_v8) : S4000000x64.Idx → Elt F .f32) = kGath (kE m c) (a4 m c) := by
  show StableHlo.after hostOps0 (W0 m c) (Proc.devRef .tc main_v8) = _
  after_results; rfl

theorem s2_v9 (c : Dev nD) : (W2 m c (Proc.devRef .tc main_v9) : S4000000x64.Idx → Elt F .f32)
    = Cert.Spec.msgArr (F := F) (kVals (a2 m c)) (kGath (kE m c) (a4 m c)) := by
  refine (W2_arr m c 2).trans ((final0 (V1 m) c).trans ?_)
  unfold msgOut0
  rw [show (V1 m c main_v1 : S4000000x1.Idx → Elt F .f32) = kVals (a2 m c) from s1_v1 m c,
    show (V1 m c main_v8 : S4000000x64.Idx → Elt F .f32) = kGath (kE m c) (a4 m c) from s1_v8 m c]

theorem s3_v12 (c : Dev nD) : (W3 m c (Proc.devRef .tc main_v12) : S150000x64.Idx → Elt F .f32) = kX1 m c := by
  show StableHlo.after hostOps1 (W2 m c) (Proc.devRef .tc main_v12) = _
  after_results
  rw [show W2 m c (Proc.devRef .tc main_arg3) = a3 m c from (stays_arg3 m c).1, s2_v9 m c]; rfl
theorem s3_v0 (c : Dev nD) : (W3 m c (Proc.devRef .tc main_v0) : S150000x64.Idx → Elt F .f32) = kE m c :=
  (keepH1 m c main_v0 (by decide)).trans ((keepR0 m c main_v0 (by decide)).trans (s1_v0 m c))

theorem s4_v13 (c : Dev nD) : (W4 m c (Proc.devRef .tc main_v13) : S150000x64.Idx → Elt F .f32) = kT1 m c := by
  refine (W4_arr m c 2).trans ((final1 (V3 m) c).trans ?_)
  unfold accOut1 kT1
  rw [show (V3 m c main_v0 : S150000x64.Idx → Elt F .f32) = kE m c from s3_v0 m c,
    show (V3 m c main_v12 : S150000x64.Idx → Elt F .f32) = kX1 m c from s3_v12 m c]
theorem s4_v12 (c : Dev nD) : (W4 m c (Proc.devRef .tc main_v12) : S150000x64.Idx → Elt F .f32) = kX1 m c :=
  (inR1 m c 1 rfl).trans (s3_v12 m c)

theorem s5_v20 (c : Dev nD) : (W5 m c (Proc.devRef .tc main_v20) : S4000000x64.Idx → Elt F .f32) = kGath (kX1 m c) (a4 m c) := by
  show StableHlo.after hostOps2 (W4 m c) (Proc.devRef .tc main_v20) = _
  after_results
  rw [show W4 m c (Proc.devRef .tc main_arg4) = a4 m c from (stays_arg4 m c).2.1, s4_v12 m c]; rfl
theorem s5_v1 (c : Dev nD) : (W5 m c (Proc.devRef .tc main_v1) : S4000000x1.Idx → Elt F .f32) = kVals (a2 m c) :=
  (keepH2 m c main_v1 (by decide)).trans ((keepR1 m c main_v1 (by decide)).trans ((keepH1 m c main_v1 (by decide)).trans
    ((inR0 m c 0 rfl).trans (s1_v1 m c))))

theorem s6_v21 (c : Dev nD) : (W6 m c (Proc.devRef .tc main_v21) : S4000000x64.Idx → Elt F .f32)
    = Cert.Spec.msgArr (F := F) (kVals (a2 m c)) (kGath (kX1 m c) (a4 m c)) := by
  refine (W6_arr m c 2).trans ((final2 (V5 m) c).trans ?_)
  unfold msgOut2
  rw [show (V5 m c main_v1 : S4000000x1.Idx → Elt F .f32) = kVals (a2 m c) from s5_v1 m c,
    show (V5 m c main_v20 : S4000000x64.Idx → Elt F .f32) = kGath (kX1 m c) (a4 m c) from s5_v20 m c]

theorem s7_v24 (c : Dev nD) : (W7 m c (Proc.devRef .tc main_v24) : S150000x64.Idx → Elt F .f32) = kX2 m c := by
  show StableHlo.after hostOps3 (W6 m c) (Proc.devRef .tc main_v24) = _
  after_results
  rw [show W6 m c (Proc.devRef .tc main_arg3) = a3 m c from (stays_arg3 m c).2.2.1, s6_v21 m c]; rfl
theorem s7_v13 (c : Dev nD) : (W7 m c (Proc.devRef .tc main_v13) : S150000x64.Idx → Elt F .f32) = kT1 m c :=
  (keepH3 m c main_v13 (by decide)).trans ((keepR2 m c main_v13 (by decide)).trans ((keepH2 m c main_v13 (by decide)).trans (s4_v13 m c)))

theorem s8_v25 (c : Dev nD) : (W8 m c (Proc.devRef .tc main_v25) : S150000x64.Idx → Elt F .f32) = kT2 m c := by
  refine (W8_arr m c 2).trans ((final3 (V7 m) c).trans ?_)
  unfold accOut3 kT2
  rw [show (V7 m c main_v13 : S150000x64.Idx → Elt F .f32) = kT1 m c from s7_v13 m c,
    show (V7 m c main_v24 : S150000x64.Idx → Elt F .f32) = kX2 m c from s7_v24 m c]
theorem s8_v24 (c : Dev nD) : (W8 m c (Proc.devRef .tc main_v24) : S150000x64.Idx → Elt F .f32) = kX2 m c :=
  (inR3 m c 1 rfl).trans (s7_v24 m c)

theorem s9_v32 (c : Dev nD) : (W9 m c (Proc.devRef .tc main_v32) : S4000000x64.Idx → Elt F .f32) = kGath (kX2 m c) (a4 m c) := by
  show StableHlo.after hostOps4 (W8 m c) (Proc.devRef .tc main_v32) = _
  after_results
  rw [show W8 m c (Proc.devRef .tc main_arg4) = a4 m c from (stays_arg4 m c).2.2.2.1, s8_v24 m c]; rfl
theorem s9_v1 (c : Dev nD) : (W9 m c (Proc.devRef .tc main_v1) : S4000000x1.Idx → Elt F .f32) = kVals (a2 m c) :=
  (keepH4 m c main_v1 (by decide)).trans ((keepR3 m c main_v1 (by decide)).trans ((keepH3 m c main_v1 (by decide)).trans
    ((inR2 m c 0 rfl).trans (s5_v1 m c))))

theorem s10_v33 (c : Dev nD) : (W10 m c (Proc.devRef .tc main_v33) : S4000000x64.Idx → Elt F .f32)
    = Cert.Spec.msgArr (F := F) (kVals (a2 m c)) (kGath (kX2 m c) (a4 m c)) := by
  refine (W10_arr m c 2).trans ((final4 (V9 m) c).trans ?_)
  unfold msgOut4
  rw [show (V9 m c main_v1 : S4000000x1.Idx → Elt F .f32) = kVals (a2 m c) from s9_v1 m c,
    show (V9 m c main_v32 : S4000000x64.Idx → Elt F .f32) = kGath (kX2 m c) (a4 m c) from s9_v32 m c]

theorem s11_v36 (c : Dev nD) : (W11 m c (Proc.devRef .tc main_v36) : S150000x64.Idx → Elt F .f32) = kX3 m c := by
  show StableHlo.after hostOps5 (W10 m c) (Proc.devRef .tc main_v36) = _
  after_results
  rw [show W10 m c (Proc.devRef .tc main_arg3) = a3 m c from (stays_arg3 m c).2.2.2.2.1, s10_v33 m c]; rfl
theorem s11_v25 (c : Dev nD) : (W11 m c (Proc.devRef .tc main_v25) : S150000x64.Idx → Elt F .f32) = kT2 m c :=
  (keepH5 m c main_v25 (by decide)).trans ((keepR4 m c main_v25 (by decide)).trans ((keepH4 m c main_v25 (by decide)).trans (s8_v25 m c)))

theorem s12_v37 (c : Dev nD) : (W12 m c (Proc.devRef .tc main_v37) : S150000x64.Idx → Elt F .f32) = kT3 m c := by
  refine (W12_arr m c 2).trans ((final5 (V11 m) c).trans ?_)
  unfold accOut5 kT3
  rw [show (V11 m c main_v25 : S150000x64.Idx → Elt F .f32) = kT2 m c from s11_v25 m c,
    show (V11 m c main_v36 : S150000x64.Idx → Elt F .f32) = kX3 m c from s11_v36 m c]

set_option maxHeartbeats 4000000 in
/-- The two results after the last stretch: the scores of the positive and of the negative items. -/
theorem s13_v62 (c : Dev nD) : (W13 m c (Proc.devRef .tc main_v62) : S4096.Idx → Elt F .f32) = kScore (kT3 m c) (a5 m c) (a6 m c) := by
  show StableHlo.after hostOps6 (W12 m c) (Proc.devRef .tc main_v62) = _
  after_results_simp
  rw [show W12 m c (Proc.devRef .tc main_arg5) = a5 m c from (stays_arg5 m c).2.2.2.2.2,
    show W12 m c (Proc.devRef .tc main_arg6) = a6 m c from (stays_arg6 m c).2.2.2.2.2, s12_v37 m c]; rfl
set_option maxHeartbeats 4000000 in
theorem s13_v64 (c : Dev nD) : (W13 m c (Proc.devRef .tc main_v64) : S4096.Idx → Elt F .f32) = kScore (kT3 m c) (a5 m c) (a7 m c) := by
  show StableHlo.after hostOps6 (W12 m c) (Proc.devRef .tc main_v64) = _
  after_results_simp
  rw [show W12 m c (Proc.devRef .tc main_arg5) = a5 m c from (stays_arg5 m c).2.2.2.2.2,
    show W12 m c (Proc.devRef .tc main_arg7) = a7 m c from (stays_arg7 m c).2.2.2.2.2, s12_v37 m c]; rfl

/-! ## The run, read at the results -/

/-- Every weakly fair execution of @main terminates, nothing faulting, with the two results at the scores of the final
    table and each argument array as launched. -/
theorem run_values (ρ : Dev nD → PrngReg) :
    θ_run defs (onTc (τ := τ) (main (F := F))) ⟨m, fun _ => 0, ρ⟩ (fun r => ∀ c : Dev nD,
      r.2.mem ((c.tc : Thread nD τ).loc main_v62) = kScore (kT3 m c) (a5 m c) (a6 m c)
      ∧ r.2.mem ((c.tc : Thread nD τ).loc main_v64) = kScore (kT3 m c) (a5 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v62 (by decide))).trans (s13_v62 m c),
     (h c _ (mem_uc main_v64 (by decide))).trans (s13_v64 m c),
     (h c _ (mem_uc main_arg0 (by decide))).trans (s13_arg m c main_arg0 (by decide) (by decide) (by decide) (by decide) (by decide) (by decide) (by decide) (by decide) (by decide) (by decide) (by decide) (by decide) (by decide)),
     (h c _ (mem_uc main_arg1 (by decide))).trans (s13_arg m c main_arg1 (by decide) (by decide) (by decide) (by decide) (by decide) (by decide) (by decide) (by decide) (by decide) (by decide) (by decide) (by decide) (by decide)),
     (h c _ (mem_uc main_arg2 (by decide))).trans (s13_arg m c main_arg2 (by decide) (by decide) (by decide) (by decide) (by decide) (by decide) (by decide) (by decide) (by decide) (by decide) (by decide) (by decide) (by decide)),
     (h c _ (mem_uc main_arg3 (by decide))).trans (s13_arg m c main_arg3 (by decide) (by decide) (by decide) (by decide) (by decide) (by decide) (by decide) (by decide) (by decide) (by decide) (by decide) (by decide) (by decide)),
     (h c _ (mem_uc main_arg4 (by decide))).trans (s13_arg m c main_arg4 (by decide) (by decide) (by decide) (by decide) (by decide) (by decide) (by decide) (by decide) (by decide) (by decide) (by decide) (by decide) (by decide)),
     (h c _ (mem_uc main_arg5 (by decide))).trans (s13_arg m c main_arg5 (by decide) (by decide) (by decide) (by decide) (by decide) (by decide) (by decide) (by decide) (by decide) (by decide) (by decide) (by decide) (by decide)),
     (h c _ (mem_uc main_arg6 (by decide))).trans (s13_arg m c main_arg6 (by decide) (by decide) (by decide) (by decide) (by decide) (by decide) (by decide) (by decide) (by decide) (by decide) (by decide) (by decide) (by decide)),
     (h c _ (mem_uc main_arg7 (by decide))).trans (s13_arg m c main_arg7 (by decide) (by decide) (by decide) (by decide) (by decide) (by decide) (by decide) (by decide) (by decide) (by decide) (by decide) (by decide) (by decide))⟩)
    (run_all m ρ)

end Cert.KernelIdeal.Hand

end
-- ==== Proof.Consts.lean ====
/-
  The three float constants of the two programs as the extended reals their words denote, and the one law that
  joins the two sides: three accumulation steps scaled by 1, 1 and 1/4 are the sum of the four layers divided by 4.
-/
import Idealize.ShloMosaic.PureOps.Ideal

noncomputable section

namespace Cert.Consts

open Idealize.ShloMosaic

/-- The word of `1.0` denotes `1`. -/
theorem ofBits_one : Ideal.ofBits .f32 0x3F800000#32 = 1 := by
  simp [Ideal.ofBits, Ideal.ieee, -EReal.coe_mul]; norm_num

/-- The word of `0.25` denotes the real `1/4`. -/
theorem ofBits_quarter : Ideal.ofBits .f32 0x3E800000#32 = (((1 : ℝ) / 4 : ℝ) : EReal) := by
  simp [Ideal.ofBits, Ideal.ieee, -EReal.coe_mul]; norm_num

/-- The word of `4.0` denotes the real `4`. -/
theorem ofBits_four : Ideal.ofBits .f32 0x40800000#32 = ((4 : ℝ) : EReal) := by
  simp [Ideal.ofBits, Ideal.ieee, -EReal.coe_mul]; norm_num

/-- On every extended real: scaling the first two running totals by 1 changes nothing, and scaling the last by 1/4 is
    dividing it by 4. No finiteness is needed: multiplying by 1 is the identity at the infinities too, and the
    quotient by a nonzero real IS the product with its reciprocal. -/
theorem mean_of_four (a x1 x2 x3 : EReal) :
    (((a + x1) * Ideal.ofBits .f32 0x3F800000#32 + x2) * Ideal.ofBits .f32 0x3F800000#32 + x3) * Ideal.ofBits .f32 0x3E800000#32
      = Ideal.div (a + x1 + x2 + x3) (Ideal.ofBits .f32 0x40800000#32) := by
  rw [ofBits_one, ofBits_quarter, ofBits_four, mul_one, mul_one, Ideal.div_coe (by norm_num : (4 : ℝ) ≠ 0)]

end Cert.Consts

end
-- ==== Proof.Bridge.lean ====
/-
  The reference's result is the kernel program's.

  Both programs run three layers of message passing from the same node table with the same gathers and the same
  scatter-adds.  They differ in two places.  The reference weighs a gathered row by spreading the edge weights over the
  lanes and multiplying lane-wise; the kernel multiplies each row by its edge's weight read from a column: the same
  product, entry by entry.  The reference adds the four layers and divides the sum by 4; the kernel scales its running
  total by 1, 1 and 1/4 as it goes: equal on every extended real, since multiplying by 1 is the identity and the
  quotient by 4 is the product with 1/4.  Everything after that — the split into user and item rows, the batch
  gathers, the lane-wise products and their sums — is the same function of the final table on both sides.
-/
import proofs.«142893_j63376537420313_1_alg».proof.Proof.IdealSide.Values
import proofs.«142893_j63376537420313_1_alg».proof.Proof.Gen.ReferenceIdeal.Read
import proofs.«142893_j63376537420313_1_alg».proof.Proof.Consts
import proofs.«142893_j63376537420313_1_alg».proof.Proof.LibKeepdims

set_option maxRecDepth 16384

noncomputable section

namespace Cert.Bridge

open Idealize.ShloMosaic Idealize.ShloMosaic.ValueIdx
open Cert.KernelIdeal (S100000x64 S50000x64 S150000x64 S4000000 S4000000x1 S4000000x64 S4096)
open Cert.KernelIdeal.Hand (kEmb kVals kCol kGath kScat kLayer kBatch kScore)
open Cert.ReferenceIdeal.Read

variable (x0 : S100000x64.Idx → Elt Ideal .f32) (x1 : S50000x64.Idx → Elt Ideal .f32) (x2 : S4000000.Idx → Elt Ideal .f32)
  (x3 x4 : S4000000.Idx → Elt Ideal .i32) (x5 x6 x7 : S4096.Idx → Elt Ideal .i32)

/-! ## The shared host operations, spelt in either program, are the same functions -/

theorem emb_eq : val_main_v0 (F := Ideal) x0 x1 = kEmb x0 x1 := rfl
theorem col_eq7 : val_main_v7 (F := Ideal) x4 = kCol x4 := rfl
theorem col_eq21 : val_main_v21 (F := Ideal) x4 = kCol x4 := rfl
theorem col_eq35 : val_main_v35 (F := Ideal) x4 = kCol x4 := rfl

/-! ## Weighing the gathered rows -/

/-- Spreading the edge weights over the lanes and multiplying lane-wise is multiplying each gathered row by its edge's
    weight. -/
theorem msg_eq (g : S4000000x64.Idx → Elt Ideal .f32) :
    mulf (val_main_v9 (F := Ideal) x2) g = Cert.Spec.msgArr (F := Ideal) (kVals x2) g := by
  funext i
  show FloatOps.mulf (F := Ideal) (φ := .f32) (val_main_v9 (F := Ideal) x2 i) (g i)
    = FloatOps.mulf (F := Ideal) (φ := .f32) (kVals x2 (ix2 (⟨(i 0).val, (i 0).isLt⟩ : Fin 4000000) (0 : Fin 1))) (g i)
  refine congrArg (fun z : Ideal .f32 => FloatOps.mulf (F := Ideal) (φ := .f32) z (g i)) ?_
  rw [val_main_v9_apply, val_main_v1_apply]
  unfold kVals
  refine Eq.trans ?_ (Cert.Lib.Keepdims.shapeCast_a_a1_apply (a := 4000000) x2 _ (⟨(i 0).val, (i 0).isLt⟩ : Fin 4000000) (0 : Fin 1)).symm
  exact congrArg x2 (funext fun a => by match a with | ⟨0, _⟩ => rfl)

theorem msg_eq23 (g : S4000000x64.Idx → Elt Ideal .f32) :
    mulf (val_main_v23 (F := Ideal) x2) g = Cert.Spec.msgArr (F := Ideal) (kVals x2) g := msg_eq x2 g
theorem msg_eq37 (g : S4000000x64.Idx → Elt Ideal .f32) :
    mulf (val_main_v37 (F := Ideal) x2) g = Cert.Spec.msgArr (F := Ideal) (kVals x2) g := msg_eq x2 g

/-! ## The three layers -/

theorem layer1 : val_main_v13 (F := Ideal) x0 x1 x2 x3 x4 = kLayer x2 x3 x4 (kEmb x0 x1) := by
  unfold val_main_v13 val_main_v10
  rw [msg_eq]; rfl
theorem layer2 : val_main_v27 (F := Ideal) x0 x1 x2 x3 x4 = kLayer x2 x3 x4 (val_main_v13 (F := Ideal) x0 x1 x2 x3 x4) := by
  unfold val_main_v27 val_main_v24
  rw [msg_eq23]; rfl
theorem layer3 : val_main_v41 (F := Ideal) x0 x1 x2 x3 x4 = kLayer x2 x3 x4 (val_main_v27 (F := Ideal) x0 x1 x2 x3 x4) := by
  unfold val_main_v41 val_main_v38
  rw [msg_eq37]; rfl

/-! ## The mean over the four layers -/

/-- The kernel program's final table from the arguments: the running total scaled by 1, 1 and 1/4. -/
def kTotal : S150000x64.Idx → Elt Ideal .f32 :=
  Cert.Spec.accArr (F := Ideal) (Scalar.ofBits .f32 0x3E800000#32)
    (Cert.Spec.accArr (F := Ideal) (Scalar.ofBits .f32 0x3F800000#32)
      (Cert.Spec.accArr (F := Ideal) (Scalar.ofBits .f32 0x3F800000#32) (kEmb x0 x1) (kLayer x2 x3 x4 (kEmb x0 x1)))
      (kLayer x2 x3 x4 (kLayer x2 x3 x4 (kEmb x0 x1))))
    (kLayer x2 x3 x4 (kLayer x2 x3 x4 (kLayer x2 x3 x4 (kEmb x0 x1))))

/-- The reference's mean of the four layers is that table. -/
theorem total_eq : val_main_v44 (F := Ideal) x0 x1 x2 x3 x4 = kTotal x0 x1 x2 x3 x4 := by
  funext i
  have h1 := layer1 x0 x1 x2 x3 x4
  have h2 := layer2 x0 x1 x2 x3 x4
  have h3 := layer3 x0 x1 x2 x3 x4
  rw [h1] at h2; rw [h2] at h3
  show Ideal.div ((((val_main_v0 (F := Ideal) x0 x1 i : EReal) + val_main_v13 (F := Ideal) x0 x1 x2 x3 x4 i)
        + val_main_v27 (F := Ideal) x0 x1 x2 x3 x4 i) + val_main_v41 (F := Ideal) x0 x1 x2 x3 x4 i)
      (Ideal.ofBits .f32 0x40800000#32) = _
  rw [h1, h2, h3, emb_eq]
  exact (Cert.Consts.mean_of_four _ _ _ _).symm

/-! ## The scores -/

theorem score69 : val_main_v69 (F := Ideal) x0 x1 x2 x3 x4 x5 x6 = kScore (val_main_v44 (F := Ideal) x0 x1 x2 x3 x4) x5 x6 := rfl
theorem score71 : val_main_v71 (F := Ideal) x0 x1 x2 x3 x4 x5 x7 = kScore (val_main_v44 (F := Ideal) x0 x1 x2 x3 x4) x5 x7 := rfl

/-- The reference's two results as the kernel program's terms. -/
theorem ref69 : val_main_v69 (F := Ideal) x0 x1 x2 x3 x4 x5 x6 = kScore (kTotal x0 x1 x2 x3 x4) x5 x6 := by
  rw [score69, total_eq]
theorem ref71 : val_main_v71 (F := Ideal) x0 x1 x2 x3 x4 x5 x7 = kScore (kTotal x0 x1 x2 x3 x4) x5 x7 := by
  rw [score71, total_eq]

end Cert.Bridge

end
-- ==== Proof.lean ====
/-
  The certificate of the LightGCN scoring program against its reference.

  The program concatenates the user and item embeddings into one node table, runs three layers of message passing
  (gather the table at the edges' source nodes; a kernel weighs each gathered row by its edge; scatter-add the rows at
  the target nodes; a kernel adds the layer into a running total and scales it by 1, 1, 1/4), and scores a batch of
  (user, item) pairs by the lane-wise product of their rows of the final table, summed.

  Frames.  Each of the six kernel regions streams its arrays through blocks whose last one overhangs the array; what the
  body computes on the rows past the array's end never reaches the array, and on the rows inside it the result is one
  whole-array function of the region's inputs.  The run of @main is the six regions among seven stretches of host
  operations; no stretch and no region writes an argument.  The reference is host operations only.

  Values.  At the ideal instance the kernel program's two results are the scores of the table
  `(((E + X₁)·1 + X₂)·1 + X₃)·(1/4)`, the reference's the scores of `(E + X₁ + X₂ + X₃)/4`, with the same layers
  `Xₖ` on both sides (the row-by-weight product is the lane-wise product with the spread weights): one table on every
  extended real, so no finiteness of the inputs is used.

  No operation was rewritten by the idealization, so that conjunct holds trivially.
-/
import proofs.«142893_j63376537420313_1_alg».proof.Defs
import proofs.«142893_j63376537420313_1_alg».proof.Proof.Gen.Kernel
import proofs.«142893_j63376537420313_1_alg».proof.Proof.Gen.KernelIdeal
import proofs.«142893_j63376537420313_1_alg».proof.Proof.Gen.ReferenceIdeal
import proofs.«142893_j63376537420313_1_alg».proof.Proof.Gen.Pre_finite_inputs
import proofs.«142893_j63376537420313_1_alg».proof.Proof.Gen.ReferenceIdeal.Run
import proofs.«142893_j63376537420313_1_alg».proof.Proof.Gen.ReferenceIdeal.Read
import proofs.«142893_j63376537420313_1_alg».proof.Proof.BitsSide.Keep
import proofs.«142893_j63376537420313_1_alg».proof.Proof.IdealSide.Values
import proofs.«142893_j63376537420313_1_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame_all (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame_all (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Both programs end with the scores of one table of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Hand.run_values (F := Ideal) m ρ, ?_⟩
  refine (θ_run Cert.ReferenceIdeal.defs _ _).mono (fun _ h c => ?_) (Cert.ReferenceIdeal.Value.run (F := Ideal) m' ρ')
  obtain ⟨h69, h71, hargs⟩ := h c
  obtain ⟨e0, e1, e2, e3, e4, e5, e6, e7⟩ := hagree c
  refine ⟨h69.trans ?_, h71.trans ?_, hargs⟩
  · rw [Cert.ReferenceIdeal.Read.val_main_v69_eq, e0, e1, e2, e3, e4, e5, e6, Cert.Bridge.ref69]; rfl
  · rw [Cert.ReferenceIdeal.Read.val_main_v71_eq, e0, e1, e2, e3, e4, e5, e7, Cert.Bridge.ref71]; rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
